-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S5000 : Shape := ⟨1, ![5000]⟩

abbrev nBuf : Space → Nat
  | .hbm => 61
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x128, .f32⟩
  | .hbm, ⟨40, _⟩ => ⟨S_, .f32⟩
  | .hbm, ⟨41, _⟩ => ⟨S100000x128, .f32⟩
  | .hbm, ⟨42, _⟩ => ⟨S1700000x1, .i32⟩
  | .hbm, ⟨43, _⟩ => ⟨S100000x128, .f32⟩
  | .hbm, ⟨44, _⟩ => ⟨S1x128, .f32⟩
  | .hbm, ⟨45, _⟩ => ⟨S100000x64, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S_, .f32⟩
  | .hbm, ⟨101, _⟩ => ⟨S100000, .f32⟩
  | .hbm, ⟨102, _⟩ => ⟨S100000x1, .f32⟩
  | .hbm, ⟨103, _⟩ => ⟨S100000x1, .f32⟩
  | .hbm, ⟨104, _⟩ => ⟨S100000x64, .f32⟩
  | .hbm, ⟨105, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call2_cst : Ref sig .tc := ⟨.hbm, 91, rfl⟩
abbrev main_call2_v0 : Ref sig .tc := ⟨.hbm, 92, rfl⟩
abbrev main_call2_cst_0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_cst_1 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_v66 : Ref sig .tc := ⟨.hbm, 105, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result named.

  The program is three pipelined regions among stretches of host operations. Its run ends with every buffer that
  outlives a region at the contents the last boundary of the run gives it: the fold of the host stretches and of the
  regions' write-backs from the launch memory. Read here off that final state: the result buffer, beside the six
  argument arrays, which end as launched.
-/
import proofs.«143718_j79242146611357_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the contents the
    run's last boundary gives it, and the arguments end as launched. -/
theorem run_result : θ_run defs (onTc (τ := τ) (main (F := F))) ⟨m, fun _ => 0, ρ⟩ (fun r => ∀ c : Dev nD,
      r.2.mem ((c.tc : Thread nD τ).loc main_v41) = W8 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v41 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Result

end
-- ==== Proof.Spec.lean ====
/-
  The row-wise log-softmax both programs end with, as one function of a row of 64 logits.

  Both programs take a row's maximum as the fold of `max` from `−∞` (and once more against `−∞`), subtract it, and
  subtract the logarithm of the sum of the exponentials of the shifted row. Stated once, over a row as a function of the
  lane, so that the two sides meet in one term.
-/
import Idealize.ShloMosaic.PureOps.Ideal

noncomputable section

namespace Cert.Spec

open Idealize.ShloMosaic

/-- The word both programs start a maximum from: `−∞`. -/
abbrev negInf : EReal := Ideal.ofBits .f32 0xFF800000#32

/-- A row's maximum as both programs take it: `−∞` against the fold of `max` from `−∞` over the 64 lanes. -/
def rowMax (row : Fin 64 → EReal) : EReal := max negInf (Finset.univ.fold max negInf row)

/-- The log-softmax of a row at lane `q`: the row shifted by its maximum, less the logarithm of the sum of the
    exponentials of the shifted row. -/
def rowLogSoftmax (row : Fin 64 → EReal) (q : Fin 64) : EReal :=
  (row q - rowMax row) - Ideal.log (∑ k : Fin 64, Ideal.exp (row k - rowMax row))

end Cert.Spec

end
-- ==== Proof.RegionSpec.lean ====
/-
  What each of the kernel's three regions computes, as functions of whole arrays.

  Region 0: the product `x · W` with row `r` scaled by the degree column's entry of row `r`.
  Region 1: the aggregate scaled the same way, plus the bias row, maximum with zero, times `W`, scaled again.
  Region 2: the aggregate scaled, plus the bias row, through the row-wise log-softmax.
-/
import Idealize.ShloMosaic.Lib.ValueIdx
import Idealize.ShloMosaic.PureOps.Ideal
import proofs.«143718_j79242146611357_2_alg».proof.Proof.Spec

noncomputable section

open Idealize.ShloMosaic Idealize.ShloMosaic.ValueIdx

namespace Cert.KernelIdeal.Region0

/-- Row `r`, lane `f` of the scaled product: `(∑ k, x[r, k] · W[k, f]) · col[r, 0]`. -/
def scaledProduct (x : (⟨2, ![100000, 128]⟩ : Shape).Idx → EReal) (w : (⟨2, ![128, 128]⟩ : Shape).Idx → EReal)
    (col : (⟨2, ![100000, 1]⟩ : Shape).Idx → EReal) : (⟨2, ![100000, 128]⟩ : Shape).Idx → EReal :=
  fun i => (∑ k : Fin 128, x (ix2 (⟨(i 0).val, idx2_lt0 i⟩ : Fin 100000) k) * w (ix2 k (⟨(i 1).val, idx2_lt1 i⟩ : Fin 128)))
    * col (ix2 (⟨(i 0).val, idx2_lt0 i⟩ : Fin 100000) (0 : Fin 1))

end Cert.KernelIdeal.Region0

namespace Cert.KernelIdeal.Region1

/-- Row `r`, lane `q` of the region's result:
    `(∑ k, max (agg[r, k] · col[r, 0] + b[0, k]) 0 · W[k, q]) · col[r, 0]`. -/
def hiddenScaled (agg : (⟨2, ![100000, 128]⟩ : Shape).Idx → EReal) (col : (⟨2, ![100000, 1]⟩ : Shape).Idx → EReal)
    (b : (⟨2, ![1, 128]⟩ : Shape).Idx → EReal) (w : (⟨2, ![128, 64]⟩ : Shape).Idx → EReal) :
    (⟨2, ![100000, 64]⟩ : Shape).Idx → EReal :=
  fun i => (∑ k : Fin 128,
      max (agg (ix2 (⟨(i 0).val, idx2_lt0 i⟩ : Fin 100000) k) * col (ix2 (⟨(i 0).val, idx2_lt0 i⟩ : Fin 100000) (0 : Fin 1))
          + b (ix2 (0 : Fin 1) k)) (Ideal.ofBits .f32 0x00000000#32)
        * w (ix2 k (⟨(i 1).val, idx2_lt1 i⟩ : Fin 64)))
    * col (ix2 (⟨(i 0).val, idx2_lt0 i⟩ : Fin 100000) (0 : Fin 1))

end Cert.KernelIdeal.Region1

namespace Cert.KernelIdeal.Region2

open Cert.Spec

/-- Row `r` of the logits: `agg[r, k] · col[r, 0] + b[0, k]`. -/
def logitsRow (agg : (⟨2, ![100000, 64]⟩ : Shape).Idx → EReal) (col : (⟨2, ![100000, 1]⟩ : Shape).Idx → EReal)
    (b : (⟨2, ![1, 64]⟩ : Shape).Idx → EReal) (r : Fin 100000) : Fin 64 → EReal :=
  fun k => agg (ix2 r k) * col (ix2 r (0 : Fin 1)) + b (ix2 (0 : Fin 1) k)

/-- The region's result: at `(r, q)`, the log-softmax of row `r` of the logits at lane `q`. -/
def logSoftmaxRows (agg : (⟨2, ![100000, 64]⟩ : Shape).Idx → EReal) (col : (⟨2, ![100000, 1]⟩ : Shape).Idx → EReal)
    (b : (⟨2, ![1, 64]⟩ : Shape).Idx → EReal) : (⟨2, ![100000, 64]⟩ : Shape).Idx → EReal :=
  fun i => rowLogSoftmax (logitsRow agg col b ⟨(i 0).val, idx2_lt0 i⟩) ⟨(i 1).val, idx2_lt1 i⟩

end Cert.KernelIdeal.Region2

end
-- ==== Proof.KernelHostDefs.lean ====
/-
  The functions the idealized kernel computes on the host, between its regions.

  The source and destination columns of the edge list with a self loop appended per node; the degrees, a scatter-add
  of ones by destination; their inverse square roots (the power `-1/2` where the degree is positive, `0` elsewhere), also
  as a column; and the aggregation `segment_sum(h[src], dst)`: the source rows gathered (the index wrapped as numpy wraps
  a negative one) and scatter-added onto their destination rows.
-/
import proofs.«143718_j79242146611357_2_alg».proof.Proof.Gen.KernelIdeal
import Idealize.ShloMosaic.PureOps.Ideal
import proofs.«143718_j79242146611357_2_alg».proof.Proof.RegionSpec

noncomputable section

namespace Cert.KernelIdeal.Host

open Cert.KernelIdeal Cert.KernelIdeal.Facts₀
open Idealize.ShloMosaic Idealize.ShloMosaic.TcCoe

/-! ## The host's functions -/

/-- The source column: row 0 of the edge list, then the node numbers (the self loops). -/
def srcRaw (ei : S2x1600000.Idx → BitVec 32) : S1700000.Idx → BitVec 32 :=
  concatenate S1700000 0 [⟨S1600000, shapeCast S1600000
      (extractStridedSlice S1x1600000 ![0, 0] ei slices_S2x1600000_S1x1600000_0_0) shapeCasts_S1x1600000_S1600000⟩,
    ⟨S100000, iotaInDim S100000 32 0⟩] concatenates_S1600000_S100000_S1700000_d0

/-- The destination column: row 1 of the edge list, then the node numbers. -/
def dstRaw (ei : S2x1600000.Idx → BitVec 32) : S1700000.Idx → BitVec 32 :=
  concatenate S1700000 0 [⟨S1600000, shapeCast S1600000
      (extractStridedSlice S1x1600000 ![1, 0] ei slices_S2x1600000_S1x1600000_1_0) shapeCasts_S1x1600000_S1600000⟩,
    ⟨S100000, iotaInDim S100000 32 0⟩] concatenates_S1600000_S100000_S1700000_d0

/-- The degrees: ones scatter-added by destination onto zeros. -/
def deg (ei : S2x1600000.Idx → BitVec 32) : FVec Ideal S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 (dstRaw ei))
    (broadcastInDim S1700000 ![] bcast_S_S1700000 (constant (F := Ideal) S_ .f32 0x3F800000#32))

/-- The inverse square roots of the degrees: the power `-1/2` where the degree is positive, `0` elsewhere. -/
def dinv (ei : S2x1600000.Idx → BitVec 32) : FVec Ideal S100000 .f32 :=
  select (cmpf .ogt (deg ei) (broadcastInDim S100000 ![] bcast_S_S100000 (constant (F := Ideal) S_ .f32 0x00000000#32)))
    (Host.powf (deg ei) (broadcastInDim S100000 ![] bcast_S_S100000 (constant (F := Ideal) S_ .f32 0xBF000000#32)))
    (broadcastInDim S100000 ![] bcast_S_S100000 (id (constant (F := Ideal) S_ .f32 0x00000000#32)))

/-- The same as a column `[100000, 1]`. -/
def dinvCol (ei : S2x1600000.Idx → BitVec 32) : FVec Ideal S100000x1 .f32 :=
  shapeCast S100000x1 (dinv ei) shapeCasts_S100000_S100000x1

/-- The source column wrapped as numpy wraps a negative index, as a column of start indices. -/
def srcCol (ei : S2x1600000.Idx → BitVec 32) : S1700000x1.Idx → BitVec 32 :=
  broadcastInDim S1700000x1 ![0] bcast_S1700000_S1700000x1_0
    (select (cmpi .slt (srcRaw ei) (broadcastInDim S1700000 ![] bcast_S_S1700000 (constantI S_ 32 0#32)))
      (addi (srcRaw ei) (broadcastInDim S1700000 ![] bcast_S_S1700000 (constantI S_ 32 100000#32))) (srcRaw ei))

/-- The destination column as a column of scatter indices. -/
def dstCol (ei : S2x1600000.Idx → BitVec 32) : S1700000x1.Idx → BitVec 32 :=
  broadcastInDim S1700000x1 ![0] bcast_S1700000_S1700000x1_0 (dstRaw ei)

/-- The aggregation of 128-lane rows: the source rows gathered, scatter-added onto their destination rows. -/
def agg128 (ei : S2x1600000.Idx → BitVec 32) (h : FVec Ideal S100000x128 .f32) : FVec Ideal S100000x128 .f32 :=
  Host.scatterAdd scatter_S100000x128_S1700000x1_S1700000x128_1_0_0_1
    (broadcastInDim S100000x128 ![] bcast_S_S100000x128 (constant (F := Ideal) S_ .f32 0x00000000#32))
    (dstCol ei) (Host.gather gather_S100000x128_S1700000x1_S1700000x128_1_0_n_n_0_1_1128 h (srcCol ei))

/-- The aggregation of 64-lane rows. -/
def agg64 (ei : S2x1600000.Idx → BitVec 32) (h : FVec Ideal S100000x64 .f32) : FVec Ideal S100000x64 .f32 :=
  Host.scatterAdd scatter_S100000x64_S1700000x1_S1700000x64_1_0_0_1
    (broadcastInDim S100000x64 ![] bcast_S_S100000x64 (constant (F := Ideal) S_ .f32 0x00000000#32))
    (dstCol ei) (Host.gather gather_S100000x64_S1700000x1_S1700000x64_1_0_n_n_0_1_164 h (srcCol ei))

/-- The first hidden layer as the kernel leaves it: scaled, to be aggregated once more. -/
def hidden (x : S100000x128.Idx → EReal) (ei : S2x1600000.Idx → BitVec 32) (w1 : S128x128.Idx → EReal)
    (b1 : S128.Idx → EReal) (w2 : S128x64.Idx → EReal) : S100000x64.Idx → EReal :=
  Region1.hiddenScaled (agg128 ei (Region0.scaledProduct x w1 (dinvCol ei))) (dinvCol ei)
    (shapeCast S1x128 b1 shapeCasts_S128_S1x128) w2

/-- THE KERNEL'S VALUE as one function of the arguments. -/
def value (x : S100000x128.Idx → EReal) (ei : S2x1600000.Idx → BitVec 32) (w1 : S128x128.Idx → EReal)
    (b1 : S128.Idx → EReal) (w2 : S128x64.Idx → EReal) (b2 : S64.Idx → EReal) : S100000x64.Idx → EReal :=
  Region2.logSoftmaxRows (agg64 ei (hidden x ei w1 b1 w2)) (dinvCol ei) (shapeCast S1x64 b2 shapeCasts_S64_S1x64)

end Cert.KernelIdeal.Host

end
-- ==== Proof.LibColumnBroadcast.lean ====
/-
  A column broadcast along the lanes. A per-row quantity kept as a column `[a, 1]` (a row's maximum, a row's sum) is
  broadcast to `[a, b]` by repeating its one entry along each row: entry `(p, c)` of the result is entry `(p, 0)` of
  the column, whatever the lane `c`.
-/
import Idealize.ShloMosaic.Lib.Pipeline.Value
import Idealize.ShloMosaic.Lib.ValueIdx

noncomputable section

namespace Cert.Lib.ColumnBroadcast

open Idealize.ShloMosaic Idealize.ShloMosaic.ValueIdx

variable {α : Type}

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnBroadcast

end
-- ==== Proof.LibKeepdimsLayout.lean ====
/-
  Layout operations, lane sums and a plain two-axis matrix product read at an index given by coordinates, for the
  keepdims shapes a pairwise network meets: a trailing or middle unit axis added by a shape cast, two leading unit axes
  added or dropped, two leading axes merged into one and a trailing axis split in two (both row-major), a broadcast
  along one or two unit axes of a rank-3 array, a sum over the first axis of a matrix and over the last axis of a
  rank-3 array, and a matrix product into a zero accumulator as the sum over the contracted coordinate.
-/
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayLayout

open Idealize.ShloMosaic Idealize.ShloMosaic.ValueIdx

variable {α : Type}

/-! ## Shape casts that add or drop unit axes -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, d)`, the operand at `(i, d)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (d : Fin c) :
    shapeCast ⟨3, ![a, 1, c]⟩ x h (ix3 i u d) = x (ix2 i d) :=
  shapeCast_apply x h _ _ (by
    have hu : u.val = 0 := by omega
    rw [Shape.rowMajor_val_three, Shape.rowMajor_val_two]
    show i.val * c + d.val = (i.val * 1 + u.val) * c + d.val
    rw [hu, Nat.mul_one, Nat.add_zero])

/-- A vector `[c]` cast to `[1, 1, c]` reads, at `(u, v, d)`, the operand at `d`. -/
theorem shapeCast_c_11c_apply {c : ℕ} (x : (⟨1, ![c]⟩ : Shape).Idx → α)
    (h : (⟨1, ![c]⟩ : Shape).ShapeCasts ⟨3, ![1, 1, c]⟩) (u v : Fin 1) (d : Fin c) :
    shapeCast ⟨3, ![1, 1, c]⟩ x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * c + d.val
    simp [hu, hv])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp [hu, hv])

/-! ## Row-major merges and splits -/

/-- An `[a, b, c]` array cast to `[n, c]` with the two leading axes merged reads, at `(r, d)` with `r = i * b + j`,
    the operand at `(i, j, d)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (d : Fin c) (r : Fin n)
    (hr : r.val = i.val * b + j.val) :
    shapeCast ⟨2, ![n, c]⟩ x h (ix2 r d) = x (ix3 i j d) :=
  shapeCast_apply x h _ _ (by
    rw [Shape.rowMajor_val_three, Shape.rowMajor_val_two]
    show (i.val * b + j.val) * c + d.val = r.val * c + d.val
    rw [hr])

/-- An `[n, c]` array cast to `[a, m]` with `n = a * b` rows regrouped `b` to a row, so `m = b * c`, reads, at
    `(i, q)` with `q = j * c + o`, the operand at `(r, o)` with `r = i * b + j`. -/
theorem shapeCast_nc_am_apply {a b c n m : ℕ} (x : (⟨2, ![n, c]⟩ : Shape).Idx → α)
    (h : (⟨2, ![n, c]⟩ : Shape).ShapeCasts ⟨2, ![a, m]⟩) (hm : m = b * c) (i : Fin a) (j : Fin b) (o : Fin c)
    (r : Fin n) (q : Fin m) (hr : r.val = i.val * b + j.val) (hq : q.val = j.val * c + o.val) :
    shapeCast ⟨2, ![a, m]⟩ x h (ix2 i q) = x (ix2 r o) :=
  shapeCast_apply x h _ _ (by
    rw [Shape.rowMajor_val_two, Shape.rowMajor_val_two]
    show r.val * c + o.val = i.val * m + q.val
    rw [hr, hq, hm]
    ring)

/-! ## Broadcasts of a rank-3 array along its unit axes -/

/-- An `[a, 1, c]` array broadcast to `[a, b, c]` reads, at `(i, j, d)`, the operand at `(i, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (d : Fin c) :
    broadcastTo ⟨3, ![a, b, c]⟩ v h (ix3 i j d) = v (ix3 i (0 : Fin 1) d) := by
  refine broadcastTo_apply v h (ix3 i j d) (ix3 i (0 : Fin 1) d) fun ax => ?_
  match ax with
  | ⟨0, _⟩ =>
    show i.val = if a = 1 then 0 else i.val
    split
    · have := i.isLt; omega
    · rfl
  | ⟨1, _⟩ => rfl
  | ⟨2, _⟩ =>
    show d.val = if c = 1 then 0 else d.val
    split
    · have := d.isLt; omega
    · rfl

/-- A `[1, b, c]` array broadcast to `[a, b, c]` reads, at `(i, j, d)`, the operand at `(0, j, d)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (d : Fin c) :
    broadcastTo ⟨3, ![a, b, c]⟩ v h (ix3 i j d) = v (ix3 (0 : Fin 1) j d) := by
  refine broadcastTo_apply v h (ix3 i j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- A `[1, 1, c]` array broadcast to `[a, b, c]` reads, at `(i, j, d)`, the operand at `(0, 0, d)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (d : Fin c) :
    broadcastTo ⟨3, ![a, b, c]⟩ v h (ix3 i j d) = v (ix3 (0 : Fin 1) (0 : Fin 1) d) := by
  refine broadcastTo_apply v h (ix3 i j d) (ix3 (0 : Fin 1) (0 : Fin 1) d) fun ax => ?_
  match ax with
  | ⟨0, _⟩ => rfl
  | ⟨1, _⟩ => rfl
  | ⟨2, _⟩ =>
    show d.val = if c = 1 then 0 else d.val
    split
    · have := d.isLt; omega
    · rfl

/-- An `[a, b, 1]` array broadcast to `[a, b, c]` reads, at `(i, j, d)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (d : Fin c) :
    broadcastTo ⟨3, ![a, b, c]⟩ v h (ix3 i j d) = v (ix3 i j (0 : Fin 1)) := by
  refine broadcastTo_apply v h (ix3 i j d) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## Sums over one axis -/

/-- The sum of an `[a, c]` matrix over its rows reads, at `f`, the sum over `r` of the matrix at `(r, f)`. -/
theorem rowSum_apply {a c : ℕ} (src : FVec Ideal ⟨2, ![a, c]⟩ .f32)
    (h : (⟨2, ![a, c]⟩ : Shape).Reduces [0] ⟨1, ![c]⟩) (hφ : FKind.Formats .f32)
    (hacc : (0x00000000#32 : BitVec 32) = 0x00000000#32) (f : Fin c) :
    multiReduction .add [0] ⟨1, ![c]⟩ src 0x00000000#32 h hφ hacc (ix1 f) = ∑ r : Fin a, src (ix2 r f) := by
  refine (Ideal.multiReduction_add_single src 0x00000000#32 h hφ hacc (ix1 f)).trans ?_
  refine Finset.sum_congr rfl fun r _ => congrArg src (funext fun ax => Fin.ext ?_)
  match ax with
  | ⟨0, _⟩ => rfl
  | ⟨1, _⟩ => rfl

/-- The sum of an `[a, b, c]` array over its last axis reads, at `(i, j)`, the sum over `d` of the array at
    `(i, j, d)`. -/
theorem laneSum_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ d : Fin c, src (ix3 i j d) := by
  refine (Ideal.multiReduction_add_single src 0x00000000#32 h hφ hacc (ix2 i j)).trans ?_
  refine Finset.sum_congr rfl fun d _ => congrArg src (funext fun ax => Fin.ext ?_)
  match ax with
  | ⟨0, _⟩ => rfl
  | ⟨1, _⟩ => rfl
  | ⟨2, _⟩ => rfl

/-! ## A plain matrix product into a zero accumulator -/

/-- For dimension numbers that contract the left operand's columns with the right operand's rows (`hl0` … `hr1`: the
    operand indices at an output index and a contraction position, read off the numbers), an `[m, k] · [k, n]`
    product into the zero splat reads, at `(r, c)`, the sum over `f` of left `(r, f)` times right `(f, c)`. -/
theorem matmul_zero_ix2_apply {m k n : ℕ} {φ₁ φ₂ : FTy}
    (D : DotDims ⟨2, ![m, k]⟩ ⟨2, ![k, n]⟩ ⟨2, ![m, n]⟩) (hrank : D.contr.rank = 1)
    (hsize : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (prec : Option ContractPrecision) (lhs : FVec Ideal ⟨2, ![m, k]⟩ φ₁) (rhs : FVec Ideal ⟨2, ![k, n]⟩ φ₂)
    (r : Fin m) (c : Fin n) :
    matmul D prec lhs rhs (constant (F := Ideal) ⟨2, ![m, n]⟩ .f32 0x00000000#32) (ix2 r c)
      = ∑ f : Fin k, lhs (ix2 r f) * rhs (ix2 f c) := by
  refine (Ideal.matmul_constant_zero_apply D prec lhs rhs (ix2 r c)).trans ?_
  rw [← Equiv.sum_comp (contrEquiv1 D k hrank hsize).symm]
  refine Finset.sum_congr rfl fun f _ => ?_
  have hf := contrEquiv1_symm_val D k hrank hsize f
  have el : D.lhsIdx (ix2 r c) ((contrEquiv1 D k hrank hsize).symm f) = ix2 r f := funext fun ax => Fin.ext (by
    match ax with
    | ⟨0, _⟩ => exact hl0 _ _
    | ⟨1, _⟩ => exact (hl1 _ _).trans hf)
  have er : D.rhsIdx (ix2 r c) ((contrEquiv1 D k hrank hsize).symm f) = ix2 f c := funext fun ax => Fin.ext (by
    match ax with
    | ⟨0, _⟩ => exact (hr0 _ _).trans hf
    | ⟨1, _⟩ => exact hr1 _ _)
  rw [el, er]

end Cert.KernelIdeal.PayLayout

end
-- ==== Proof.Region0.lean ====
/-
  Region 0: the first scaled product, as one function of the arrays the region finds.

  The region walks the 100000 rows in 20 blocks of 5000. At a block its body multiplies the block of `x` by the whole of
  `W` (a matrix product into a zero accumulator: a plain sum over the 128 contracted columns) and scales row `r` of the
  product by the one entry of the degree column's row `r`. Block `t` of the output is rows `5000 t … 5000 t + 4999`, the
  same rows of `x` and of the column, and all of `W`; the 20 blocks tile the output, so the output array ends holding,
  at `(r, f)`, `(∑ k, x[r, k] · W[k, f]) · col[r, 0]`.
-/
import proofs.«143718_j79242146611357_2_alg».proof.Proof.Gen.KernelIdeal.Frame
import proofs.«143718_j79242146611357_2_alg».proof.Proof.LibColumnBroadcast
import proofs.«143718_j79242146611357_2_alg».proof.Proof.RegionSpec
import proofs.«143718_j79242146611357_2_alg».proof.Proof.LibKeepdimsLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The body's stored value at `(p, q)` of a block: the product's entry scaled by the column's entry of row `p`. -/
theorem pay_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  show matmul dot_S5000x128_S128x128_S5000x128_1_0_0_1_n_n none (truncf .bf16 x0 bitsLt_bf16_f32)
      (truncf .bf16 x1 bitsLt_bf16_f32) (constant (F := Ideal) S5000x128 .f32 0x00000000#32) (ix2 p q)
    * broadcastTo S5000x128 (shapeCast S5000x1 x2 shapeCasts_S5000x1_S5000x1) broadcasts_S5000x1_S5000x128 (ix2 p q) = _
  rw [Cert.KernelIdeal.PayLayout.matmul_zero_ix2_apply dot_S5000x128_S128x128_S5000x128_1_0_0_1_n_n rfl rfl
      (fun _ _ => rfl) (fun _ _ => rfl) (fun _ _ => rfl) (fun _ _ => rfl),
    Cert.Lib.ColumnBroadcast.broadcastTo_a1_ab_apply, shapeCast_self]
  rfl

/-- A block's stored value is the scaled product of the whole arrays at the block's place: the block of `x` and of the
    column are rows `5000 t + p`, the block of `W` is all of it. -/
theorem pay_block (x0 : Vec Ideal S5000x128 .f32) (x1 : Vec Ideal S128x128 .f32) (x2 : Vec Ideal S5000x1 .f32)
    (X : S100000x128.Idx → EReal) (W : S128x128.Idx → EReal) (D : S100000x1.Idx → EReal) (t : ℕ)
    (h0 : ∀ (p : Fin 5000) (k : Fin 128) (r : Fin 100000), r.val = t * 5000 + p.val → x0 (ix2 p k) = X (ix2 r k))
    (h1 : ∀ (k q : Fin 128), x1 (ix2 k q) = W (ix2 k q))
    (h2 : ∀ (p : Fin 5000) (r : Fin 100000), r.val = t * 5000 + p.val → x2 (ix2 p (0 : Fin 1)) = D (ix2 r (0 : Fin 1)))
    (y : S5000x128.Idx) (i : S100000x128.Idx) (hi0 : (i 0).val = t * 5000 + (y 0).val) (hi1 : (i 1).val = (y 1).val) :
    k0_pay1 x0 x1 x2 y = scaledProduct X W D i := by
  obtain ⟨p, q, rfl⟩ : ∃ (p : Fin 5000) (q : Fin 128), y = ix2 p q := ⟨y 0, y 1, eq_ix2 y⟩
  rw [pay_apply]
  unfold scaledProduct
  have hq : (⟨(i 1).val, idx2_lt1 i⟩ : Fin 128) = q := Fin.ext hi1
  rw [hq, h2 p ⟨(i 0).val, idx2_lt0 i⟩ hi0]
  congr 1
  refine Finset.sum_congr rfl fun k _ => ?_
  rw [h0 p k ⟨(i 0).val, idx2_lt0 i⟩ hi0, h1 k q]

/-- The printed index maps, decided over the grid: the row blocks move with the point, `W`'s block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- WHAT POINT `t` WRITES BACK is block `t` of the scaled product of the arrays the region finds. -/
theorem flushed_eq (c : Dev nD) (t : Fin cfg0.N) :
    (dat0 V c).flushed 3 t
      = ((cfg0.win 3).blk t).view.read (Elt Ideal) (scaledProduct (V c main_arg0) (V c main_arg2) (V c main_v16)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e00, e01, e10, e11, e20, e21, e30, e31⟩ := idx_facts t
  funext j
  show k0_pay1 (iblk0 V c 0 t) (iblk0 V c 1 t) (iblk0 V c 2 t) j
    = scaledProduct (V c main_arg0) (V c main_arg2) (V c main_v16) (((cfg0.win 3).blk t).view.emb j)
  refine pay_block _ _ _ (V c main_arg0) (V c main_arg2) (V c main_v16) t.val ?_ ?_ ?_ j _ ?_ ?_
  · intro p k r hr
    unfold iblk0
    rw [View.read_apply]
    show V c main_arg0 (((cfg0.win 0).blk t).view.emb (ix2 p k)) = V c main_arg0 (ix2 r k)
    congr 1
    funext a
    apply Fin.ext
    match a with
    | ⟨0, _⟩ => show win0_0.index t (0 : Fin 2) * 5000 + 1 * p.val = r.val; omega
    | ⟨1, _⟩ => show win0_0.index t (1 : Fin 2) * 128 + 1 * k.val = k.val; omega
  · intro k q
    unfold iblk0
    rw [View.read_apply]
    show V c main_arg2 (((cfg0.win 1).blk t).view.emb (ix2 k q)) = V c main_arg2 (ix2 k q)
    congr 1
    funext a
    apply Fin.ext
    match a with
    | ⟨0, _⟩ => show win0_1.index t (0 : Fin 2) * 128 + 1 * k.val = k.val; omega
    | ⟨1, _⟩ => show win0_1.index t (1 : Fin 2) * 128 + 1 * q.val = q.val; omega
  · intro p r hr
    unfold iblk0
    rw [View.read_apply]
    show V c main_v16 (((cfg0.win 2).blk t).view.emb (ix2 p (0 : Fin 1))) = V c main_v16 (ix2 r (0 : Fin 1))
    congr 1
    funext a
    apply Fin.ext
    match a with
    | ⟨0, _⟩ => show win0_2.index t (0 : Fin 2) * 5000 + 1 * p.val = r.val; omega
    | ⟨1, _⟩ => show win0_2.index t (1 : Fin 2) * 1 + 1 * 0 = 0; omega
  · show win0_3.index t (0 : Fin 2) * 5000 + 1 * (j 0).val = t.val * 5000 + (j 0).val; omega
  · show win0_3.index t (1 : Fin 2) * 128 + 1 * (j 1).val = (j 1).val; omega

/-- An index of the output array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v17).slice (win0_3.rect t)).set ↔ _
  rw [View.set_slice_whole, Rect.mem_set_unit]
  exact Iff.rfl

/-- Every row is in some point's block: row `r` in that of point `r / 5000`. -/
theorem cover (i : S100000x128.Idx) :
    ∃ t : Fin cfg0.N, (cfg0.win 3).flush t = true ∧ i ∈ ((cfg0.win 3).blk t).view.set := by
  have hi0 : (i 0).val < 100000 := idx2_lt0 i
  have hi1 : (i 1).val < 128 := idx2_lt1 i
  have hN : cfg0.N = 20 := N_0
  have ht : (i 0).val / 5000 < cfg0.N := by rw [hN]; omega
  refine ⟨⟨(i 0).val / 5000, ht⟩, flush0_3 _, ?_⟩
  rw [mem_blk]
  obtain ⟨-, -, -, -, -, -, e30, e31⟩ := idx_facts ⟨(i 0).val / 5000, ht⟩
  have e30' : win0_3.index ⟨(i 0).val / 5000, ht⟩ (0 : Fin 2) = (i 0).val / 5000 := e30
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    omega

/-- THE OUTPUT ARRAY after the region: the scaled product of the arrays the region finds. -/
theorem final (c : Dev nD) :
    (dat0 V c).arrAt 3 cfg0.N = scaledProduct (V c main_arg0) (V c main_arg2) (V c main_v16) :=
  (dat0 V c).arrAt_eq_of_cover 3 _ (fun t _ => flushed_eq V c t) cover

end Cert.KernelIdeal.Region0

end
-- ==== Proof.Region1.lean ====
/-
  Region 1: bias, rectifier, second product and scale, as one function of the arrays the region finds.

  The region walks the 100000 rows in 20 blocks of 5000. At a block its body scales row `r` of the aggregate by the
  degree column's entry of row `r`, adds the bias row, takes the maximum with zero, multiplies by the whole of `W` (a
  matrix product into a zero accumulator: a plain sum over the 128 contracted columns) and scales row `r` of the product
  by the column's entry again. Block `t` of the output is rows `5000 t … 5000 t + 4999`, from the same rows of the
  aggregate and of the column and all of the bias row and of `W`; the 20 blocks tile the output.
-/
import proofs.«143718_j79242146611357_2_alg».proof.Proof.Gen.KernelIdeal.Frame
import proofs.«143718_j79242146611357_2_alg».proof.Proof.LibColumnBroadcast
import proofs.«143718_j79242146611357_2_alg».proof.Proof.RegionSpec
import proofs.«143718_j79242146611357_2_alg».proof.Proof.LibKeepdimsLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## The body's stored value, piece by piece -/

/-- The block of hidden activations: scale, bias, maximum with zero. -/
def hiddenBlock (v0 : Vec Ideal S5000x128 .f32) (v2 : Vec Ideal S5000x1 .f32) (v6 : Vec Ideal S1x128 .f32) :
    FVec Ideal S5000x128 .f32 :=
  maximumf (addf (mulf (shapeCast S5000x128 v0 shapeCasts_S5000x128_S5000x128)
        (broadcastTo S5000x128 (shapeCast S5000x1 v2 shapeCasts_S5000x1_S5000x1) broadcasts_S5000x1_S5000x128))
      (broadcastTo S5000x128 (shapeCast S1x128 v6 shapeCasts_S1x128_S1x128) broadcasts_S1x128_S5000x128))
    (broadcast S5000x128 (Scalar.ofBits (F := Ideal) .f32 0x00000000#32))

/-- The body's stored value: the hidden block times `W`, scaled by the column. -/
theorem pay_eq (v0 : Vec Ideal S5000x128 .f32) (v2 : Vec Ideal S5000x1 .f32) (v6 : Vec Ideal S1x128 .f32)
    (v13 : Vec Ideal S128x64 .f32) (v16 : Vec Ideal S5000x1 .f32) :
    k1_pay1 v0 v2 v6 v13 v16
      = mulf (matmul dot_S5000x128_S128x64_S5000x64_1_0_0_1_n_n none (truncf .bf16 (hiddenBlock v0 v2 v6) bitsLt_bf16_f32)
          (truncf .bf16 v13 bitsLt_bf16_f32) (constant (F := Ideal) S5000x64 .f32 0x00000000#32))
        (broadcastTo S5000x64 (shapeCast S5000x1 v16 shapeCasts_S5000x1_S5000x1) broadcasts_S5000x1_S5000x64) := rfl

theorem hiddenBlock_apply (v0 : Vec Ideal S5000x128 .f32) (v2 : Vec Ideal S5000x1 .f32) (v6 : Vec Ideal S1x128 .f32)
    (p : Fin 5000) (k : Fin 128) :
    hiddenBlock v0 v2 v6 (ix2 p k)
      = max (v0 (ix2 p k) * v2 (ix2 p (0 : Fin 1)) + v6 (ix2 (0 : Fin 1) k)) (Ideal.ofBits .f32 0x00000000#32) := by
  unfold hiddenBlock
  show max (shapeCast S5000x128 v0 shapeCasts_S5000x128_S5000x128 (ix2 p k)
      * broadcastTo S5000x128 (shapeCast S5000x1 v2 shapeCasts_S5000x1_S5000x1) broadcasts_S5000x1_S5000x128 (ix2 p k)
    + broadcastTo S5000x128 (shapeCast S1x128 v6 shapeCasts_S1x128_S1x128) broadcasts_S1x128_S5000x128 (ix2 p k))
    (Ideal.ofBits .f32 0x00000000#32) = _
  rw [Cert.Lib.ColumnBroadcast.broadcastTo_a1_ab_apply, broadcastTo_1b_ab_apply, shapeCast_self, shapeCast_self, shapeCast_self]

/-- The body's stored value at `(p, q)`. -/
theorem pay_apply (v0 : Vec Ideal S5000x128 .f32) (v2 : Vec Ideal S5000x1 .f32) (v6 : Vec Ideal S1x128 .f32)
    (v13 : Vec Ideal S128x64 .f32) (v16 : Vec Ideal S5000x1 .f32) (p : Fin 5000) (q : Fin 64) :
    k1_pay1 v0 v2 v6 v13 v16 (ix2 p q)
      = (∑ k : Fin 128, max (v0 (ix2 p k) * v2 (ix2 p (0 : Fin 1)) + v6 (ix2 (0 : Fin 1) k)) (Ideal.ofBits .f32 0x00000000#32)
          * v13 (ix2 k q)) * v16 (ix2 p (0 : Fin 1)) := by
  rw [pay_eq]
  show matmul dot_S5000x128_S128x64_S5000x64_1_0_0_1_n_n none (truncf .bf16 (hiddenBlock v0 v2 v6) bitsLt_bf16_f32)
      (truncf .bf16 v13 bitsLt_bf16_f32) (constant (F := Ideal) S5000x64 .f32 0x00000000#32) (ix2 p q)
    * broadcastTo S5000x64 (shapeCast S5000x1 v16 shapeCasts_S5000x1_S5000x1) broadcasts_S5000x1_S5000x64 (ix2 p q) = _
  rw [Cert.KernelIdeal.PayLayout.matmul_zero_ix2_apply dot_S5000x128_S128x64_S5000x64_1_0_0_1_n_n rfl rfl
      (fun _ _ => rfl) (fun _ _ => rfl) (fun _ _ => rfl) (fun _ _ => rfl),
    Cert.Lib.ColumnBroadcast.broadcastTo_a1_ab_apply, shapeCast_self]
  congr 1
  refine Finset.sum_congr rfl fun k _ => ?_
  show hiddenBlock v0 v2 v6 (ix2 p k) * v13 (ix2 k q) = _
  rw [hiddenBlock_apply]

/-- A block's stored value is the region's function of the whole arrays at the block's place. -/
theorem pay_block (x0 : Vec Ideal S5000x128 .f32) (x1 : Vec Ideal S5000x1 .f32) (x2 : Vec Ideal S1x128 .f32)
    (x3 : Vec Ideal S128x64 .f32)
    (A : S100000x128.Idx → EReal) (D : S100000x1.Idx → EReal) (B : S1x128.Idx → EReal) (W : S128x64.Idx → EReal) (t : ℕ)
    (h0 : ∀ (p : Fin 5000) (k : Fin 128) (r : Fin 100000), r.val = t * 5000 + p.val → x0 (ix2 p k) = A (ix2 r k))
    (h1 : ∀ (p : Fin 5000) (r : Fin 100000), r.val = t * 5000 + p.val → x1 (ix2 p (0 : Fin 1)) = D (ix2 r (0 : Fin 1)))
    (h2 : ∀ (k : Fin 128), x2 (ix2 (0 : Fin 1) k) = B (ix2 (0 : Fin 1) k))
    (h3 : ∀ (k : Fin 128) (q : Fin 64), x3 (ix2 k q) = W (ix2 k q))
    (y : S5000x64.Idx) (i : S100000x64.Idx) (hi0 : (i 0).val = t * 5000 + (y 0).val) (hi1 : (i 1).val = (y 1).val) :
    k1_pay1 x0 x1 x2 x3 x1 y = hiddenScaled A D B W i := by
  obtain ⟨p, q, rfl⟩ : ∃ (p : Fin 5000) (q : Fin 64), y = ix2 p q := ⟨y 0, y 1, eq_ix2 y⟩
  rw [pay_apply]
  unfold hiddenScaled
  have hq : (⟨(i 1).val, idx2_lt1 i⟩ : Fin 64) = q := Fin.ext hi1
  rw [hq, h1 p ⟨(i 0).val, idx2_lt0 i⟩ hi0]
  congr 1
  refine Finset.sum_congr rfl fun k _ => ?_
  rw [h0 p k ⟨(i 0).val, idx2_lt0 i⟩ hi0, h2 k, h3 k q]

/-- The printed index maps, decided over the grid: the row blocks move with the point, the bias row and `W` stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- WHAT POINT `t` WRITES BACK is block `t` of the region's function of the arrays the region finds. -/
theorem flushed_eq (c : Dev nD) (t : Fin cfg1.N) :
    (dat1 V c).flushed 4 t
      = ((cfg1.win 4).blk t).view.read (Elt Ideal)
          (hiddenScaled (V c main_v27) (V c main_v16) (V c main_v28) (V c main_arg4)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz,
    View.ld_unit_zero (S := S128x64) hz]
  obtain ⟨e00, e01, e10, e11, e20, e21, e30, e31, e40, e41⟩ := idx_facts t
  funext j
  show k1_pay1 (iblk1 V c 0 t) (iblk1 V c 1 t) (iblk1 V c 2 t) (iblk1 V c 3 t) (iblk1 V c 1 t) j
    = hiddenScaled (V c main_v27) (V c main_v16) (V c main_v28) (V c main_arg4) (((cfg1.win 4).blk t).view.emb j)
  refine pay_block _ _ _ _ (V c main_v27) (V c main_v16) (V c main_v28) (V c main_arg4) t.val ?_ ?_ ?_ ?_ j _ ?_ ?_
  · intro p k r hr
    unfold iblk1
    rw [View.read_apply]
    show V c main_v27 (((cfg1.win 0).blk t).view.emb (ix2 p k)) = V c main_v27 (ix2 r k)
    congr 1
    funext a
    apply Fin.ext
    match a with
    | ⟨0, _⟩ => show win1_0.index t (0 : Fin 2) * 5000 + 1 * p.val = r.val; omega
    | ⟨1, _⟩ => show win1_0.index t (1 : Fin 2) * 128 + 1 * k.val = k.val; omega
  · intro p r hr
    unfold iblk1
    rw [View.read_apply]
    show V c main_v16 (((cfg1.win 1).blk t).view.emb (ix2 p (0 : Fin 1))) = V c main_v16 (ix2 r (0 : Fin 1))
    congr 1
    funext a
    apply Fin.ext
    match a with
    | ⟨0, _⟩ => show win1_1.index t (0 : Fin 2) * 5000 + 1 * p.val = r.val; omega
    | ⟨1, _⟩ => show win1_1.index t (1 : Fin 2) * 1 + 1 * 0 = 0; omega
  · intro k
    unfold iblk1
    rw [View.read_apply]
    show V c main_v28 (((cfg1.win 2).blk t).view.emb (ix2 (0 : Fin 1) k)) = V c main_v28 (ix2 (0 : Fin 1) k)
    congr 1
    funext a
    apply Fin.ext
    match a with
    | ⟨0, _⟩ => show win1_2.index t (0 : Fin 2) * 1 + 1 * 0 = 0; omega
    | ⟨1, _⟩ => show win1_2.index t (1 : Fin 2) * 128 + 1 * k.val = k.val; omega
  · intro k q
    unfold iblk1
    rw [View.read_apply]
    show V c main_arg4 (((cfg1.win 3).blk t).view.emb (ix2 k q)) = V c main_arg4 (ix2 k q)
    congr 1
    funext a
    apply Fin.ext
    match a with
    | ⟨0, _⟩ => show win1_3.index t (0 : Fin 2) * 128 + 1 * k.val = k.val; omega
    | ⟨1, _⟩ => show win1_3.index t (1 : Fin 2) * 64 + 1 * q.val = q.val; omega
  · show win1_4.index t (0 : Fin 2) * 5000 + 1 * (j 0).val = t.val * 5000 + (j 0).val; omega
  · show win1_4.index t (1 : Fin 2) * 64 + 1 * (j 1).val = (j 1).val; omega

/-- An index of the output array is in point `t`'s block iff each coordinate is in the block's range on its axis. -/
theorem mem_blk (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v29).slice (win1_4.rect t)).set ↔ _
  rw [View.set_slice_whole, Rect.mem_set_unit]
  exact Iff.rfl

/-- Every row is in some point's block: row `r` in that of point `r / 5000`. -/
theorem cover (i : S100000x64.Idx) :
    ∃ t : Fin cfg1.N, (cfg1.win 4).flush t = true ∧ i ∈ ((cfg1.win 4).blk t).view.set := by
  have hi0 : (i 0).val < 100000 := idx2_lt0 i
  have hi1 : (i 1).val < 64 := idx2_lt1 i
  have hN : cfg1.N = 20 := N_1
  have ht : (i 0).val / 5000 < cfg1.N := by rw [hN]; omega
  refine ⟨⟨(i 0).val / 5000, ht⟩, flush1_4 _, ?_⟩
  rw [mem_blk]
  obtain ⟨-, -, -, -, -, -, -, -, e40, e41⟩ := idx_facts ⟨(i 0).val / 5000, ht⟩
  have e40' : win1_4.index ⟨(i 0).val / 5000, ht⟩ (0 : Fin 2) = (i 0).val / 5000 := e40
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    omega
  | ⟨1, _⟩ =>
    show win1_4.index ⟨(i 0).val / 5000, ht⟩ (1 : Fin 2) * 64 ≤ (i 1).val
      ∧ (i 1).val < win1_4.index ⟨(i 0).val / 5000, ht⟩ (1 : Fin 2) * 64 + 64
    omega

/-- THE OUTPUT ARRAY after the region: the region's function of the arrays it finds. -/
theorem final (c : Dev nD) :
    (dat1 V c).arrAt 4 cfg1.N = hiddenScaled (V c main_v27) (V c main_v16) (V c main_v28) (V c main_arg4) :=
  (dat1 V c).arrAt_eq_of_cover 4 _ (fun t _ => flushed_eq V c t) cover

end Cert.KernelIdeal.Region1

end
-- ==== Proof.LibColumnCast.lean ====
/-
  A column vector and its flat form. A sum along the lanes that keeps its axis has shape `[a, 1]`; the flat form of the
  same numbers has shape `[a]`. The two casts between them move no element: entry `(i, 0)` of the column is entry `i`
  of the flat vector, because both sit at row-major position `i`.
-/
import Idealize.ShloMosaic.Lib.Pipeline.Value
import Idealize.ShloMosaic.Lib.ValueIdx

noncomputable section

namespace Cert.Lib.ColumnCast

open Idealize.ShloMosaic Idealize.ShloMosaic.ValueIdx

variable {α : Type}

/-- A flat `[a]` vector cast to the column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the flat `[a]` vector reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib.ColumnCast

end
-- ==== Proof.Region2.lean ====
/-
  Region 2: the scaled, biased rows through a row-wise log-softmax, as one function of the arrays the region finds.

  The region walks the 100000 rows in 20 blocks of 5000. At a block its body forms the logits
  `agg[r, k] · col[r, 0] + b[0, k]`, and takes each row's log-softmax: the row's maximum (a lane maximum from `−∞`), the
  shifted row, the logarithm of the lane sum of its exponentials. Every step stays inside a row, so block `t` of the
  output is the log-softmax of rows `5000 t … 5000 t + 4999` of the logits; the 20 blocks tile the output.
-/
import proofs.«143718_j79242146611357_2_alg».proof.Proof.Gen.KernelIdeal.Frame
import proofs.«143718_j79242146611357_2_alg».proof.Proof.LibColumnBroadcast
import proofs.«143718_j79242146611357_2_alg».proof.Proof.LibColumnCast
import proofs.«143718_j79242146611357_2_alg».proof.Proof.Spec
import proofs.«143718_j79242146611357_2_alg».proof.Proof.RegionSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)
open Cert.Spec

theorem hz : (![0, 0] : Fin 2 → Nat) = fun _ => 0 := funext fun a => by fin_cases a <;> rfl

/-! ## The body's stored value, piece by piece -/

/-- The block of logits. -/
def logitsBlock (v0 : Vec Ideal S5000x64 .f32) (v2 : Vec Ideal S5000x1 .f32) (v6 : Vec Ideal S1x64 .f32) :
    FVec Ideal S5000x64 .f32 :=
  addf (mulf (shapeCast S5000x64 v0 shapeCasts_S5000x64_S5000x64)
      (broadcastTo S5000x64 (shapeCast S5000x1 v2 shapeCasts_S5000x1_S5000x1) broadcasts_S5000x1_S5000x64))
    (broadcastTo S5000x64 (shapeCast S1x64 v6 shapeCasts_S1x64_S1x64) broadcasts_S1x64_S5000x64)

/-- The rows' maxima of a block. -/
def blockMax (L : FVec Ideal S5000x64 .f32) : FVec Ideal S5000 .f32 :=
  maximumf (broadcast S5000 (Scalar.ofBits (F := Ideal) .f32 0xFF800000#32))
    (multiReduction .maximumf [1] S5000 L 0xFF800000#32 reduces_S5000x64_S5000 (.inl rfl) rfl)

/-- A block shifted by its rows' maxima. -/
def shifted (L : FVec Ideal S5000x64 .f32) : FVec Ideal S5000x64 .f32 :=
  subf L (broadcastTo S5000x64 (shapeCast S5000x1 (blockMax L) shapeCasts_S5000_S5000x1) broadcasts_S5000x1_S5000x64)

/-- The rows' log-softmax of a block. -/
def lsmBlock (L : FVec Ideal S5000x64 .f32) : FVec Ideal S5000x64 .f32 :=
  subf (shifted L) (broadcastTo S5000x64
    (log (shapeCast S5000x1 (multiReduction .add [1] S5000 (exp (shifted L)) 0x00000000#32 reduces_S5000x64_S5000 (.inl rfl) rfl)
      shapeCasts_S5000_S5000x1)) broadcasts_S5000x1_S5000x64)

/-- The body's stored value is the rows' log-softmax of the block of logits. -/
theorem pay_eq (v0 : Vec Ideal S5000x64 .f32) (v2 : Vec Ideal S5000x1 .f32) (v6 : Vec Ideal S1x64 .f32) :
    k2_pay1 v0 v2 v6 = lsmBlock (logitsBlock v0 v2 v6) := rfl

theorem logitsBlock_apply (v0 : Vec Ideal S5000x64 .f32) (v2 : Vec Ideal S5000x1 .f32) (v6 : Vec Ideal S1x64 .f32)
    (p : Fin 5000) (k : Fin 64) :
    logitsBlock v0 v2 v6 (ix2 p k) = v0 (ix2 p k) * v2 (ix2 p (0 : Fin 1)) + v6 (ix2 (0 : Fin 1) k) := by
  unfold logitsBlock
  show shapeCast S5000x64 v0 shapeCasts_S5000x64_S5000x64 (ix2 p k)
      * broadcastTo S5000x64 (shapeCast S5000x1 v2 shapeCasts_S5000x1_S5000x1) broadcasts_S5000x1_S5000x64 (ix2 p k)
    + broadcastTo S5000x64 (shapeCast S1x64 v6 shapeCasts_S1x64_S1x64) broadcasts_S1x64_S5000x64 (ix2 p k) = _
  rw [Cert.Lib.ColumnBroadcast.broadcastTo_a1_ab_apply, broadcastTo_1b_ab_apply, shapeCast_self, shapeCast_self, shapeCast_self]

/-- Lane `k` inserted into row `p` of a block. -/
theorem lift_eq (p : Fin 5000) (k : Fin 64) :
    reduces_S5000x64_S5000.lift (ix1 p) k = ix2 p k := by
  funext ax; apply Fin.ext
  match ax with
  | ⟨0, _⟩ => rfl
  | ⟨1, _⟩ => rfl

theorem blockMax_apply (L : FVec Ideal S5000x64 .f32) (p : Fin 5000) :
    blockMax L (ix1 p) = rowMax (fun k => L (ix2 p k)) := by
  unfold blockMax rowMax
  show max (Ideal.ofBits .f32 0xFF800000#32)
    (multiReduction .maximumf [1] S5000 L 0xFF800000#32 reduces_S5000x64_S5000 (.inl rfl) rfl (ix1 p)) = _
  refine congrArg (max (Ideal.ofBits .f32 0xFF800000#32)) ?_
  refine (Ideal.multiReduction_maximumf_single L 0xFF800000#32 reduces_S5000x64_S5000 (.inl rfl) rfl (ix1 p)).trans ?_
  show Finset.fold max negInf (fun k : Fin 64 => L (reduces_S5000x64_S5000.lift (ix1 p) k)) Finset.univ = _
  exact congrArg (fun f : Fin 64 → EReal => Finset.fold max negInf f Finset.univ) (funext fun k => congrArg L (lift_eq p k))

theorem shifted_apply (L : FVec Ideal S5000x64 .f32) (p : Fin 5000) (k : Fin 64) :
    shifted L (ix2 p k) = L (ix2 p k) - rowMax (fun k => L (ix2 p k)) := by
  unfold shifted
  show L (ix2 p k) - broadcastTo S5000x64 (shapeCast S5000x1 (blockMax L) shapeCasts_S5000_S5000x1)
    broadcasts_S5000x1_S5000x64 (ix2 p k) = _
  rw [Cert.Lib.ColumnBroadcast.broadcastTo_a1_ab_apply, Cert.Lib.ColumnCast.shapeCast_a_a1_apply, blockMax_apply]

theorem lsmBlock_apply (L : FVec Ideal S5000x64 .f32) (p : Fin 5000) (q : Fin 64) :
    lsmBlock L (ix2 p q) = rowLogSoftmax (fun k => L (ix2 p k)) q := by
  unfold lsmBlock rowLogSoftmax
  show shifted L (ix2 p q) - broadcastTo S5000x64
    (log (shapeCast S5000x1 (multiReduction .add [1] S5000 (exp (shifted L)) 0x00000000#32 reduces_S5000x64_S5000 (.inl rfl) rfl)
      shapeCasts_S5000_S5000x1)) broadcasts_S5000x1_S5000x64 (ix2 p q) = _
  rw [Cert.Lib.ColumnBroadcast.broadcastTo_a1_ab_apply, shifted_apply]
  congr 1
  show Ideal.log (shapeCast S5000x1 (multiReduction .add [1] S5000 (exp (shifted L)) 0x00000000#32 reduces_S5000x64_S5000 (.inl rfl) rfl)
      shapeCasts_S5000_S5000x1 (ix2 p (0 : Fin 1))) = _
  rw [Cert.Lib.ColumnCast.shapeCast_a_a1_apply]
  refine congrArg Ideal.log ?_
  refine (Ideal.multiReduction_add_single (exp (shifted L)) 0x00000000#32 reduces_S5000x64_S5000 (.inl rfl) rfl (ix1 p)).trans ?_
  show ∑ k : Fin 64, exp (shifted L) (reduces_S5000x64_S5000.lift (ix1 p) k) = _
  refine Finset.sum_congr rfl fun k _ => ?_
  rw [lift_eq]
  show Ideal.exp (shifted L (ix2 p k)) = _
  rw [shifted_apply]

/-- The body's stored value at `(p, q)`: the log-softmax of the block's row `p` of logits, at lane `q`. -/
theorem pay_apply (v0 : Vec Ideal S5000x64 .f32) (v2 : Vec Ideal S5000x1 .f32) (v6 : Vec Ideal S1x64 .f32)
    (p : Fin 5000) (q : Fin 64) :
    k2_pay1 v0 v2 v6 (ix2 p q)
      = rowLogSoftmax (fun k => v0 (ix2 p k) * v2 (ix2 p (0 : Fin 1)) + v6 (ix2 (0 : Fin 1) k)) q := by
  rw [pay_eq, lsmBlock_apply]
  congr 1
  funext k
  exact logitsBlock_apply v0 v2 v6 p k

/-- A block's stored value is the region's function of the whole arrays at the block's place. -/
theorem pay_block (x0 : Vec Ideal S5000x64 .f32) (x1 : Vec Ideal S5000x1 .f32) (x2 : Vec Ideal S1x64 .f32)
    (A : S100000x64.Idx → EReal) (D : S100000x1.Idx → EReal) (B : S1x64.Idx → EReal) (t : ℕ)
    (h0 : ∀ (p : Fin 5000) (k : Fin 64) (r : Fin 100000), r.val = t * 5000 + p.val → x0 (ix2 p k) = A (ix2 r k))
    (h1 : ∀ (p : Fin 5000) (r : Fin 100000), r.val = t * 5000 + p.val → x1 (ix2 p (0 : Fin 1)) = D (ix2 r (0 : Fin 1)))
    (h2 : ∀ (k : Fin 64), x2 (ix2 (0 : Fin 1) k) = B (ix2 (0 : Fin 1) k))
    (y : S5000x64.Idx) (i : S100000x64.Idx) (hi0 : (i 0).val = t * 5000 + (y 0).val) (hi1 : (i 1).val = (y 1).val) :
    k2_pay1 x0 x1 x2 y = logSoftmaxRows A D B i := by
  obtain ⟨p, q, rfl⟩ : ∃ (p : Fin 5000) (q : Fin 64), y = ix2 p q := ⟨y 0, y 1, eq_ix2 y⟩
  rw [pay_apply]
  unfold logSoftmaxRows logitsRow
  have hq : (⟨(i 1).val, idx2_lt1 i⟩ : Fin 64) = q := Fin.ext hi1
  rw [hq]
  congr 1
  funext k
  rw [h0 p k ⟨(i 0).val, idx2_lt0 i⟩ hi0, h1 p ⟨(i 0).val, idx2_lt0 i⟩ hi0, h2 k]

/-- The printed index maps, decided over the grid: the row blocks move with the point, the bias row stays. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- WHAT POINT `t` WRITES BACK is block `t` of the region's function of the arrays the region finds. -/
theorem flushed_eq (c : Dev nD) (t : Fin cfg2.N) :
    (dat2 V c).flushed 3 t
      = ((cfg2.win 3).blk t).view.read (Elt Ideal) (logSoftmaxRows (V c main_v39) (V c main_v16) (V c main_v40)) := by
  show (cfg2.win 3).cut (grid2.coords t) ((dat2 V c).after 3 t) = _
  rw [after2_3]
  unfold out2_3
  rw [View.canon_unit_zero hz]
  simp only [View.ld_unit_zero (S := S5000x64) hz, View.ld_unit_zero (S := S5000x1) hz, View.ld_unit_zero (S := S1x64) hz]
  obtain ⟨e00, e01, e10, e11, e20, e21, e30, e31⟩ := idx_facts t
  funext j
  show k2_pay1 (iblk2 V c 0 t) (iblk2 V c 1 t) (iblk2 V c 2 t) j
    = logSoftmaxRows (V c main_v39) (V c main_v16) (V c main_v40) (((cfg2.win 3).blk t).view.emb j)
  refine pay_block _ _ _ (V c main_v39) (V c main_v16) (V c main_v40) t.val ?_ ?_ ?_ j _ ?_ ?_
  · intro p k r hr
    unfold iblk2
    rw [View.read_apply]
    show V c main_v39 (((cfg2.win 0).blk t).view.emb (ix2 p k)) = V c main_v39 (ix2 r k)
    congr 1
    funext a
    apply Fin.ext
    match a with
    | ⟨0, _⟩ => show win2_0.index t (0 : Fin 2) * 5000 + 1 * p.val = r.val; omega
    | ⟨1, _⟩ => show win2_0.index t (1 : Fin 2) * 64 + 1 * k.val = k.val; omega
  · intro p r hr
    unfold iblk2
    rw [View.read_apply]
    show V c main_v16 (((cfg2.win 1).blk t).view.emb (ix2 p (0 : Fin 1))) = V c main_v16 (ix2 r (0 : Fin 1))
    congr 1
    funext a
    apply Fin.ext
    match a with
    | ⟨0, _⟩ => show win2_1.index t (0 : Fin 2) * 5000 + 1 * p.val = r.val; omega
    | ⟨1, _⟩ => show win2_1.index t (1 : Fin 2) * 1 + 1 * 0 = 0; omega
  · intro k
    unfold iblk2
    rw [View.read_apply]
    show V c main_v40 (((cfg2.win 2).blk t).view.emb (ix2 (0 : Fin 1) k)) = V c main_v40 (ix2 (0 : Fin 1) k)
    congr 1
    funext a
    apply Fin.ext
    match a with
    | ⟨0, _⟩ => show win2_2.index t (0 : Fin 2) * 1 + 1 * 0 = 0; omega
    | ⟨1, _⟩ => show win2_2.index t (1 : Fin 2) * 64 + 1 * k.val = k.val; omega
  · show win2_3.index t (0 : Fin 2) * 5000 + 1 * (j 0).val = t.val * 5000 + (j 0).val; omega
  · show win2_3.index t (1 : Fin 2) * 64 + 1 * (j 1).val = (j 1).val; omega

/-- An index of the output array is in point `t`'s block iff each coordinate is in the block's range on its axis. -/
theorem mem_blk (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v41).slice (win2_3.rect t)).set ↔ _
  rw [View.set_slice_whole, Rect.mem_set_unit]
  exact Iff.rfl

/-- Every row is in some point's block: row `r` in that of point `r / 5000`. -/
theorem cover (i : S100000x64.Idx) :
    ∃ t : Fin cfg2.N, (cfg2.win 3).flush t = true ∧ i ∈ ((cfg2.win 3).blk t).view.set := by
  have hi0 : (i 0).val < 100000 := idx2_lt0 i
  have hi1 : (i 1).val < 64 := idx2_lt1 i
  have hN : cfg2.N = 20 := N_2
  have ht : (i 0).val / 5000 < cfg2.N := by rw [hN]; omega
  refine ⟨⟨(i 0).val / 5000, ht⟩, flush2_3 _, ?_⟩
  rw [mem_blk]
  obtain ⟨-, -, -, -, -, -, e30, e31⟩ := idx_facts ⟨(i 0).val / 5000, ht⟩
  have e30' : win2_3.index ⟨(i 0).val / 5000, ht⟩ (0 : Fin 2) = (i 0).val / 5000 := e30
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    omega
  | ⟨1, _⟩ =>
    show win2_3.index ⟨(i 0).val / 5000, ht⟩ (1 : Fin 2) * 64 ≤ (i 1).val
      ∧ (i 1).val < win2_3.index ⟨(i 0).val / 5000, ht⟩ (1 : Fin 2) * 64 + 64
    omega

/-- THE OUTPUT ARRAY after the region: the region's function of the arrays it finds. -/
theorem final (c : Dev nD) :
    (dat2 V c).arrAt 3 cfg2.N = logSoftmaxRows (V c main_v39) (V c main_v16) (V c main_v40) :=
  (dat2 V c).arrAt_eq_of_cover 3 _ (fun t _ => flushed_eq V c t) cover

end Cert.KernelIdeal.Region2

end
-- ==== Proof.KernelHost.lean ====
/-
  The idealized kernel's host stretches and regions, read from the launch to the return.

  The run's buffer contents at its segment boundaries are a fold from the launch memory: a host stretch rewrites the
  buffers its operations write, a region its output array. Read here, boundary by boundary: the edge columns, the
  degree column and the arguments are carried unchanged to where they are read; each region's output is its function
  (the three region modules) of what the region finds; each aggregation is the host's gather and scatter-add of the
  previous region's output. The last boundary's result buffer is the program's value as one function of the arguments.
-/
import proofs.«143718_j79242146611357_2_alg».proof.Proof.Gen.KernelIdeal.Frame
import proofs.«143718_j79242146611357_2_alg».proof.Proof.KernelHostDefs
import proofs.«143718_j79242146611357_2_alg».proof.Proof.Region0
import proofs.«143718_j79242146611357_2_alg».proof.Proof.Region1
import proofs.«143718_j79242146611357_2_alg».proof.Proof.Region2
import Idealize.ShloMosaic.Lib.StableHlo.Run
import Idealize.ShloMosaic.PureOps.Ideal

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What each host stretch leaves alone -/

theorem W1_keep_main_arg0 (c : Dev nD) : W1 m ρ c (Proc.devRef .tc main_arg0) = W0 m ρ c (Proc.devRef .tc main_arg0) := by
  show StableHlo.after hostOps0 _ (Proc.devRef .tc main_arg0) = _
  generalize W0 m ρ c = V
  after_results
theorem W1_keep_main_arg2 (c : Dev nD) : W1 m ρ c (Proc.devRef .tc main_arg2) = W0 m ρ c (Proc.devRef .tc main_arg2) := by
  show StableHlo.after hostOps0 _ (Proc.devRef .tc main_arg2) = _
  generalize W0 m ρ c = V
  after_results
theorem W1_keep_main_arg3 (c : Dev nD) : W1 m ρ c (Proc.devRef .tc main_arg3) = W0 m ρ c (Proc.devRef .tc main_arg3) := by
  show StableHlo.after hostOps0 _ (Proc.devRef .tc main_arg3) = _
  generalize W0 m ρ c = V
  after_results
theorem W1_keep_main_arg4 (c : Dev nD) : W1 m ρ c (Proc.devRef .tc main_arg4) = W0 m ρ c (Proc.devRef .tc main_arg4) := by
  show StableHlo.after hostOps0 _ (Proc.devRef .tc main_arg4) = _
  generalize W0 m ρ c = V
  after_results
theorem W1_keep_main_arg5 (c : Dev nD) : W1 m ρ c (Proc.devRef .tc main_arg5) = W0 m ρ c (Proc.devRef .tc main_arg5) := by
  show StableHlo.after hostOps0 _ (Proc.devRef .tc main_arg5) = _
  generalize W0 m ρ c = V
  after_results
theorem W2_keep_main_v3 (c : Dev nD) : W2 m ρ c (Proc.devRef .tc main_v3) = W1 m ρ c (Proc.devRef .tc main_v3) := by
  show StableHlo.after hostOps0_1 _ (Proc.devRef .tc main_v3) = _
  generalize W1 m ρ c = V
  after_results
theorem W2_keep_main_v6 (c : Dev nD) : W2 m ρ c (Proc.devRef .tc main_v6) = W1 m ρ c (Proc.devRef .tc main_v6) := by
  show StableHlo.after hostOps0_1 _ (Proc.devRef .tc main_v6) = _
  generalize W1 m ρ c = V
  after_results
theorem W2_keep_main_arg0 (c : Dev nD) : W2 m ρ c (Proc.devRef .tc main_arg0) = W1 m ρ c (Proc.devRef .tc main_arg0) := by
  show StableHlo.after hostOps0_1 _ (Proc.devRef .tc main_arg0) = _
  generalize W1 m ρ c = V
  after_results
theorem W2_keep_main_arg2 (c : Dev nD) : W2 m ρ c (Proc.devRef .tc main_arg2) = W1 m ρ c (Proc.devRef .tc main_arg2) := by
  show StableHlo.after hostOps0_1 _ (Proc.devRef .tc main_arg2) = _
  generalize W1 m ρ c = V
  after_results
theorem W2_keep_main_arg3 (c : Dev nD) : W2 m ρ c (Proc.devRef .tc main_arg3) = W1 m ρ c (Proc.devRef .tc main_arg3) := by
  show StableHlo.after hostOps0_1 _ (Proc.devRef .tc main_arg3) = _
  generalize W1 m ρ c = V
  after_results
theorem W2_keep_main_arg4 (c : Dev nD) : W2 m ρ c (Proc.devRef .tc main_arg4) = W1 m ρ c (Proc.devRef .tc main_arg4) := by
  show StableHlo.after hostOps0_1 _ (Proc.devRef .tc main_arg4) = _
  generalize W1 m ρ c = V
  after_results
theorem W2_keep_main_arg5 (c : Dev nD) : W2 m ρ c (Proc.devRef .tc main_arg5) = W1 m ρ c (Proc.devRef .tc main_arg5) := by
  show StableHlo.after hostOps0_1 _ (Proc.devRef .tc main_arg5) = _
  generalize W1 m ρ c = V
  after_results
theorem W3_keep_main_v3 (c : Dev nD) : W3 m ρ c (Proc.devRef .tc main_v3) = W2 m ρ c (Proc.devRef .tc main_v3) := by
  show StableHlo.after hostOps0_2 _ (Proc.devRef .tc main_v3) = _
  generalize W2 m ρ c = V
  after_results
theorem W3_keep_main_v6 (c : Dev nD) : W3 m ρ c (Proc.devRef .tc main_v6) = W2 m ρ c (Proc.devRef .tc main_v6) := by
  show StableHlo.after hostOps0_2 _ (Proc.devRef .tc main_v6) = _
  generalize W2 m ρ c = V
  after_results
theorem W3_keep_main_arg0 (c : Dev nD) : W3 m ρ c (Proc.devRef .tc main_arg0) = W2 m ρ c (Proc.devRef .tc main_arg0) := by
  show StableHlo.after hostOps0_2 _ (Proc.devRef .tc main_arg0) = _
  generalize W2 m ρ c = V
  after_results
theorem W3_keep_main_arg2 (c : Dev nD) : W3 m ρ c (Proc.devRef .tc main_arg2) = W2 m ρ c (Proc.devRef .tc main_arg2) := by
  show StableHlo.after hostOps0_2 _ (Proc.devRef .tc main_arg2) = _
  generalize W2 m ρ c = V
  after_results
theorem W3_keep_main_arg3 (c : Dev nD) : W3 m ρ c (Proc.devRef .tc main_arg3) = W2 m ρ c (Proc.devRef .tc main_arg3) := by
  show StableHlo.after hostOps0_2 _ (Proc.devRef .tc main_arg3) = _
  generalize W2 m ρ c = V
  after_results
theorem W3_keep_main_arg4 (c : Dev nD) : W3 m ρ c (Proc.devRef .tc main_arg4) = W2 m ρ c (Proc.devRef .tc main_arg4) := by
  show StableHlo.after hostOps0_2 _ (Proc.devRef .tc main_arg4) = _
  generalize W2 m ρ c = V
  after_results
theorem W3_keep_main_arg5 (c : Dev nD) : W3 m ρ c (Proc.devRef .tc main_arg5) = W2 m ρ c (Proc.devRef .tc main_arg5) := by
  show StableHlo.after hostOps0_2 _ (Proc.devRef .tc main_arg5) = _
  generalize W2 m ρ c = V
  after_results
theorem W5_keep_main_v3 (c : Dev nD) : W5 m ρ c (Proc.devRef .tc main_v3) = W4 m ρ c (Proc.devRef .tc main_v3) := by
  show StableHlo.after hostOps1 _ (Proc.devRef .tc main_v3) = _
  generalize W4 m ρ c = V
  after_results
theorem W5_keep_main_v6 (c : Dev nD) : W5 m ρ c (Proc.devRef .tc main_v6) = W4 m ρ c (Proc.devRef .tc main_v6) := by
  show StableHlo.after hostOps1 _ (Proc.devRef .tc main_v6) = _
  generalize W4 m ρ c = V
  after_results
theorem W5_keep_main_v16 (c : Dev nD) : W5 m ρ c (Proc.devRef .tc main_v16) = W4 m ρ c (Proc.devRef .tc main_v16) := by
  show StableHlo.after hostOps1 _ (Proc.devRef .tc main_v16) = _
  generalize W4 m ρ c = V
  after_results
theorem W5_keep_main_arg4 (c : Dev nD) : W5 m ρ c (Proc.devRef .tc main_arg4) = W4 m ρ c (Proc.devRef .tc main_arg4) := by
  show StableHlo.after hostOps1 _ (Proc.devRef .tc main_arg4) = _
  generalize W4 m ρ c = V
  after_results
theorem W5_keep_main_arg5 (c : Dev nD) : W5 m ρ c (Proc.devRef .tc main_arg5) = W4 m ρ c (Proc.devRef .tc main_arg5) := by
  show StableHlo.after hostOps1 _ (Proc.devRef .tc main_arg5) = _
  generalize W4 m ρ c = V
  after_results
theorem W7_keep_main_v16 (c : Dev nD) : W7 m ρ c (Proc.devRef .tc main_v16) = W6 m ρ c (Proc.devRef .tc main_v16) := by
  show StableHlo.after hostOps2 _ (Proc.devRef .tc main_v16) = _
  generalize W6 m ρ c = V
  after_results

/-! ## Before region 0: the edge columns, the degrees, their inverse square roots -/

theorem W1_v3 (c : Dev nD) : W1 m ρ c (Proc.devRef .tc main_v3) = srcRaw (m ((c : Thread nD τ).loc main_arg1)) := by
  show StableHlo.after hostOps0 _ (Proc.devRef .tc main_v3) = _
  after_results
  rfl

theorem W1_v6 (c : Dev nD) : W1 m ρ c (Proc.devRef .tc main_v6) = dstRaw (m ((c : Thread nD τ).loc main_arg1)) := by
  show StableHlo.after hostOps0 _ (Proc.devRef .tc main_v6) = _
  after_results
  rfl

theorem W1_v12 (c : Dev nD) : W1 m ρ c (Proc.devRef .tc main_v12)
    = cmpf .ogt (deg (m ((c : Thread nD τ).loc main_arg1)))
        (broadcastInDim S100000 ![] bcast_S_S100000 (constant (F := Ideal) S_ .f32 0x00000000#32)) := by
  show StableHlo.after hostOps0 _ (Proc.devRef .tc main_v12) = _
  after_results
  rfl

theorem W1_v14 (c : Dev nD) : W1 m ρ c (Proc.devRef .tc main_v14)
    = Host.powf (deg (m ((c : Thread nD τ).loc main_arg1)))
        (broadcastInDim S100000 ![] bcast_S_S100000 (constant (F := Ideal) S_ .f32 0xBF000000#32)) := by
  show StableHlo.after hostOps0 _ (Proc.devRef .tc main_v14) = _
  after_results
  rfl

theorem W1_cst3 (c : Dev nD) : W1 m ρ c (Proc.devRef .tc main_cst_3) = constant (F := Ideal) S_ .f32 0x00000000#32 := by
  show StableHlo.after hostOps0 _ (Proc.devRef .tc main_cst_3) = _
  after_results

/-- Through the three operations of the outlined `where`: the select of the two branches. -/
theorem W2_v15_of_W1 (c : Dev nD) : W2 m ρ c (Proc.devRef .tc main_v15)
    = select (W1 m ρ c (Proc.devRef .tc main_v12)) (W1 m ρ c (Proc.devRef .tc main_v14))
        (broadcastInDim S100000 ![] bcast_S_S100000 (id (W1 m ρ c (Proc.devRef .tc main_cst_3)))) := by
  show StableHlo.after hostOps0_1 _ (Proc.devRef .tc main_v15) = _
  generalize W1 m ρ c = V
  after_results
  rfl

theorem W2_v15 (c : Dev nD) : W2 m ρ c (Proc.devRef .tc main_v15) = dinv (m ((c : Thread nD τ).loc main_arg1)) := by
  rw [W2_v15_of_W1, W1_v12, W1_v14, W1_cst3]
  rfl

theorem W3_v16_of_W2 (c : Dev nD) : W3 m ρ c (Proc.devRef .tc main_v16)
    = shapeCast S100000x1 (W2 m ρ c (Proc.devRef .tc main_v15)) shapeCasts_S100000_S100000x1 := by
  show StableHlo.after hostOps0_2 _ (Proc.devRef .tc main_v16) = _
  generalize W2 m ρ c = V
  after_results
  rfl

/-! ## At region 0's entry -/

theorem W3_v16 (c : Dev nD) : W3 m ρ c (Proc.devRef .tc main_v16) = dinvCol (m ((c : Thread nD τ).loc main_arg1)) := by
  rw [W3_v16_of_W2, W2_v15]; rfl
theorem W3_v3 (c : Dev nD) : W3 m ρ c (Proc.devRef .tc main_v3) = srcRaw (m ((c : Thread nD τ).loc main_arg1)) :=
  (W3_keep_main_v3 m ρ c).trans ((W2_keep_main_v3 m ρ c).trans (W1_v3 m ρ c))
theorem W3_v6 (c : Dev nD) : W3 m ρ c (Proc.devRef .tc main_v6) = dstRaw (m ((c : Thread nD τ).loc main_arg1)) :=
  (W3_keep_main_v6 m ρ c).trans ((W2_keep_main_v6 m ρ c).trans (W1_v6 m ρ c))
theorem W3_arg0 (c : Dev nD) : W3 m ρ c (Proc.devRef .tc main_arg0) = m ((c : Thread nD τ).loc main_arg0) :=
  (W3_keep_main_arg0 m ρ c).trans ((W2_keep_main_arg0 m ρ c).trans ((W1_keep_main_arg0 m ρ c).trans rfl))
theorem W3_arg2 (c : Dev nD) : W3 m ρ c (Proc.devRef .tc main_arg2) = m ((c : Thread nD τ).loc main_arg2) :=
  (W3_keep_main_arg2 m ρ c).trans ((W2_keep_main_arg2 m ρ c).trans ((W1_keep_main_arg2 m ρ c).trans rfl))
theorem W3_arg3 (c : Dev nD) : W3 m ρ c (Proc.devRef .tc main_arg3) = m ((c : Thread nD τ).loc main_arg3) :=
  (W3_keep_main_arg3 m ρ c).trans ((W2_keep_main_arg3 m ρ c).trans ((W1_keep_main_arg3 m ρ c).trans rfl))
theorem W3_arg4 (c : Dev nD) : W3 m ρ c (Proc.devRef .tc main_arg4) = m ((c : Thread nD τ).loc main_arg4) :=
  (W3_keep_main_arg4 m ρ c).trans ((W2_keep_main_arg4 m ρ c).trans ((W1_keep_main_arg4 m ρ c).trans rfl))
theorem W3_arg5 (c : Dev nD) : W3 m ρ c (Proc.devRef .tc main_arg5) = m ((c : Thread nD τ).loc main_arg5) :=
  (W3_keep_main_arg5 m ρ c).trans ((W2_keep_main_arg5 m ρ c).trans ((W1_keep_main_arg5 m ρ c).trans rfl))

/-! ## Region 0, and at its exit -/

theorem W4_v17 (c : Dev nD) : W4 m ρ c (Proc.devRef .tc main_v17)
    = Region0.scaledProduct (m ((c : Thread nD τ).loc main_arg0)) (m ((c : Thread nD τ).loc main_arg2)) (dinvCol (m ((c : Thread nD τ).loc main_arg1))) := by
  refine (W4_arr m ρ c 3).trans ((Region0.final (V3 m ρ) c).trans ?_)
  show Region0.scaledProduct (W3 m ρ c (Proc.devRef .tc main_arg0)) (W3 m ρ c (Proc.devRef .tc main_arg2))
    (W3 m ρ c (Proc.devRef .tc main_v16)) = _
  rw [W3_arg0, W3_arg2, W3_v16]
theorem W4_v16 (c : Dev nD) : W4 m ρ c (Proc.devRef .tc main_v16) = dinvCol (m ((c : Thread nD τ).loc main_arg1)) :=
  ((W4_arr m ρ c 2).trans (((dat0 (V3 m ρ) c).arrAt_in 2 rfl _).trans (A_eq0 (V3 m ρ) c 2))).trans (W3_v16 m ρ c)
theorem W4_v3 (c : Dev nD) : W4 m ρ c (Proc.devRef .tc main_v3) = srcRaw (m ((c : Thread nD τ).loc main_arg1)) :=
  (W4_of_ne m ρ c main_v3 (by decide)).trans (W3_v3 m ρ c)
theorem W4_v6 (c : Dev nD) : W4 m ρ c (Proc.devRef .tc main_v6) = dstRaw (m ((c : Thread nD τ).loc main_arg1)) :=
  (W4_of_ne m ρ c main_v6 (by decide)).trans (W3_v6 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-! ## Between regions 0 and 1: the first aggregation, the bias as a row -/

theorem W5_v27_of_W4 (c : Dev nD) : W5 m ρ c (Proc.devRef .tc main_v27)
    = Host.scatterAdd scatter_S100000x128_S1700000x1_S1700000x128_1_0_0_1
        (broadcastInDim S100000x128 ![] bcast_S_S100000x128 (constant (F := Ideal) S_ .f32 0x00000000#32))
        (broadcastInDim S1700000x1 ![0] bcast_S1700000_S1700000x1_0 (W4 m ρ c (Proc.devRef .tc main_v6)))
        (Host.gather gather_S100000x128_S1700000x1_S1700000x128_1_0_n_n_0_1_1128 (W4 m ρ c (Proc.devRef .tc main_v17))
          (broadcastInDim S1700000x1 ![0] bcast_S1700000_S1700000x1_0
            (select (cmpi .slt (W4 m ρ c (Proc.devRef .tc main_v3))
                (broadcastInDim S1700000 ![] bcast_S_S1700000 (constantI S_ 32 0#32)))
              (addi (W4 m ρ c (Proc.devRef .tc main_v3))
                (broadcastInDim S1700000 ![] bcast_S_S1700000 (constantI S_ 32 100000#32)))
              (W4 m ρ c (Proc.devRef .tc main_v3))))) := by
  show StableHlo.after hostOps1 _ (Proc.devRef .tc main_v27) = _
  generalize W4 m ρ c = V
  after_results

theorem W5_v27 (c : Dev nD) : W5 m ρ c (Proc.devRef .tc main_v27)
    = agg128 (m ((c : Thread nD τ).loc main_arg1)) (Region0.scaledProduct (m ((c : Thread nD τ).loc main_arg0)) (m ((c : Thread nD τ).loc main_arg2)) (dinvCol (m ((c : Thread nD τ).loc main_arg1)))) := by
  rw [W5_v27_of_W4, W4_v6, W4_v3, W4_v17]; rfl

theorem W5_v28 (c : Dev nD) : W5 m ρ c (Proc.devRef .tc main_v28)
    = shapeCast S1x128 (m ((c : Thread nD τ).loc main_arg3)) shapeCasts_S128_S1x128 := by
  have h : W5 m ρ c (Proc.devRef .tc main_v28)
      = shapeCast S1x128 (W4 m ρ c (Proc.devRef .tc main_arg3)) shapeCasts_S128_S1x128 := by
    show StableHlo.after hostOps1 _ (Proc.devRef .tc main_v28) = _
    generalize W4 m ρ c = V
    after_results
    rfl
  rw [h, W4_arg3]
theorem W5_v16 (c : Dev nD) : W5 m ρ c (Proc.devRef .tc main_v16) = dinvCol (m ((c : Thread nD τ).loc main_arg1)) :=
  (W5_keep_main_v16 m ρ c).trans (W4_v16 m ρ c)
theorem W5_v3 (c : Dev nD) : W5 m ρ c (Proc.devRef .tc main_v3) = srcRaw (m ((c : Thread nD τ).loc main_arg1)) :=
  (W5_keep_main_v3 m ρ c).trans (W4_v3 m ρ c)
theorem W5_v6 (c : Dev nD) : W5 m ρ c (Proc.devRef .tc main_v6) = dstRaw (m ((c : Thread nD τ).loc main_arg1)) :=
  (W5_keep_main_v6 m ρ c).trans (W4_v6 m ρ c)
theorem W5_arg4 (c : Dev nD) : W5 m ρ c (Proc.devRef .tc main_arg4) = m ((c : Thread nD τ).loc main_arg4) :=
  (W5_keep_main_arg4 m ρ c).trans (W4_arg4 m ρ c)
theorem W5_arg5 (c : Dev nD) : W5 m ρ c (Proc.devRef .tc main_arg5) = m ((c : Thread nD τ).loc main_arg5) :=
  (W5_keep_main_arg5 m ρ c).trans (W4_arg5 m ρ c)

/-! ## Region 1, and at its exit -/

theorem W6_v29 (c : Dev nD) : W6 m ρ c (Proc.devRef .tc main_v29)
    = hidden (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 4).trans ((Region1.final (V5 m ρ) c).trans ?_)
  show Region1.hiddenScaled (W5 m ρ c (Proc.devRef .tc main_v27)) (W5 m ρ c (Proc.devRef .tc main_v16))
    (W5 m ρ c (Proc.devRef .tc main_v28)) (W5 m ρ c (Proc.devRef .tc main_arg4)) = _
  rw [W5_v27, W5_v16, W5_v28, W5_arg4]
  rfl
theorem W6_v16 (c : Dev nD) : W6 m ρ c (Proc.devRef .tc main_v16) = dinvCol (m ((c : Thread nD τ).loc main_arg1)) :=
  ((W6_arr m ρ c 1).trans (((dat1 (V5 m ρ) c).arrAt_in 1 rfl _).trans (A_eq1 (V5 m ρ) c 1))).trans (W5_v16 m ρ c)
theorem W6_v3 (c : Dev nD) : W6 m ρ c (Proc.devRef .tc main_v3) = srcRaw (m ((c : Thread nD τ).loc main_arg1)) :=
  (W6_of_ne m ρ c main_v3 (by decide)).trans (W5_v3 m ρ c)
theorem W6_v6 (c : Dev nD) : W6 m ρ c (Proc.devRef .tc main_v6) = dstRaw (m ((c : Thread nD τ).loc main_arg1)) :=
  (W6_of_ne m ρ c main_v6 (by decide)).trans (W5_v6 m ρ c)
theorem W6_arg5 (c : Dev nD) : W6 m ρ c (Proc.devRef .tc main_arg5) = m ((c : Thread nD τ).loc main_arg5) :=
  (W6_of_ne m ρ c main_arg5 (by decide)).trans (W5_arg5 m ρ c)

/-! ## Between regions 1 and 2: the second aggregation, the bias as a row -/

theorem W7_v39_of_W6 (c : Dev nD) : W7 m ρ c (Proc.devRef .tc main_v39)
    = Host.scatterAdd scatter_S100000x64_S1700000x1_S1700000x64_1_0_0_1
        (broadcastInDim S100000x64 ![] bcast_S_S100000x64 (constant (F := Ideal) S_ .f32 0x00000000#32))
        (broadcastInDim S1700000x1 ![0] bcast_S1700000_S1700000x1_0 (W6 m ρ c (Proc.devRef .tc main_v6)))
        (Host.gather gather_S100000x64_S1700000x1_S1700000x64_1_0_n_n_0_1_164 (W6 m ρ c (Proc.devRef .tc main_v29))
          (broadcastInDim S1700000x1 ![0] bcast_S1700000_S1700000x1_0
            (select (cmpi .slt (W6 m ρ c (Proc.devRef .tc main_v3))
                (broadcastInDim S1700000 ![] bcast_S_S1700000 (constantI S_ 32 0#32)))
              (addi (W6 m ρ c (Proc.devRef .tc main_v3))
                (broadcastInDim S1700000 ![] bcast_S_S1700000 (constantI S_ 32 100000#32)))
              (W6 m ρ c (Proc.devRef .tc main_v3))))) := by
  show StableHlo.after hostOps2 _ (Proc.devRef .tc main_v39) = _
  generalize W6 m ρ c = V
  after_results

theorem W7_v39 (c : Dev nD) : W7 m ρ c (Proc.devRef .tc main_v39)
    = agg64 (m ((c : Thread nD τ).loc main_arg1)) (hidden (m ((c : Thread nD τ).loc main_arg0)) (m ((c : Thread nD τ).loc main_arg1)) (m ((c : Thread nD τ).loc main_arg2)) (m ((c : Thread nD τ).loc main_arg3)) (m ((c : Thread nD τ).loc main_arg4))) := by
  rw [W7_v39_of_W6, W6_v6, W6_v3, W6_v29]; rfl

theorem W7_v40 (c : Dev nD) : W7 m ρ c (Proc.devRef .tc main_v40)
    = shapeCast S1x64 (m ((c : Thread nD τ).loc main_arg5)) shapeCasts_S64_S1x64 := by
  have h : W7 m ρ c (Proc.devRef .tc main_v40)
      = shapeCast S1x64 (W6 m ρ c (Proc.devRef .tc main_arg5)) shapeCasts_S64_S1x64 := by
    show StableHlo.after hostOps2 _ (Proc.devRef .tc main_v40) = _
    generalize W6 m ρ c = V
    after_results
    rfl
  rw [h, W6_arg5]
theorem W7_v16 (c : Dev nD) : W7 m ρ c (Proc.devRef .tc main_v16) = dinvCol (m ((c : Thread nD τ).loc main_arg1)) :=
  (W7_keep_main_v16 m ρ c).trans (W6_v16 m ρ c)

/-! ## Region 2: the result -/

theorem W8_v41 (c : Dev nD) : W8 m ρ c (Proc.devRef .tc main_v41)
    = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 3).trans ((Region2.final (V7 m ρ) c).trans ?_)
  show Region2.logSoftmaxRows (W7 m ρ c (Proc.devRef .tc main_v39)) (W7 m ρ c (Proc.devRef .tc main_v16))
    (W7 m ρ c (Proc.devRef .tc main_v40)) = _
  rw [W7_v39, W7_v16, W7_v40]
  rfl

end Cert.KernelIdeal.Host

end
-- ==== Proof.RefValue.lean ====
/-
  The reference's run, read.

  The reference is one straight line of 100 host operations. Its run ends with every buffer at the fold of the
  operations' results over the launch memory. The fold is read here in five stages — the edge columns, degrees and their
  inverse square roots (operations 1–23); the per-edge coefficients (24–42); the first layer (43–65); the second layer
  (66–85); the row-wise log-softmax (86–100) — each stage's buffers named as the stage functions `val_<buffer>` of the
  arguments, so that the result buffer ends at `val_main_v66` of the arguments and the arguments end as launched.
-/
import proofs.«143718_j79242146611357_2_alg».proof.Proof.RefRunP
import proofs.«143718_j79242146611357_2_alg».proof.Proof.RefReadP
import Idealize.ShloMosaic.Lib.StableHlo.Run
import Idealize.ShloMosaic.PureOps.Ideal

set_option maxRecDepth 16384

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-! ## An outlined function's operation is the plain builder's

A typed reference built from a literal reference at the reference's own type moves contents along the identity. -/

section Typed

variable {F : FTy → Type} [FloatOps F]

theorem nullary_of (y : Ref sig .tc) (hy1 hy2 hy) (v : y.ty.Contents (Elt F)) :
    (TRef.nullary (TRef.of (T := y.ty) y rfl hy1 hy2) v : HloOp τ sig (Elt F)) = StableHlo.nullary y v hy := rfl
theorem unary_of (x y : Ref sig .tc) (hx1 hx2 hy1 hy2 hx hy) (g : x.ty.Contents (Elt F) → y.ty.Contents (Elt F)) :
    (TRef.unary (TRef.of (T := x.ty) x rfl hx1 hx2) (TRef.of (T := y.ty) y rfl hy1 hy2) g : HloOp τ sig (Elt F))
      = StableHlo.unary x y g hx hy := rfl
theorem binary_of (a b y : Ref sig .tc) (ha1 ha2 hb1 hb2 hy1 hy2 ha hb hy)
    (g : a.ty.Contents (Elt F) → b.ty.Contents (Elt F) → y.ty.Contents (Elt F)) :
    (TRef.binary (TRef.of (T := a.ty) a rfl ha1 ha2) (TRef.of (T := b.ty) b rfl hb1 hb2) (TRef.of (T := y.ty) y rfl hy1 hy2) g
        : HloOp τ sig (Elt F))
      = StableHlo.binary a b y g ha hb hy := rfl
theorem ternary_of (c a b y : Ref sig .tc) (hc1 hc2 ha1 ha2 hb1 hb2 hy1 hy2 hc ha hb hy)
    (g : c.ty.Contents (Elt F) → a.ty.Contents (Elt F) → b.ty.Contents (Elt F) → y.ty.Contents (Elt F)) :
    (TRef.ternary (TRef.of (T := c.ty) c rfl hc1 hc2) (TRef.of (T := a.ty) a rfl ha1 ha2) (TRef.of (T := b.ty) b rfl hb1 hb2)
        (TRef.of (T := y.ty) y rfl hy1 hy2) g : HloOp τ sig (Elt F))
      = StableHlo.ternary c a b y g hc ha hb hy := rfl

theorem op21_eq : (TRef.unary (TRef.of (T := ⟨S_, .f32⟩) main_cst_3) (TRef.of (T := ⟨S_, .f32⟩) main_call0_v0) id : HloOp τ sig (Elt F)) = unary main_cst_3 main_call0_v0 ((id) : (⟨S_, .f32⟩ : BufTy).Contents (Elt F) → (⟨S_, .f32⟩ : BufTy).Contents (Elt F)) :=
  unary_of main_cst_3 main_call0_v0 _ _ _ _ _ _ _
theorem op22_eq : (TRef.unary (TRef.of (T := ⟨S_, .f32⟩) main_call0_v0) (TRef.of (T := ⟨S100000, .f32⟩) main_call0_v1) (broadcastInDim S100000 ![] bcast_S_S100000) : HloOp τ sig (Elt F)) = unary main_call0_v0 main_call0_v1 (((broadcastInDim S100000 ![] bcast_S_S100000)) : (⟨S_, .f32⟩ : BufTy).Contents (Elt F) → (⟨S100000, .f32⟩ : BufTy).Contents (Elt F)) :=
  unary_of main_call0_v0 main_call0_v1 _ _ _ _ _ _ _
theorem op23_eq : (TRef.ternary (TRef.of (T := ⟨S100000, .i1⟩) main_v12) (TRef.of (T := ⟨S100000, .f32⟩) main_v14) (TRef.of (T := ⟨S100000, .f32⟩) main_call0_v1) (TRef.of (T := ⟨S100000, .f32⟩) main_v15) select : HloOp τ sig (Elt F)) = ternary main_v12 main_v14 main_call0_v1 main_v15 ((select) : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) :=
  ternary_of main_v12 main_v14 main_call0_v1 main_v15 _ _ _ _ _ _ _ _ _ _ _ _ _
theorem op63_eq : (TRef.nullary (TRef.of (T := ⟨S_, .f32⟩) main_call1_cst) (constant S_ .f32 0x00000000#32) : HloOp τ sig (Elt F)) = nullary main_call1_cst (((constant S_ .f32 0x00000000#32)) : (⟨S_, .f32⟩ : BufTy).Contents (Elt F)) :=
  nullary_of main_call1_cst _ _ _ _
theorem op64_eq : (TRef.unary (TRef.of (T := ⟨S_, .f32⟩) main_call1_cst) (TRef.of (T := ⟨S100000x128, .f32⟩) main_call1_v0) (broadcastInDim S100000x128 ![] bcast_S_S100000x128) : HloOp τ sig (Elt F)) = unary main_call1_cst main_call1_v0 (((broadcastInDim S100000x128 ![] bcast_S_S100000x128)) : (⟨S_, .f32⟩ : BufTy).Contents (Elt F) → (⟨S100000x128, .f32⟩ : BufTy).Contents (Elt F)) :=
  unary_of main_call1_cst main_call1_v0 _ _ _ _ _ _ _
theorem op65_eq : (TRef.binary (TRef.of (T := ⟨S100000x128, .f32⟩) main_v47) (TRef.of (T := ⟨S100000x128, .f32⟩) main_call1_v0) (TRef.of (T := ⟨S100000x128, .f32⟩) main_v48) maximumf : HloOp τ sig (Elt F)) = binary main_v47 main_call1_v0 main_v48 ((maximumf) : (⟨S100000x128, .f32⟩ : BufTy).Contents (Elt F) → (⟨S100000x128, .f32⟩ : BufTy).Contents (Elt F) → (⟨S100000x128, .f32⟩ : BufTy).Contents (Elt F)) :=
  binary_of main_v47 main_call1_v0 main_v48 _ _ _ _ _ _ _ _ _ _
theorem op86_eq : (TRef.nullary (TRef.of (T := ⟨S_, .f32⟩) main_call2_cst) (constant S_ .f32 0xFF800000#32) : HloOp τ sig (Elt F)) = nullary main_call2_cst (((constant S_ .f32 0xFF800000#32)) : (⟨S_, .f32⟩ : BufTy).Contents (Elt F)) :=
  nullary_of main_call2_cst _ _ _ _
theorem op87_eq : (TRef.binary (TRef.of (T := ⟨S100000x64, .f32⟩) main_v65) (TRef.of (T := ⟨S_, .f32⟩) main_call2_cst) (TRef.of (T := ⟨S100000, .f32⟩) main_call2_v0) (fun x v => Host.reduce FloatOps.maximumf x v reducesTo_S100000x64_S100000_d1 h_S_) : HloOp τ sig (Elt F)) = binary main_v65 main_call2_cst main_call2_v0 (((fun x v => Host.reduce FloatOps.maximumf x v reducesTo_S100000x64_S100000_d1 h_S_)) : (⟨S100000x64, .f32⟩ : BufTy).Contents (Elt F) → (⟨S_, .f32⟩ : BufTy).Contents (Elt F) → (⟨S100000, .f32⟩ : BufTy).Contents (Elt F)) :=
  binary_of main_v65 main_call2_cst main_call2_v0 _ _ _ _ _ _ _ _ _ _
theorem op88_eq : (TRef.nullary (TRef.of (T := ⟨S_, .f32⟩) main_call2_cst_0) (constant S_ .f32 0xFF800000#32) : HloOp τ sig (Elt F)) = nullary main_call2_cst_0 (((constant S_ .f32 0xFF800000#32)) : (⟨S_, .f32⟩ : BufTy).Contents (Elt F)) :=
  nullary_of main_call2_cst_0 _ _ _ _
theorem op89_eq : (TRef.unary (TRef.of (T := ⟨S_, .f32⟩) main_call2_cst_0) (TRef.of (T := ⟨S100000, .f32⟩) main_call2_v1) (broadcastInDim S100000 ![] bcast_S_S100000) : HloOp τ sig (Elt F)) = unary main_call2_cst_0 main_call2_v1 (((broadcastInDim S100000 ![] bcast_S_S100000)) : (⟨S_, .f32⟩ : BufTy).Contents (Elt F) → (⟨S100000, .f32⟩ : BufTy).Contents (Elt F)) :=
  unary_of main_call2_cst_0 main_call2_v1 _ _ _ _ _ _ _
theorem op90_eq : (TRef.binary (TRef.of (T := ⟨S100000, .f32⟩) main_call2_v1) (TRef.of (T := ⟨S100000, .f32⟩) main_call2_v0) (TRef.of (T := ⟨S100000, .f32⟩) main_call2_v2) maximumf : HloOp τ sig (Elt F)) = binary main_call2_v1 main_call2_v0 main_call2_v2 ((maximumf) : (⟨S100000, .f32⟩ : BufTy).Contents (Elt F) → (⟨S100000, .f32⟩ : BufTy).Contents (Elt F) → (⟨S100000, .f32⟩ : BufTy).Contents (Elt F)) :=
  binary_of main_call2_v1 main_call2_v0 main_call2_v2 _ _ _ _ _ _ _ _ _ _
theorem op91_eq : (TRef.unary (TRef.of (T := ⟨S100000, .f32⟩) main_call2_v2) (TRef.of (T := ⟨S100000x1, .f32⟩) main_call2_v3) (broadcastInDim S100000x1 ![0] bcast_S100000_S100000x1_0) : HloOp τ sig (Elt F)) = unary main_call2_v2 main_call2_v3 (((broadcastInDim S100000x1 ![0] bcast_S100000_S100000x1_0)) : (⟨S100000, .f32⟩ : BufTy).Contents (Elt F) → (⟨S100000x1, .f32⟩ : BufTy).Contents (Elt F)) :=
  unary_of main_call2_v2 main_call2_v3 _ _ _ _ _ _ _
theorem op92_eq : (TRef.unary (TRef.of (T := ⟨S100000x1, .f32⟩) main_call2_v3) (TRef.of (T := ⟨S100000x64, .f32⟩) main_call2_v4) (broadcastInDim S100000x64 ![0, 1] bcast_S100000x1_S100000x64_0_1) : HloOp τ sig (Elt F)) = unary main_call2_v3 main_call2_v4 (((broadcastInDim S100000x64 ![0, 1] bcast_S100000x1_S100000x64_0_1)) : (⟨S100000x1, .f32⟩ : BufTy).Contents (Elt F) → (⟨S100000x64, .f32⟩ : BufTy).Contents (Elt F)) :=
  unary_of main_call2_v3 main_call2_v4 _ _ _ _ _ _ _
theorem op93_eq : (TRef.binary (TRef.of (T := ⟨S100000x64, .f32⟩) main_v65) (TRef.of (T := ⟨S100000x64, .f32⟩) main_call2_v4) (TRef.of (T := ⟨S100000x64, .f32⟩) main_call2_v5) subf : HloOp τ sig (Elt F)) = binary main_v65 main_call2_v4 main_call2_v5 ((subf) : (⟨S100000x64, .f32⟩ : BufTy).Contents (Elt F) → (⟨S100000x64, .f32⟩ : BufTy).Contents (Elt F) → (⟨S100000x64, .f32⟩ : BufTy).Contents (Elt F)) :=
  binary_of main_v65 main_call2_v4 main_call2_v5 _ _ _ _ _ _ _ _ _ _
theorem op94_eq : (TRef.unary (TRef.of (T := ⟨S100000x64, .f32⟩) main_call2_v5) (TRef.of (T := ⟨S100000x64, .f32⟩) main_call2_v6) Host.exp : HloOp τ sig (Elt F)) = unary main_call2_v5 main_call2_v6 ((Host.exp) : (⟨S100000x64, .f32⟩ : BufTy).Contents (Elt F) → (⟨S100000x64, .f32⟩ : BufTy).Contents (Elt F)) :=
  unary_of main_call2_v5 main_call2_v6 _ _ _ _ _ _ _
theorem op95_eq : (TRef.nullary (TRef.of (T := ⟨S_, .f32⟩) main_call2_cst_1) (constant S_ .f32 0x00000000#32) : HloOp τ sig (Elt F)) = nullary main_call2_cst_1 (((constant S_ .f32 0x00000000#32)) : (⟨S_, .f32⟩ : BufTy).Contents (Elt F)) :=
  nullary_of main_call2_cst_1 _ _ _ _
theorem op96_eq : (TRef.binary (TRef.of (T := ⟨S100000x64, .f32⟩) main_call2_v6) (TRef.of (T := ⟨S_, .f32⟩) main_call2_cst_1) (TRef.of (T := ⟨S100000, .f32⟩) main_call2_v7) (fun x v => Host.reduceAdd x v reducesTo_S100000x64_S100000_d1 h_S_) : HloOp τ sig (Elt F)) = binary main_call2_v6 main_call2_cst_1 main_call2_v7 (((fun x v => Host.reduceAdd x v reducesTo_S100000x64_S100000_d1 h_S_)) : (⟨S100000x64, .f32⟩ : BufTy).Contents (Elt F) → (⟨S_, .f32⟩ : BufTy).Contents (Elt F) → (⟨S100000, .f32⟩ : BufTy).Contents (Elt F)) :=
  binary_of main_call2_v6 main_call2_cst_1 main_call2_v7 _ _ _ _ _ _ _ _ _ _
theorem op97_eq : (TRef.unary (TRef.of (T := ⟨S100000, .f32⟩) main_call2_v7) (TRef.of (T := ⟨S100000x1, .f32⟩) main_call2_v8) (broadcastInDim S100000x1 ![0] bcast_S100000_S100000x1_0) : HloOp τ sig (Elt F)) = unary main_call2_v7 main_call2_v8 (((broadcastInDim S100000x1 ![0] bcast_S100000_S100000x1_0)) : (⟨S100000, .f32⟩ : BufTy).Contents (Elt F) → (⟨S100000x1, .f32⟩ : BufTy).Contents (Elt F)) :=
  unary_of main_call2_v7 main_call2_v8 _ _ _ _ _ _ _
theorem op98_eq : (TRef.unary (TRef.of (T := ⟨S100000x1, .f32⟩) main_call2_v8) (TRef.of (T := ⟨S100000x1, .f32⟩) main_call2_v9) Host.log : HloOp τ sig (Elt F)) = unary main_call2_v8 main_call2_v9 ((Host.log) : (⟨S100000x1, .f32⟩ : BufTy).Contents (Elt F) → (⟨S100000x1, .f32⟩ : BufTy).Contents (Elt F)) :=
  unary_of main_call2_v8 main_call2_v9 _ _ _ _ _ _ _
theorem op99_eq : (TRef.unary (TRef.of (T := ⟨S100000x1, .f32⟩) main_call2_v9) (TRef.of (T := ⟨S100000x64, .f32⟩) main_call2_v10) (broadcastInDim S100000x64 ![0, 1] bcast_S100000x1_S100000x64_0_1) : HloOp τ sig (Elt F)) = unary main_call2_v9 main_call2_v10 (((broadcastInDim S100000x64 ![0, 1] bcast_S100000x1_S100000x64_0_1)) : (⟨S100000x1, .f32⟩ : BufTy).Contents (Elt F) → (⟨S100000x64, .f32⟩ : BufTy).Contents (Elt F)) :=
  unary_of main_call2_v9 main_call2_v10 _ _ _ _ _ _ _
theorem op100_eq : (TRef.binary (TRef.of (T := ⟨S100000x64, .f32⟩) main_call2_v5) (TRef.of (T := ⟨S100000x64, .f32⟩) main_call2_v10) (TRef.of (T := ⟨S100000x64, .f32⟩) main_v66) subf : HloOp τ sig (Elt F)) = binary main_call2_v5 main_call2_v10 main_v66 ((subf) : (⟨S100000x64, .f32⟩ : BufTy).Contents (Elt F) → (⟨S100000x64, .f32⟩ : BufTy).Contents (Elt F) → (⟨S100000x64, .f32⟩ : BufTy).Contents (Elt F)) :=
  binary_of main_call2_v5 main_call2_v10 main_v66 _ _ _ _ _ _ _ _ _ _

/-! ## The stages of the line

An outlined function's operation is spelt in the line with references that carry their tensor type; here each is
spelt with the plain builder at the same references and the same function (the equalities above), and its result
then reads without casts. -/

/-- Operations 1–7: the two edge columns, each with the self-loops appended. -/
abbrev opsA1 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- Operations 8–23: the degrees and their inverse square roots (the outlined `where` at its buffers' own types). -/
abbrev opsA2 : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0xBF000000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (Host.powf : (⟨S100000, .f32⟩ : BufTy).Contents (Elt F) → (⟨S100000, .f32⟩ : BufTy).Contents (Elt F) → (⟨S100000, .f32⟩ : BufTy).Contents (Elt F)),
    nullary main_cst_3 (constant S_ .f32 0x00000000#32),
    unary main_cst_3 main_call0_v0 ((id) : (⟨S_, .f32⟩ : BufTy).Contents (Elt F) → (⟨S_, .f32⟩ : BufTy).Contents (Elt F)),
    unary main_call0_v0 main_call0_v1 (((broadcastInDim S100000 ![] bcast_S_S100000)) : (⟨S_, .f32⟩ : BufTy).Contents (Elt F) → (⟨S100000, .f32⟩ : BufTy).Contents (Elt F)),
    ternary main_v12 main_v14 main_call0_v1 main_v15 ((select) : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]

/-- Operations 24–42: the per-edge coefficients. -/
abbrev opsB : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)) ]

/-- Operations 43–65: the first layer (the outlined `relu` at its buffers' own types). -/
abbrev opsC : List (HloOp τ sig (Elt F)) :=
  [ binary main_arg0 main_arg2 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_7 (constantI S_ 32 0#32),
    unary main_c_7 main_v32 (broadcastInDim S1700000 ![] bcast_S_S1700000 : (⟨S_, .i32⟩ : BufTy).Contents (Elt F) → (⟨S1700000, .i32⟩ : BufTy).Contents (Elt F)),
    binary main_v3 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v34 (broadcastInDim S1700000 ![] bcast_S_S1700000 : (⟨S_, .i32⟩ : BufTy).Contents (Elt F) → (⟨S1700000, .i32⟩ : BufTy).Contents (Elt F)),
    binary main_v3 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v31 main_v37 main_v38 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v39 (broadcastInDim S1700000x1 ![0] bcast_S1700000_S1700000x1_0 : (⟨S1700000, .f32⟩ : BufTy).Contents (Elt F) → (⟨S1700000x1, .f32⟩ : BufTy).Contents (Elt F)),
    unary main_v39 main_v40 (broadcastInDim S1700000x128 ![0, 1] bcast_S1700000x1_S1700000x128_0_1 : (⟨S1700000x1, .f32⟩ : BufTy).Contents (Elt F) → (⟨S1700000x128, .f32⟩ : BufTy).Contents (Elt F)),
    binary main_v38 main_v40 main_v41 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v42 (broadcastInDim S100000x128 ![] bcast_S_S100000x128 : (⟨S_, .f32⟩ : BufTy).Contents (Elt F) → (⟨S100000x128, .f32⟩ : BufTy).Contents (Elt F)),
    unary main_v6 main_v43 (broadcastInDim S1700000x1 ![0] bcast_S1700000_S1700000x1_0 : (⟨S1700000, .i32⟩ : BufTy).Contents (Elt F) → (⟨S1700000x1, .i32⟩ : BufTy).Contents (Elt F)),
    ternary main_v42 main_v43 main_v41 main_v44 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v44 main_v46 main_v47 (addf : (⟨S100000x128, .f32⟩ : BufTy).Contents (Elt F) → (⟨S100000x128, .f32⟩ : BufTy).Contents (Elt F) → (⟨S100000x128, .f32⟩ : BufTy).Contents (Elt F)),
    nullary main_call1_cst (((constant S_ .f32 0x00000000#32)) : (⟨S_, .f32⟩ : BufTy).Contents (Elt F)),
    unary main_call1_cst main_call1_v0 (((broadcastInDim S100000x128 ![] bcast_S_S100000x128)) : (⟨S_, .f32⟩ : BufTy).Contents (Elt F) → (⟨S100000x128, .f32⟩ : BufTy).Contents (Elt F)),
    binary main_v47 main_call1_v0 main_v48 ((maximumf) : (⟨S100000x128, .f32⟩ : BufTy).Contents (Elt F) → (⟨S100000x128, .f32⟩ : BufTy).Contents (Elt F) → (⟨S100000x128, .f32⟩ : BufTy).Contents (Elt F)) ]

/-- Operations 66–85: the second layer. -/
abbrev opsD : List (HloOp τ sig (Elt F)) :=
  [ binary main_v48 main_arg4 main_v49 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_10 (constantI S_ 32 0#32),
    unary main_c_10 main_v50 (broadcastInDim S1700000 ![] bcast_S_S1700000 : (⟨S_, .i32⟩ : BufTy).Contents (Elt F) → (⟨S1700000, .i32⟩ : BufTy).Contents (Elt F)),
    binary main_v3 main_v50 main_v51 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v52 (broadcastInDim S1700000 ![] bcast_S_S1700000 : (⟨S_, .i32⟩ : BufTy).Contents (Elt F) → (⟨S1700000, .i32⟩ : BufTy).Contents (Elt F)),
    binary main_v3 main_v52 main_v53 (addi : (⟨S1700000, .i32⟩ : BufTy).Contents (Elt F) → (⟨S1700000, .i32⟩ : BufTy).Contents (Elt F) → (⟨S1700000, .i32⟩ : BufTy).Contents (Elt F)),
    ternary main_v51 main_v53 main_v3 main_v54 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v54 main_v55 (broadcastInDim S1700000x1 ![0] bcast_S1700000_S1700000x1_0 : (⟨S1700000, .i32⟩ : BufTy).Contents (Elt F) → (⟨S1700000x1, .i32⟩ : BufTy).Contents (Elt F)),
    binary main_v49 main_v55 main_v56 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v57 (broadcastInDim S1700000x1 ![0] bcast_S1700000_S1700000x1_0 : (⟨S1700000, .f32⟩ : BufTy).Contents (Elt F) → (⟨S1700000x1, .f32⟩ : BufTy).Contents (Elt F)),
    unary main_v57 main_v58 (broadcastInDim S1700000x64 ![0, 1] bcast_S1700000x1_S1700000x64_0_1 : (⟨S1700000x1, .f32⟩ : BufTy).Contents (Elt F) → (⟨S1700000x64, .f32⟩ : BufTy).Contents (Elt F)),
    binary main_v56 main_v58 main_v59 (mulf : (⟨S1700000x64, .f32⟩ : BufTy).Contents (Elt F) → (⟨S1700000x64, .f32⟩ : BufTy).Contents (Elt F) → (⟨S1700000x64, .f32⟩ : BufTy).Contents (Elt F)),
    nullary main_cst_12 (constant S_ .f32 0x00000000#32),
    unary main_cst_12 main_v60 (broadcastInDim S100000x64 ![] bcast_S_S100000x64 : (⟨S_, .f32⟩ : BufTy).Contents (Elt F) → (⟨S100000x64, .f32⟩ : BufTy).Contents (Elt F)),
    unary main_v6 main_v61 (broadcastInDim S1700000x1 ![0] bcast_S1700000_S1700000x1_0 : (⟨S1700000, .i32⟩ : BufTy).Contents (Elt F) → (⟨S1700000x1, .i32⟩ : BufTy).Contents (Elt F)),
    ternary main_v60 main_v61 main_v59 main_v62 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v63 (broadcastInDim S1x64 ![1] bcast_S64_S1x64_1 : (⟨S64, .f32⟩ : BufTy).Contents (Elt F) → (⟨S1x64, .f32⟩ : BufTy).Contents (Elt F)),
    unary main_v63 main_v64 (broadcastInDim S100000x64 ![0, 1] bcast_S1x64_S100000x64_0_1 : (⟨S1x64, .f32⟩ : BufTy).Contents (Elt F) → (⟨S100000x64, .f32⟩ : BufTy).Contents (Elt F)),
    binary main_v62 main_v64 main_v65 (addf : (⟨S100000x64, .f32⟩ : BufTy).Contents (Elt F) → (⟨S100000x64, .f32⟩ : BufTy).Contents (Elt F) → (⟨S100000x64, .f32⟩ : BufTy).Contents (Elt F)) ]

/-- Operations 86–100: the row-wise log-softmax (the outlined function at its buffers' own types). -/
abbrev opsE : List (HloOp τ sig (Elt F)) :=
  [ nullary main_call2_cst (((constant S_ .f32 0xFF800000#32)) : (⟨S_, .f32⟩ : BufTy).Contents (Elt F)),
    binary main_v65 main_call2_cst main_call2_v0 (((fun x v => Host.reduce FloatOps.maximumf x v reducesTo_S100000x64_S100000_d1 h_S_)) : (⟨S100000x64, .f32⟩ : BufTy).Contents (Elt F) → (⟨S_, .f32⟩ : BufTy).Contents (Elt F) → (⟨S100000, .f32⟩ : BufTy).Contents (Elt F)),
    nullary main_call2_cst_0 (((constant S_ .f32 0xFF800000#32)) : (⟨S_, .f32⟩ : BufTy).Contents (Elt F)),
    unary main_call2_cst_0 main_call2_v1 (((broadcastInDim S100000 ![] bcast_S_S100000)) : (⟨S_, .f32⟩ : BufTy).Contents (Elt F) → (⟨S100000, .f32⟩ : BufTy).Contents (Elt F)),
    binary main_call2_v1 main_call2_v0 main_call2_v2 ((maximumf) : (⟨S100000, .f32⟩ : BufTy).Contents (Elt F) → (⟨S100000, .f32⟩ : BufTy).Contents (Elt F) → (⟨S100000, .f32⟩ : BufTy).Contents (Elt F)),
    unary main_call2_v2 main_call2_v3 (((broadcastInDim S100000x1 ![0] bcast_S100000_S100000x1_0)) : (⟨S100000, .f32⟩ : BufTy).Contents (Elt F) → (⟨S100000x1, .f32⟩ : BufTy).Contents (Elt F)),
    unary main_call2_v3 main_call2_v4 (((broadcastInDim S100000x64 ![0, 1] bcast_S100000x1_S100000x64_0_1)) : (⟨S100000x1, .f32⟩ : BufTy).Contents (Elt F) → (⟨S100000x64, .f32⟩ : BufTy).Contents (Elt F)),
    binary main_v65 main_call2_v4 main_call2_v5 ((subf) : (⟨S100000x64, .f32⟩ : BufTy).Contents (Elt F) → (⟨S100000x64, .f32⟩ : BufTy).Contents (Elt F) → (⟨S100000x64, .f32⟩ : BufTy).Contents (Elt F)),
    unary main_call2_v5 main_call2_v6 ((Host.exp) : (⟨S100000x64, .f32⟩ : BufTy).Contents (Elt F) → (⟨S100000x64, .f32⟩ : BufTy).Contents (Elt F)),
    nullary main_call2_cst_1 (((constant S_ .f32 0x00000000#32)) : (⟨S_, .f32⟩ : BufTy).Contents (Elt F)),
    binary main_call2_v6 main_call2_cst_1 main_call2_v7 (((fun x v => Host.reduceAdd x v reducesTo_S100000x64_S100000_d1 h_S_)) : (⟨S100000x64, .f32⟩ : BufTy).Contents (Elt F) → (⟨S_, .f32⟩ : BufTy).Contents (Elt F) → (⟨S100000, .f32⟩ : BufTy).Contents (Elt F)),
    unary main_call2_v7 main_call2_v8 (((broadcastInDim S100000x1 ![0] bcast_S100000_S100000x1_0)) : (⟨S100000, .f32⟩ : BufTy).Contents (Elt F) → (⟨S100000x1, .f32⟩ : BufTy).Contents (Elt F)),
    unary main_call2_v8 main_call2_v9 ((Host.log) : (⟨S100000x1, .f32⟩ : BufTy).Contents (Elt F) → (⟨S100000x1, .f32⟩ : BufTy).Contents (Elt F)),
    unary main_call2_v9 main_call2_v10 (((broadcastInDim S100000x64 ![0, 1] bcast_S100000x1_S100000x64_0_1)) : (⟨S100000x1, .f32⟩ : BufTy).Contents (Elt F) → (⟨S100000x64, .f32⟩ : BufTy).Contents (Elt F)),
    binary main_call2_v5 main_call2_v10 main_v66 ((subf) : (⟨S100000x64, .f32⟩ : BufTy).Contents (Elt F) → (⟨S100000x64, .f32⟩ : BufTy).Contents (Elt F) → (⟨S100000x64, .f32⟩ : BufTy).Contents (Elt F)) ]

/-- The line is its stages, one after the other. -/
theorem ops_split : (ops (F := F)) = opsA1 ++ (opsA2 ++ (opsB ++ (opsC ++ (opsD ++ opsE)))) := by
  rw [ops, op21_eq, op22_eq, op23_eq, op63_eq, op64_eq, op65_eq, op86_eq, op87_eq, op88_eq, op89_eq, op90_eq, op91_eq, op92_eq, op93_eq, op94_eq, op95_eq, op96_eq, op97_eq, op98_eq, op99_eq, op100_eq]
  rfl

end Typed

/-- The fold over two lines run one after the other is the second's fold over the first's. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-! ## Each stage, from any contents

Each stage's output buffer, read from any incoming contents that hold the earlier stages' values at the buffers the
stage reads: the stage function of the arguments. The first stage (operations 1–23) is read in two pieces: the two
columns end in a concatenation, whose operand list the concatenation's own side condition speaks of, and are read
by rewriting one operation at a time; every later piece is read in one pass. -/

/-- Operations 1–7 leave the source column at its stage function of the edge array. -/
theorem A1_v3 (V : Valuation τ sig (Elt Ideal)) :
    after opsA1 V (Proc.devRef .tc main_v3) = val_main_v3 (F := Ideal) (V (Proc.devRef .tc main_arg1)) := by
  after_results
  rfl

/-- Operations 1–7 leave the destination column at its stage function of the edge array. -/
theorem A1_v6 (V : Valuation τ sig (Elt Ideal)) :
    after opsA1 V (Proc.devRef .tc main_v6) = val_main_v6 (F := Ideal) (V (Proc.devRef .tc main_arg1)) := by
  after_results
  rfl

/-- Operations 8–23 read the destination column and leave the inverse square roots of the degrees. -/
theorem A2_v15 (V : Valuation τ sig (Elt Ideal)) (x1 : (⟨S2x1600000, .i32⟩ : BufTy).Contents (Elt Ideal))
    (h6 : V (Proc.devRef .tc main_v6) = val_main_v6 (F := Ideal) x1) :
    after opsA2 V (Proc.devRef .tc main_v15) = val_main_v15 (F := Ideal) x1 := by
  after_results_simp
  rw [h6]
  unfold val_main_v15 val_main_call0_v1 val_main_call0_v0 val_main_cst_3 val_main_v14 val_main_v13 val_main_cst_2 val_main_v12 val_main_v11 val_main_cst_1 val_main_v10 val_main_v9 val_main_v8 val_main_cst_0 val_main_v7 val_main_cst
  rfl

/-- Operations 24–42 read the two columns and the inverse square roots and leave the per-edge coefficients. -/
theorem B_v30 (V : Valuation τ sig (Elt Ideal)) (x1 : (⟨S2x1600000, .i32⟩ : BufTy).Contents (Elt Ideal))
    (h3 : V (Proc.devRef .tc main_v3) = val_main_v3 (F := Ideal) x1)
    (h6 : V (Proc.devRef .tc main_v6) = val_main_v6 (F := Ideal) x1)
    (h15 : V (Proc.devRef .tc main_v15) = val_main_v15 (F := Ideal) x1) :
    after opsB V (Proc.devRef .tc main_v30) = val_main_v30 (F := Ideal) x1 := by
  after_results_simp
  rw [h3, h6, h15]
  unfold val_main_v30 val_main_v29 val_main_v28 val_main_v27 val_main_v26 val_main_v25 val_main_c_6 val_main_v24 val_main_v23 val_main_c_5 val_main_v22 val_main_v21 val_main_v20 val_main_v19 val_main_v18 val_main_c_4 val_main_v17 val_main_v16 val_main_c
  rfl

/-- Operations 43–65 leave the first layer's output. -/
theorem C_v48 (V : Valuation τ sig (Elt Ideal)) (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal))
    (h0 : V (Proc.devRef .tc main_arg0) = x0) (h2 : V (Proc.devRef .tc main_arg2) = x2) (hb : V (Proc.devRef .tc main_arg3) = x3)
    (h3 : V (Proc.devRef .tc main_v3) = val_main_v3 (F := Ideal) x1)
    (h6 : V (Proc.devRef .tc main_v6) = val_main_v6 (F := Ideal) x1)
    (h30 : V (Proc.devRef .tc main_v30) = val_main_v30 (F := Ideal) x1) :
    after opsC V (Proc.devRef .tc main_v48) = val_main_v48 (F := Ideal) x0 x1 x2 x3 := by
  after_results_simp
  rw [h0, h2, hb, h3, h6, h30]
  unfold val_main_v48 val_main_call1_v0 val_main_call1_cst val_main_v47 val_main_v46 val_main_v45 val_main_v44 val_main_v43 val_main_v42 val_main_cst_9 val_main_v41 val_main_v40 val_main_v39 val_main_v38 val_main_v37 val_main_v36 val_main_v35 val_main_v34 val_main_c_8 val_main_v33 val_main_v32 val_main_c_7 val_main_v31
  rfl

/-- Operations 66–85 leave the second layer's output. -/
theorem D_v65 (V : Valuation τ sig (Elt Ideal)) (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))
    (h4 : V (Proc.devRef .tc main_arg4) = x4) (hb : V (Proc.devRef .tc main_arg5) = x5)
    (h3 : V (Proc.devRef .tc main_v3) = val_main_v3 (F := Ideal) x1)
    (h6 : V (Proc.devRef .tc main_v6) = val_main_v6 (F := Ideal) x1)
    (h30 : V (Proc.devRef .tc main_v30) = val_main_v30 (F := Ideal) x1)
    (h48 : V (Proc.devRef .tc main_v48) = val_main_v48 (F := Ideal) x0 x1 x2 x3) :
    after opsD V (Proc.devRef .tc main_v65) = val_main_v65 (F := Ideal) x0 x1 x2 x3 x4 x5 := by
  after_results_simp
  rw [h4, hb, h3, h6, h30, h48]
  unfold val_main_v65 val_main_v64 val_main_v63 val_main_v62 val_main_v61 val_main_v60 val_main_cst_12 val_main_v59 val_main_v58 val_main_v57 val_main_v56 val_main_v55 val_main_v54 val_main_v53 val_main_v52 val_main_c_11 val_main_v51 val_main_v50 val_main_c_10 val_main_v49
  rfl

/-- Operations 86–100 leave the row-wise log-softmax of the second layer's output. -/
theorem E_v66 (V : Valuation τ sig (Elt Ideal)) (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))
    (h65 : V (Proc.devRef .tc main_v65) = val_main_v65 (F := Ideal) x0 x1 x2 x3 x4 x5) :
    after opsE V (Proc.devRef .tc main_v66) = val_main_v66 (F := Ideal) x0 x1 x2 x3 x4 x5 := by
  after_results_simp
  rw [h65]
  unfold val_main_v66 val_main_call2_v10 val_main_call2_v9 val_main_call2_v8 val_main_call2_v7 val_main_call2_cst_1 val_main_call2_v6 val_main_call2_v5 val_main_call2_v4 val_main_call2_v3 val_main_call2_v2 val_main_call2_v1 val_main_call2_cst_0 val_main_call2_v0 val_main_call2_cst
  rfl

/-! ### What each stage leaves alone: the buffers a later stage reads -/

theorem A1_keep_main_arg0 (V : Valuation τ sig (Elt Ideal)) : after opsA1 V (Proc.devRef .tc main_arg0) = V (Proc.devRef .tc main_arg0) := by
  after_results_simp
theorem A1_keep_main_arg2 (V : Valuation τ sig (Elt Ideal)) : after opsA1 V (Proc.devRef .tc main_arg2) = V (Proc.devRef .tc main_arg2) := by
  after_results_simp
theorem A1_keep_main_arg3 (V : Valuation τ sig (Elt Ideal)) : after opsA1 V (Proc.devRef .tc main_arg3) = V (Proc.devRef .tc main_arg3) := by
  after_results_simp
theorem A1_keep_main_arg4 (V : Valuation τ sig (Elt Ideal)) : after opsA1 V (Proc.devRef .tc main_arg4) = V (Proc.devRef .tc main_arg4) := by
  after_results_simp
theorem A1_keep_main_arg5 (V : Valuation τ sig (Elt Ideal)) : after opsA1 V (Proc.devRef .tc main_arg5) = V (Proc.devRef .tc main_arg5) := by
  after_results_simp
theorem A2_keep_main_v3 (V : Valuation τ sig (Elt Ideal)) : after opsA2 V (Proc.devRef .tc main_v3) = V (Proc.devRef .tc main_v3) := by
  after_results_simp
theorem A2_keep_main_v6 (V : Valuation τ sig (Elt Ideal)) : after opsA2 V (Proc.devRef .tc main_v6) = V (Proc.devRef .tc main_v6) := by
  after_results_simp
theorem A2_keep_main_arg0 (V : Valuation τ sig (Elt Ideal)) : after opsA2 V (Proc.devRef .tc main_arg0) = V (Proc.devRef .tc main_arg0) := by
  after_results_simp
theorem A2_keep_main_arg2 (V : Valuation τ sig (Elt Ideal)) : after opsA2 V (Proc.devRef .tc main_arg2) = V (Proc.devRef .tc main_arg2) := by
  after_results_simp
theorem A2_keep_main_arg3 (V : Valuation τ sig (Elt Ideal)) : after opsA2 V (Proc.devRef .tc main_arg3) = V (Proc.devRef .tc main_arg3) := by
  after_results_simp
theorem A2_keep_main_arg4 (V : Valuation τ sig (Elt Ideal)) : after opsA2 V (Proc.devRef .tc main_arg4) = V (Proc.devRef .tc main_arg4) := by
  after_results_simp
theorem A2_keep_main_arg5 (V : Valuation τ sig (Elt Ideal)) : after opsA2 V (Proc.devRef .tc main_arg5) = V (Proc.devRef .tc main_arg5) := by
  after_results_simp
theorem B_keep_main_v3 (V : Valuation τ sig (Elt Ideal)) : after opsB V (Proc.devRef .tc main_v3) = V (Proc.devRef .tc main_v3) := by
  after_results_simp
theorem B_keep_main_v6 (V : Valuation τ sig (Elt Ideal)) : after opsB V (Proc.devRef .tc main_v6) = V (Proc.devRef .tc main_v6) := by
  after_results_simp
theorem B_keep_main_arg0 (V : Valuation τ sig (Elt Ideal)) : after opsB V (Proc.devRef .tc main_arg0) = V (Proc.devRef .tc main_arg0) := by
  after_results_simp
theorem B_keep_main_arg2 (V : Valuation τ sig (Elt Ideal)) : after opsB V (Proc.devRef .tc main_arg2) = V (Proc.devRef .tc main_arg2) := by
  after_results_simp
theorem B_keep_main_arg3 (V : Valuation τ sig (Elt Ideal)) : after opsB V (Proc.devRef .tc main_arg3) = V (Proc.devRef .tc main_arg3) := by
  after_results_simp
theorem B_keep_main_arg4 (V : Valuation τ sig (Elt Ideal)) : after opsB V (Proc.devRef .tc main_arg4) = V (Proc.devRef .tc main_arg4) := by
  after_results_simp
theorem B_keep_main_arg5 (V : Valuation τ sig (Elt Ideal)) : after opsB V (Proc.devRef .tc main_arg5) = V (Proc.devRef .tc main_arg5) := by
  after_results_simp
theorem C_keep_main_v3 (V : Valuation τ sig (Elt Ideal)) : after opsC V (Proc.devRef .tc main_v3) = V (Proc.devRef .tc main_v3) := by
  after_results_simp
theorem C_keep_main_v6 (V : Valuation τ sig (Elt Ideal)) : after opsC V (Proc.devRef .tc main_v6) = V (Proc.devRef .tc main_v6) := by
  after_results_simp
theorem C_keep_main_v30 (V : Valuation τ sig (Elt Ideal)) : after opsC V (Proc.devRef .tc main_v30) = V (Proc.devRef .tc main_v30) := by
  after_results_simp
theorem C_keep_main_arg4 (V : Valuation τ sig (Elt Ideal)) : after opsC V (Proc.devRef .tc main_arg4) = V (Proc.devRef .tc main_arg4) := by
  after_results_simp
theorem C_keep_main_arg5 (V : Valuation τ sig (Elt Ideal)) : after opsC V (Proc.devRef .tc main_arg5) = V (Proc.devRef .tc main_arg5) := by
  after_results_simp

variable (m : (ℓ : Loc nD τ sig) → Buf (Elt Ideal) ℓ)

/-! ## The buffer contents at the cuts, from the launch memory -/

/-- After operations 1–7. -/
def VA1 (c : Dev nD) : Valuation τ sig (Elt Ideal) := after opsA1 (launchContents m c)
/-- After operations 1–23. -/
def VA2 (c : Dev nD) : Valuation τ sig (Elt Ideal) := after opsA2 (VA1 m c)
/-- After operations 1–42. -/
def VB (c : Dev nD) : Valuation τ sig (Elt Ideal) := after opsB (VA2 m c)
/-- After operations 1–65. -/
def VC (c : Dev nD) : Valuation τ sig (Elt Ideal) := after opsC (VB m c)
/-- After operations 1–85. -/
def VD (c : Dev nD) : Valuation τ sig (Elt Ideal) := after opsD (VC m c)

/-- The fold over the whole line is the last stage's fold over the contents after operation 85. -/
theorem after_ops (c : Dev nD) : after (ops (F := Ideal)) (launchContents m c) = after opsE (VD m c) := by
  rw [ops_split, after_append, after_append, after_append, after_append, after_append]
  rfl

theorem VA1_v3 (c : Dev nD) : VA1 m c (Proc.devRef .tc main_v3) = val_main_v3 (F := Ideal) (m ((c.tc : Thread nD τ).loc main_arg1)) := A1_v3 _
theorem VA1_v6 (c : Dev nD) : VA1 m c (Proc.devRef .tc main_v6) = val_main_v6 (F := Ideal) (m ((c.tc : Thread nD τ).loc main_arg1)) := A1_v6 _
theorem VA1_main_arg0 (c : Dev nD) : VA1 m c (Proc.devRef .tc main_arg0) = m ((c.tc : Thread nD τ).loc main_arg0) := A1_keep_main_arg0 _
theorem VA1_main_arg2 (c : Dev nD) : VA1 m c (Proc.devRef .tc main_arg2) = m ((c.tc : Thread nD τ).loc main_arg2) := A1_keep_main_arg2 _
theorem VA1_main_arg3 (c : Dev nD) : VA1 m c (Proc.devRef .tc main_arg3) = m ((c.tc : Thread nD τ).loc main_arg3) := A1_keep_main_arg3 _
theorem VA1_main_arg4 (c : Dev nD) : VA1 m c (Proc.devRef .tc main_arg4) = m ((c.tc : Thread nD τ).loc main_arg4) := A1_keep_main_arg4 _
theorem VA1_main_arg5 (c : Dev nD) : VA1 m c (Proc.devRef .tc main_arg5) = m ((c.tc : Thread nD τ).loc main_arg5) := A1_keep_main_arg5 _

theorem VA2_v15 (c : Dev nD) : VA2 m c (Proc.devRef .tc main_v15) = val_main_v15 (F := Ideal) (m ((c.tc : Thread nD τ).loc main_arg1)) :=
  A2_v15 _ _ (VA1_v6 m c)
theorem VA2_v3 (c : Dev nD) : VA2 m c (Proc.devRef .tc main_v3) = val_main_v3 (F := Ideal) (m ((c.tc : Thread nD τ).loc main_arg1)) :=
  (A2_keep_main_v3 _).trans (VA1_v3 m c)
theorem VA2_v6 (c : Dev nD) : VA2 m c (Proc.devRef .tc main_v6) = val_main_v6 (F := Ideal) (m ((c.tc : Thread nD τ).loc main_arg1)) :=
  (A2_keep_main_v6 _).trans (VA1_v6 m c)
theorem VA2_main_arg0 (c : Dev nD) : VA2 m c (Proc.devRef .tc main_arg0) = m ((c.tc : Thread nD τ).loc main_arg0) := (A2_keep_main_arg0 _).trans (VA1_main_arg0 m c)
theorem VA2_main_arg2 (c : Dev nD) : VA2 m c (Proc.devRef .tc main_arg2) = m ((c.tc : Thread nD τ).loc main_arg2) := (A2_keep_main_arg2 _).trans (VA1_main_arg2 m c)
theorem VA2_main_arg3 (c : Dev nD) : VA2 m c (Proc.devRef .tc main_arg3) = m ((c.tc : Thread nD τ).loc main_arg3) := (A2_keep_main_arg3 _).trans (VA1_main_arg3 m c)
theorem VA2_main_arg4 (c : Dev nD) : VA2 m c (Proc.devRef .tc main_arg4) = m ((c.tc : Thread nD τ).loc main_arg4) := (A2_keep_main_arg4 _).trans (VA1_main_arg4 m c)
theorem VA2_main_arg5 (c : Dev nD) : VA2 m c (Proc.devRef .tc main_arg5) = m ((c.tc : Thread nD τ).loc main_arg5) := (A2_keep_main_arg5 _).trans (VA1_main_arg5 m c)

theorem VB_v30 (c : Dev nD) : VB m c (Proc.devRef .tc main_v30) = val_main_v30 (F := Ideal) (m ((c.tc : Thread nD τ).loc main_arg1)) :=
  B_v30 _ _ (VA2_v3 m c) (VA2_v6 m c) (VA2_v15 m c)
theorem VB_v3 (c : Dev nD) : VB m c (Proc.devRef .tc main_v3) = val_main_v3 (F := Ideal) (m ((c.tc : Thread nD τ).loc main_arg1)) :=
  (B_keep_main_v3 _).trans (VA2_v3 m c)
theorem VB_v6 (c : Dev nD) : VB m c (Proc.devRef .tc main_v6) = val_main_v6 (F := Ideal) (m ((c.tc : Thread nD τ).loc main_arg1)) :=
  (B_keep_main_v6 _).trans (VA2_v6 m c)
theorem VB_main_arg0 (c : Dev nD) : VB m c (Proc.devRef .tc main_arg0) = m ((c.tc : Thread nD τ).loc main_arg0) := (B_keep_main_arg0 _).trans (VA2_main_arg0 m c)
theorem VB_main_arg2 (c : Dev nD) : VB m c (Proc.devRef .tc main_arg2) = m ((c.tc : Thread nD τ).loc main_arg2) := (B_keep_main_arg2 _).trans (VA2_main_arg2 m c)
theorem VB_main_arg3 (c : Dev nD) : VB m c (Proc.devRef .tc main_arg3) = m ((c.tc : Thread nD τ).loc main_arg3) := (B_keep_main_arg3 _).trans (VA2_main_arg3 m c)
theorem VB_main_arg4 (c : Dev nD) : VB m c (Proc.devRef .tc main_arg4) = m ((c.tc : Thread nD τ).loc main_arg4) := (B_keep_main_arg4 _).trans (VA2_main_arg4 m c)
theorem VB_main_arg5 (c : Dev nD) : VB m c (Proc.devRef .tc main_arg5) = m ((c.tc : Thread nD τ).loc main_arg5) := (B_keep_main_arg5 _).trans (VA2_main_arg5 m c)

theorem VC_v48 (c : Dev nD) : VC m c (Proc.devRef .tc main_v48)
    = val_main_v48 (F := Ideal) (m ((c.tc : Thread nD τ).loc main_arg0)) (m ((c.tc : Thread nD τ).loc main_arg1)) (m ((c.tc : Thread nD τ).loc main_arg2)) (m ((c.tc : Thread nD τ).loc main_arg3)) :=
  C_v48 _ _ _ _ _ (VB_main_arg0 m c) (VB_main_arg2 m c) (VB_main_arg3 m c) (VB_v3 m c) (VB_v6 m c) (VB_v30 m c)
theorem VC_v3 (c : Dev nD) : VC m c (Proc.devRef .tc main_v3) = val_main_v3 (F := Ideal) (m ((c.tc : Thread nD τ).loc main_arg1)) :=
  (C_keep_main_v3 _).trans (VB_v3 m c)
theorem VC_v6 (c : Dev nD) : VC m c (Proc.devRef .tc main_v6) = val_main_v6 (F := Ideal) (m ((c.tc : Thread nD τ).loc main_arg1)) :=
  (C_keep_main_v6 _).trans (VB_v6 m c)
theorem VC_v30 (c : Dev nD) : VC m c (Proc.devRef .tc main_v30) = val_main_v30 (F := Ideal) (m ((c.tc : Thread nD τ).loc main_arg1)) :=
  (C_keep_main_v30 _).trans (VB_v30 m c)
theorem VC_main_arg4 (c : Dev nD) : VC m c (Proc.devRef .tc main_arg4) = m ((c.tc : Thread nD τ).loc main_arg4) := (C_keep_main_arg4 _).trans (VB_main_arg4 m c)
theorem VC_main_arg5 (c : Dev nD) : VC m c (Proc.devRef .tc main_arg5) = m ((c.tc : Thread nD τ).loc main_arg5) := (C_keep_main_arg5 _).trans (VB_main_arg5 m c)

theorem VD_v65 (c : Dev nD) : VD m c (Proc.devRef .tc main_v65)
    = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  D_v65 _ _ _ _ _ _ _ (VC_main_arg4 m c) (VC_main_arg5 m c) (VC_v3 m c) (VC_v6 m c) (VC_v30 m c) (VC_v48 m c)

/-- The fold of the 100 operations over the launch memory, at the result buffer: the last stage of the arguments. -/
theorem fold_result (c : Dev nD) :
    after (ops (F := Ideal)) (launchContents m c) (Proc.devRef .tc main_v66)
      = val_main_v66 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [after_ops]
  exact E_v66 _ _ _ _ _ _ _ (VD_v65 m c)

/-- No operation writes an argument: the fold leaves each as launched. -/
theorem fold_arg0 (c : Dev nD) : after (ops (F := Ideal)) (launchContents m c) (Proc.devRef .tc main_arg0)
    = m ((c.tc : Thread nD τ).loc main_arg0) := by
  refine (after_of_forall_not_mem (b := Proc.devRef .tc main_arg0) _ _ (List.forall_iff_forall_mem.mp ?_)).trans rfl
  simp only [ops, TRef.nullary, TRef.unary, TRef.binary, TRef.ternary, List.Forall, nullary_writes, unary_writes,
    binary_writes, ternary_writes, reshape_writes, Finset.mem_singleton]
  repeat' apply And.intro
  all_goals exact devRef_ne_of_ne (by decide)
theorem fold_arg1 (c : Dev nD) : after (ops (F := Ideal)) (launchContents m c) (Proc.devRef .tc main_arg1)
    = m ((c.tc : Thread nD τ).loc main_arg1) := by
  refine (after_of_forall_not_mem (b := Proc.devRef .tc main_arg1) _ _ (List.forall_iff_forall_mem.mp ?_)).trans rfl
  simp only [ops, TRef.nullary, TRef.unary, TRef.binary, TRef.ternary, List.Forall, nullary_writes, unary_writes,
    binary_writes, ternary_writes, reshape_writes, Finset.mem_singleton]
  repeat' apply And.intro
  all_goals exact devRef_ne_of_ne (by decide)
theorem fold_arg2 (c : Dev nD) : after (ops (F := Ideal)) (launchContents m c) (Proc.devRef .tc main_arg2)
    = m ((c.tc : Thread nD τ).loc main_arg2) := by
  refine (after_of_forall_not_mem (b := Proc.devRef .tc main_arg2) _ _ (List.forall_iff_forall_mem.mp ?_)).trans rfl
  simp only [ops, TRef.nullary, TRef.unary, TRef.binary, TRef.ternary, List.Forall, nullary_writes, unary_writes,
    binary_writes, ternary_writes, reshape_writes, Finset.mem_singleton]
  repeat' apply And.intro
  all_goals exact devRef_ne_of_ne (by decide)
theorem fold_arg3 (c : Dev nD) : after (ops (F := Ideal)) (launchContents m c) (Proc.devRef .tc main_arg3)
    = m ((c.tc : Thread nD τ).loc main_arg3) := by
  refine (after_of_forall_not_mem (b := Proc.devRef .tc main_arg3) _ _ (List.forall_iff_forall_mem.mp ?_)).trans rfl
  simp only [ops, TRef.nullary, TRef.unary, TRef.binary, TRef.ternary, List.Forall, nullary_writes, unary_writes,
    binary_writes, ternary_writes, reshape_writes, Finset.mem_singleton]
  repeat' apply And.intro
  all_goals exact devRef_ne_of_ne (by decide)
theorem fold_arg4 (c : Dev nD) : after (ops (F := Ideal)) (launchContents m c) (Proc.devRef .tc main_arg4)
    = m ((c.tc : Thread nD τ).loc main_arg4) := by
  refine (after_of_forall_not_mem (b := Proc.devRef .tc main_arg4) _ _ (List.forall_iff_forall_mem.mp ?_)).trans rfl
  simp only [ops, TRef.nullary, TRef.unary, TRef.binary, TRef.ternary, List.Forall, nullary_writes, unary_writes,
    binary_writes, ternary_writes, reshape_writes, Finset.mem_singleton]
  repeat' apply And.intro
  all_goals exact devRef_ne_of_ne (by decide)
theorem fold_arg5 (c : Dev nD) : after (ops (F := Ideal)) (launchContents m c) (Proc.devRef .tc main_arg5)
    = m ((c.tc : Thread nD τ).loc main_arg5) := by
  refine (after_of_forall_not_mem (b := Proc.devRef .tc main_arg5) _ _ (List.forall_iff_forall_mem.mp ?_)).trans rfl
  simp only [ops, TRef.nullary, TRef.unary, TRef.binary, TRef.ternary, List.Forall, nullary_writes, unary_writes,
    binary_writes, ternary_writes, reshape_writes, Finset.mem_singleton]
  repeat' apply And.intro
  all_goals exact devRef_ne_of_ne (by decide)

/-- THE REFERENCE'S RUN: every weakly fair execution terminates without a fault, the result buffer at the last stage of
    the arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v66)
        = val_main_v66 (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v66).trans (fold_result m c), (h c main_arg0).trans (fold_arg0 m c), (h c main_arg1).trans (fold_arg1 m c),
        (h c main_arg2).trans (fold_arg2 m c), (h c main_arg3).trans (fold_arg3 m c), (h c main_arg4).trans (fold_arg4 m c),
        (h c main_arg5).trans (fold_arg5 m c)⟩)
    (Cert.ReferenceIdeal.ValueP.run (F := Ideal) m ρ)

end Cert.ReferenceIdeal.RefValue

end
-- ==== Proof.LibGatherScatter.lean ====
/-
  Row gathers and row scatters read at an index.

  `h[src]` of a matrix `h : [N, C]` (or of a flat vector `v : [N]`) at an integer column `src : [E, 1]` lowers to a
  gather whose result row `e` is the operand's row at the start index `src[e, 0]` read as a signed integer and clamped
  into `[0, N − 1]` (`clampRow`). `segment_sum` lowers to a scatter of the update rows `[E, C]` by an integer column
  `dst : [E, 1]` whose update element `(e, f)` lands on operand element `(i, f')` only when `dst[e, 0]`, read signed and
  NOT clamped, is the row number `i` and `f = f'`. numpy's wrap of a negative index ("add N if negative") leaves a word
  that already reads as a row number alone, so a gather by the wrapped `dst` reads, on every edge that lands on row `i`,
  row `i` itself.
-/
import Idealize.ShloMosaic.Lib.ValueIdx
import Idealize.ShloMosaic.PureOps.Ideal

noncomputable section

namespace Cert.Lib.GatherScatter

open Idealize.ShloMosaic Idealize.ShloMosaic.ValueIdx

variable {α : Type}

/-- The operand row a gather reads for the start index word `b`: read signed, clamped into `[0, N − 1]`. -/
def clampRow (N : ℕ) (hN : 0 < N) {w : ℕ} (b : BitVec w) : Fin N := ⟨min b.toInt.toNat (N - 1), by omega⟩

/-- `v[idx]` of a flat `[N]` operand at a column `[E, 1]` of start indices, result `[E]`. -/
abbrev flatGatherDims (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather at `e`: the operand at the clamped start index `idx[e, 0]`. -/
theorem flatGather_apply {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGatherDims N E wf) x idx (ix1 e) = x (ix1 (clampRow N hN (idx (ix2 e (0 : Fin 1))))) := by
  unfold Host.gather
  congr 1
  funext a
  obtain rfl : a = 0 := Subsingleton.elim _ _
  refine Fin.ext ?_
  show (flatGatherDims N E wf).start (ix1 e) idx 0 + (flatGatherDims N E wf).batchCoord (ix1 e) 0
    + (flatGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N E wf).startIndexMap from List.mem_singleton.mpr rfl)]
  have hsi : (flatGatherDims N E wf).siIdx (ix1 e) ⟨List.idxOf (0 : Fin 1) (flatGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- `h[idx]` of an `[N, C]` operand at a column `[E, 1]` of start indices, whole rows, result `[E, C]`. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather at `(e, f)`: the operand's row at the clamped start index `idx[e, 0]`, lane `f`. -/
theorem rowGather_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N E C wf) x idx (ix2 e f) = x (ix2 (clampRow N hN (idx (ix2 e (0 : Fin 1)))) f) := by
  unfold Host.gather
  congr 1
  funext a
  refine Fin.ext ?_
  match a with
  | ⟨0, _⟩ =>
    show (rowGatherDims N E C wf).start (ix2 e f) idx 0 + (rowGatherDims N E C wf).batchCoord (ix2 e f) 0
      + (rowGatherDims N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e f) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e f) idx 1 + (rowGatherDims N E C wf).batchCoord (ix2 e f) 1
      + (rowGatherDims N E C wf).offCoord (ix2 e f) 1 = f.val
    have h1 : (1 : Fin 2) ∉ ([0] : List (Fin 2)) := fun h => absurd (List.mem_singleton.mp h) (by decide)
    rw [GatherDims.batchCoord_eq_zero _ _ _ List.not_mem_nil]
    unfold GatherDims.start
    rw [dif_neg (show (1 : Fin 2) ∉ (rowGatherDims N E C wf).startIndexMap from h1)]
    unfold GatherDims.offCoord
    rw [dif_pos ((GatherDims.mem_sKept _ _).mpr ⟨h1, List.not_mem_nil⟩)]
    simp only [Nat.zero_add]
    rfl

/-- An axis is among the kept ones exactly when it is not among the removed ones. -/
private theorem mem_kept_iff {s : Shape} (l : List (Fin s.rank)) (a : Fin s.rank) : a ∈ s.kept l ↔ a ∉ l := by
  simp [Shape.kept, List.mem_filter, List.mem_finRange]

/-- A scatter of update rows `[E, C]` into an `[N, C]` operand by a column `[E, 1]` of scatter indices. -/
abbrev rowScatterDims (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where an update element lands: update `(e, f)` lands on operand element `i` only if the scatter index `idx[e, 0]`,
    read signed, is `i`'s row number, and `f` is `i`'s lane. -/
theorem rowScatter_lands {N E C w : ℕ} (wf : ScatterDims.WF ⟨2, ![N, C]⟩ ⟨2, ![E, 1]⟩ ⟨2, ![E, C]⟩ [1] [0] [0] 1)
    (idx : IVec ⟨2, ![E, 1]⟩ w) (e : Fin E) (f : Fin C) (i : (⟨2, ![N, C]⟩ : Shape).Idx)
    (h : (rowScatterDims N E C wf).resultIdx? (ix2 e f) idx = some i) :
    (idx (ix2 e (0 : Fin 1))).toInt = ((i 0).val : ℤ) ∧ f.val = (i 1).val := by
  unfold ScatterDims.resultIdx? at h
  split at h
  · rename_i hall
    have hi := Option.some.inj h
    have h0 : ((rowScatterDims N E C wf).start (ix2 e f) idx 0 + (rowScatterDims N E C wf).window (ix2 e f) 0).toNat
        = (i 0).val := congrArg (fun g => (g 0).val) hi
    have h1 : ((rowScatterDims N E C wf).start (ix2 e f) idx 1 + (rowScatterDims N E C wf).window (ix2 e f) 1).toNat
        = (i 1).val := congrArg (fun g => (g 1).val) hi
    have n1 : (1 : Fin 2) ∉ ([0] : List (Fin 2)) := fun h => absurd (List.mem_singleton.mp h) (by decide)
    have hs0 : (rowScatterDims N E C wf).start (ix2 e f) idx 0 = (idx (ix2 e (0 : Fin 1))).toInt := by
      unfold ScatterDims.start
      rw [dif_pos (show (0 : Fin 2) ∈ (rowScatterDims N E C wf).scatterDimsToOperandDims from List.mem_singleton.mpr rfl)]
      have hsi : (rowScatterDims N E C wf).siIdx (ix2 e f)
          ⟨List.idxOf (0 : Fin 2) (rowScatterDims N E C wf).scatterDimsToOperandDims,
            List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    have hw0 : (rowScatterDims N E C wf).window (ix2 e f) 0 = 0 := by
      unfold ScatterDims.window
      rw [dif_neg (fun hk => (mem_kept_iff _ _).mp hk (List.mem_singleton.mpr rfl))]
    have hs1 : (rowScatterDims N E C wf).start (ix2 e f) idx 1 = 0 := by
      unfold ScatterDims.start
      rw [dif_neg (show (1 : Fin 2) ∉ (rowScatterDims N E C wf).scatterDimsToOperandDims from n1)]
    have hw1 : (rowScatterDims N E C wf).window (ix2 e f) 1 = f.val := by
      unfold ScatterDims.window
      rw [dif_pos ((mem_kept_iff _ _).mpr n1)]
      rfl
    have a0 := hall 0
    have a1 := hall 1
    rw [hs0, hw0] at h0 a0
    rw [hs1, hw1] at h1 a1
    constructor <;> omega
  · cases h

/-- numpy's wrap of a negative index leaves a word that reads, signed, as a row number `r < N` alone, and the gather's
    clamp then returns `r`. -/
theorem clampRow_wrap_of_toInt_eq {N : ℕ} (hN : 0 < N) (b n : BitVec 32) (r : Fin N) (h : b.toInt = (r.val : ℤ)) :
    clampRow N hN (Scalar.select (IntOp.cmpi .slt b 0#32) (IntOp.addi b n) b) = r := by
  have hb : 0 ≤ b.toInt := by rw [h]; exact Int.natCast_nonneg _
  have hslt : b.slt 0#32 = false := by
    rw [BitVec.slt]
    simp only [decide_eq_false_iff_not, not_lt]
    exact hb
  have hc : IntOp.cmpi .slt b 0#32 = 0#1 := by
    show BitVec.ofBool (b.slt 0#32) = 0#1
    rw [hslt]; rfl
  rw [hc, select_zero]
  refine Fin.ext ?_
  show min b.toInt.toNat (N - 1) = r.val
  rw [h]
  have := r.isLt
  simp only [Int.toNat_natCast]
  omega

end Cert.Lib.GatherScatter

end
-- ==== Proof.Consts.lean ====
/-
  The float constants the two programs spell, as the extended reals their words denote: `0.0`, `1.0`, `-0.5`.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `-0.5` denotes the real `-1/2`. -/
theorem ofBits_neg_half : Ideal.ofBits .f32 0xBF000000#32 = ((-(1 / 2) : ℝ) : EReal) := by
  simp [Ideal.ofBits, Ideal.ieee, -EReal.coe_mul]; norm_num

end Cert.Consts

end
-- ==== Proof.SpecLayer.lean ====
/-
  One graph-convolution layer, two ways, on the extended reals.

  With `dv` the inverse square roots of the degrees, the kernel scales the rows first, gathers the source rows, sums them
  onto their destination rows and scales each destination row:  `(∑_{e ↦ i} H[src e] · dv[src e]) · dv[i]`.
  The reference scales every gathered row by its edge's coefficient before the sum:
  `∑_{e ↦ i} H[src e] · (dv[src e] · dv[dst e])`, the coefficient's second factor read by a gather at the wrapped
  destination index. On every edge that lands on row `i` that gather reads row `i`; multiplication is associative on
  the extended reals; and a factor in `[0, +∞)` distributes over any sum of extended reals. So the two agree as soon as
  every `dv[i]` is a nonnegative real — which it is: a degree is a finite sum of ones, and `dv` is its power `-1/2`
  where it is positive and `0` elsewhere. No entry of `H` need be finite.
-/
import Idealize.ShloMosaic.Lib.ValueIdx
import Idealize.ShloMosaic.PureOps.Ideal
import proofs.«143718_j79242146611357_2_alg».proof.Proof.LibGatherScatter
import proofs.«143718_j79242146611357_2_alg».proof.Proof.Consts

noncomputable section

namespace Cert.Spec

open Idealize.ShloMosaic Idealize.ShloMosaic.ValueIdx Cert.Lib.GatherScatter

/-- An extended real that is a nonnegative real number. -/
def NonnegReal (x : EReal) : Prop := ∃ r : ℝ, 0 ≤ r ∧ x = (r : EReal)

theorem NonnegReal.nonneg {x : EReal} (h : NonnegReal x) : 0 ≤ x := by
  obtain ⟨r, hr, rfl⟩ := h
  exact EReal.coe_nonneg.mpr hr

theorem NonnegReal.ne_top {x : EReal} (h : NonnegReal x) : x ≠ ⊤ := by
  obtain ⟨r, _, rfl⟩ := h
  exact EReal.coe_ne_top r

/-- A finite sum of ones in the extended reals is the number of its terms, as a real. -/
private theorem sum_ones_eq_card {ι : Type*} (S : Finset ι) : (∑ _j ∈ S, (1 : EReal)) = ((S.card : ℝ) : EReal) := by
  classical
  induction S using Finset.induction_on with
  | empty => simp
  | insert a S ha ih =>
    rw [Finset.sum_insert ha, ih, Finset.card_insert_of_notMem ha, Nat.cast_add, Nat.cast_one, EReal.coe_add,
      EReal.coe_one, add_comm]

/-- A scatter-add of ones onto zeros counts, at each element, the updates that land on it: a nonnegative real. -/
theorem scatter_ones_nonnegReal {s si su : Shape} (d : ScatterDims s si su) {w : ℕ} (Z : s.Idx → EReal) (idx : IVec si w)
    (U : su.Idx → EReal) (hZ : ∀ i, Z i = 0) (hU : ∀ j, U j = 1) (i : s.Idx) :
    NonnegReal (Ideal.hostScatterAdd d Z idx U i) := by
  show NonnegReal (Z i + ∑ j ∈ Finset.univ.filter (fun j => d.resultIdx? j idx = some i), U j)
  rw [hZ i, zero_add, Finset.sum_congr rfl (fun j _ => hU j), sum_ones_eq_card]
  exact ⟨_, Nat.cast_nonneg _, rfl⟩

/-- The inverse square root of a degree as the programs compute it — the power `-1/2` where the degree is positive, `0`
    elsewhere — is a nonnegative real when the degree is. -/
theorem dinv_nonnegReal (d : Ideal .f32) (hd : NonnegReal d) :
    NonnegReal (Scalar.select (FloatOps.cmpf (F := Ideal) .ogt d (Ideal.ofBits .f32 0x00000000#32))
      (FloatOps.hostPowf (F := Ideal) d (Ideal.ofBits .f32 0xBF000000#32)) (Ideal.ofBits .f32 0x00000000#32)) := by
  obtain ⟨r, hr, rfl⟩ := hd
  rw [Cert.Consts.ofBits_zero, Cert.Consts.ofBits_neg_half]
  show NonnegReal (Scalar.select (Ideal.cmp .ogt (r : EReal) 0) (Ideal.pow (r : EReal) ((-(1 / 2) : ℝ) : EReal)) 0)
  by_cases hpos : 0 < r
  · have hc : Ideal.cmp .ogt (r : EReal) 0 = 1#1 := by
      show BitVec.ofBool (decide ((0 : EReal) < (r : EReal))) = 1#1
      rw [decide_eq_true (EReal.coe_pos.mpr hpos)]; rfl
    rw [hc, select_one]
    exact ⟨Real.rpow r (-(1 / 2)), Real.rpow_nonneg hr _, rfl⟩
  · have hc : Ideal.cmp .ogt (r : EReal) 0 = 0#1 := by
      show BitVec.ofBool (decide ((0 : EReal) < (r : EReal))) = 0#1
      rw [decide_eq_false (fun h => hpos (EReal.coe_pos.mp h))]; rfl
    rw [hc, select_zero]
    exact ⟨0, le_refl _, rfl⟩

/-- A factor in `[0, +∞)` distributes over a finite sum of extended reals. -/
theorem sum_mul_nonnegReal {ι : Type*} (S : Finset ι) (f : ι → EReal) {c : EReal} (hc : NonnegReal c) :
    (∑ j ∈ S, f j) * c = ∑ j ∈ S, f j * c := by
  classical
  induction S using Finset.induction_on with
  | empty => simp
  | insert a S ha ih =>
    rw [Finset.sum_insert ha, Finset.sum_insert ha, EReal.right_distrib_of_nonneg_of_ne_top hc.nonneg hc.ne_top, ih]

/-- THE LAYER, TWO WAYS. `H` any `[N, C]` array; `dv` nonnegative reals; `Z` the zero array; `dstW` the destination
    column wrapped as numpy wraps a negative index. Scaling the rows by `dv` before the gather and the summed rows by
    `dv` after, is scaling each gathered row by `dv[src] · dv[dstW]` before the sum. -/
theorem layer_eq {N E C : ℕ} (hN : 0 < N)
    (wfG : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (wfS : ScatterDims.WF ⟨2, ![N, C]⟩ ⟨2, ![E, 1]⟩ ⟨2, ![E, C]⟩ [1] [0] [0] 1)
    (H : (⟨2, ![N, C]⟩ : Shape).Idx → EReal) (dv : (⟨1, ![N]⟩ : Shape).Idx → EReal)
    (Z : (⟨2, ![N, C]⟩ : Shape).Idx → EReal) (src dst dstW : IVec ⟨2, ![E, 1]⟩ 32) (n : BitVec 32)
    (hdv : ∀ r, NonnegReal (dv r)) (hZ : ∀ i, Z i = 0)
    (hW : ∀ e : Fin E, dstW (ix2 e (0 : Fin 1))
      = Scalar.select (IntOp.cmpi .slt (dst (ix2 e (0 : Fin 1))) 0#32) (IntOp.addi (dst (ix2 e (0 : Fin 1))) n)
          (dst (ix2 e (0 : Fin 1))))
    (r : Fin N) (f : Fin C) :
    Ideal.hostScatterAdd (rowScatterDims N E C wfS) Z dst
        (Host.gather (rowGatherDims N E C wfG) (fun j => H j * dv (ix1 ⟨(j 0).val, idx2_lt0 j⟩)) src) (ix2 r f)
      * dv (ix1 r)
    = Ideal.hostScatterAdd (rowScatterDims N E C wfS) Z dst
        (fun j => Host.gather (rowGatherDims N E C wfG) H src j
          * (Host.gather (flatGatherDims N E wfg) dv src (ix1 ⟨(j 0).val, idx2_lt0 j⟩)
            * Host.gather (flatGatherDims N E wfg) dv dstW (ix1 ⟨(j 0).val, idx2_lt0 j⟩))) (ix2 r f) := by
  unfold Ideal.hostScatterAdd
  rw [hZ, zero_add, zero_add, sum_mul_nonnegReal _ _ (hdv (ix1 r))]
  refine Finset.sum_congr rfl (fun j hj => ?_)
  obtain ⟨e, f', rfl⟩ : ∃ (e : Fin E) (f' : Fin C), j = ix2 e f' := ⟨j 0, j 1, eq_ix2 j⟩
  -- the edge `e` lands on row `r`: its destination word reads, signed, as `r`
  have hl : (dst (ix2 e (0 : Fin 1))).toInt = (r.val : ℤ) :=
    (rowScatter_lands wfS dst e f' (ix2 r f) (Finset.mem_filter.mp hj).2).1
  -- so the gather by the wrapped destination index reads row `r`
  have hrow : clampRow N hN (dstW (ix2 e (0 : Fin 1))) = r := by
    rw [hW e]; exact clampRow_wrap_of_toInt_eq hN _ n r hl
  have hG1 : Host.gather (rowGatherDims N E C wfG) (fun j => H j * dv (ix1 ⟨(j 0).val, idx2_lt0 j⟩)) src (ix2 e f')
      = H (ix2 (clampRow N hN (src (ix2 e (0 : Fin 1)))) f') * dv (ix1 (clampRow N hN (src (ix2 e (0 : Fin 1))))) :=
    rowGather_apply hN wfG _ src e f'
  have hG2 : Host.gather (rowGatherDims N E C wfG) H src (ix2 e f')
      = H (ix2 (clampRow N hN (src (ix2 e (0 : Fin 1)))) f') := rowGather_apply hN wfG H src e f'
  have hg1 : Host.gather (flatGatherDims N E wfg) dv src (ix1 ⟨((ix2 e f') 0).val, idx2_lt0 (ix2 e f')⟩)
      = dv (ix1 (clampRow N hN (src (ix2 e (0 : Fin 1))))) := flatGather_apply hN wfg dv src e
  have hg2 : Host.gather (flatGatherDims N E wfg) dv dstW (ix1 ⟨((ix2 e f') 0).val, idx2_lt0 (ix2 e f')⟩)
      = dv (ix1 r) := by
    have h := flatGather_apply hN wfg dv dstW e
    rw [hrow] at h
    exact h
  show Host.gather (rowGatherDims N E C wfG) (fun j => H j * dv (ix1 ⟨(j 0).val, idx2_lt0 j⟩)) src (ix2 e f') * dv (ix1 r)
    = Host.gather (rowGatherDims N E C wfG) H src (ix2 e f')
      * (Host.gather (flatGatherDims N E wfg) dv src (ix1 ⟨((ix2 e f') 0).val, idx2_lt0 (ix2 e f')⟩)
        * Host.gather (flatGatherDims N E wfg) dv dstW (ix1 ⟨((ix2 e f') 0).val, idx2_lt0 (ix2 e f')⟩))
  -- both sides are now `H[src e] · dv[src e] · dv[r]`, bracketed two ways
  rw [hG1, hG2, hg1, hg2, mul_assoc]

end Cert.Spec

end
-- ==== Proof.BridgeRef.lean ====
/-
  The reference's two layers in the kernel's form.

  The inverse square roots `dv` of the degrees are nonnegative reals: a degree is a finite sum of ones. The
  reference's wrapped destination column is its destination column with numpy's wrap applied entry by entry. So each
  of the reference's scatters — every gathered row scaled by its edge's coefficient `dv[src] · dv[dst]` before the sum
  — is, entry by entry, the aggregate of the rows scaled by `dv` beforehand, scaled by `dv` afterwards: the form in
  which the kernel computes the layer.
-/
import proofs.«143718_j79242146611357_2_alg».proof.Proof.RefReadP
import proofs.«143718_j79242146611357_2_alg».proof.Proof.LibGatherScatter
import proofs.«143718_j79242146611357_2_alg».proof.Proof.SpecLayer
import Idealize.ShloMosaic.Lib.ValueIdx
import Idealize.ShloMosaic.Lib.Pipeline.Value

set_option maxRecDepth 16384

noncomputable section

namespace Cert.Bridge

open Idealize.ShloMosaic Idealize.ShloMosaic.ValueIdx
open Cert.Lib.GatherScatter Cert.Spec
open Cert.ReferenceIdeal.ReadP

abbrev EI := (⟨2, ![2, 1600000]⟩ : Shape).Idx → BitVec 32
abbrev X := (⟨2, ![100000, 128]⟩ : Shape).Idx → EReal
abbrev W1 := (⟨2, ![128, 128]⟩ : Shape).Idx → EReal
abbrev B1 := (⟨1, ![128]⟩ : Shape).Idx → EReal
abbrev W2 := (⟨2, ![128, 64]⟩ : Shape).Idx → EReal
abbrev B2 := (⟨1, ![64]⟩ : Shape).Idx → EReal

/-- The host's accumulating scatter at the ideal values is the exact sum (stated over variables: no array is opened). -/
theorem scatterAdd_ideal {s si su : Shape} {w : ℕ} (d : ScatterDims s si su) (x : FVec Ideal s .f32) (idx : IVec si w)
    (upd : FVec Ideal su .f32) : Host.scatterAdd (F := Ideal) d x idx upd = Ideal.hostScatterAdd d x idx upd := rfl

/-! ## The dimension numbers, as the general ones -/

theorem wfG128 : GatherDims.WF ⟨2, ![100000, 128]⟩ ⟨2, ![1700000, 1]⟩ ⟨2, ![1700000, 128]⟩ [1] [0] [] [0] [] 1 ![1, 128] :=
  Cert.ReferenceIdeal.Facts₀.gather_S100000x128_S1700000x1_S1700000x128_1_0_n_n_0_1_1128_wf
theorem wfG64 : GatherDims.WF ⟨2, ![100000, 64]⟩ ⟨2, ![1700000, 1]⟩ ⟨2, ![1700000, 64]⟩ [1] [0] [] [0] [] 1 ![1, 64] :=
  Cert.ReferenceIdeal.Facts₀.gather_S100000x64_S1700000x1_S1700000x64_1_0_n_n_0_1_164_wf
theorem wfg : GatherDims.WF ⟨1, ![100000]⟩ ⟨2, ![1700000, 1]⟩ ⟨1, ![1700000]⟩ [] [0] [] [0] [] 1 ![1] :=
  Cert.ReferenceIdeal.Facts₀.gather_S100000_S1700000x1_S1700000_n_0_n_n_0_1_1_wf
theorem wfS128 : ScatterDims.WF ⟨2, ![100000, 128]⟩ ⟨2, ![1700000, 1]⟩ ⟨2, ![1700000, 128]⟩ [1] [0] [0] 1 :=
  Cert.ReferenceIdeal.Facts₀.scatter_S100000x128_S1700000x1_S1700000x128_1_0_0_1_wf
theorem wfS64 : ScatterDims.WF ⟨2, ![100000, 64]⟩ ⟨2, ![1700000, 1]⟩ ⟨2, ![1700000, 64]⟩ [1] [0] [0] 1 :=
  Cert.ReferenceIdeal.Facts₀.scatter_S100000x64_S1700000x1_S1700000x64_1_0_0_1_wf

theorem recG128 : Cert.ReferenceIdeal.gather_S100000x128_S1700000x1_S1700000x128_1_0_n_n_0_1_1128
    = rowGatherDims 100000 1700000 128 wfG128 := rfl
theorem recG64 : Cert.ReferenceIdeal.gather_S100000x64_S1700000x1_S1700000x64_1_0_n_n_0_1_164
    = rowGatherDims 100000 1700000 64 wfG64 := rfl
theorem recg : Cert.ReferenceIdeal.gather_S100000_S1700000x1_S1700000_n_0_n_n_0_1_1 = flatGatherDims 100000 1700000 wfg := rfl
theorem recS128 : Cert.ReferenceIdeal.scatter_S100000x128_S1700000x1_S1700000x128_1_0_0_1
    = rowScatterDims 100000 1700000 128 wfS128 := rfl
theorem recS64 : Cert.ReferenceIdeal.scatter_S100000x64_S1700000x1_S1700000x64_1_0_0_1
    = rowScatterDims 100000 1700000 64 wfS64 := rfl

/-! ## The inverse square roots of the degrees are nonnegative reals -/

/-- The inverse square roots of the degrees. -/
abbrev dv (ei : EI) : (⟨1, ![100000]⟩ : Shape).Idx → EReal := val_main_v15 (F := Ideal) ei

theorem v8_zero (i : (⟨1, ![100000]⟩ : Shape).Idx) : val_main_v8 (F := Ideal) i = 0 := by
  rw [val_main_v8_apply, val_main_cst_0_apply]; exact Cert.Consts.ofBits_zero

theorem v7_one (j : (⟨1, ![1700000]⟩ : Shape).Idx) : val_main_v7 (F := Ideal) j = 1 := by
  rw [val_main_v7_apply, val_main_cst_apply]; exact Cert.Consts.ofBits_one

theorem deg_nonnegReal (ei : EI) (i : (⟨1, ![100000]⟩ : Shape).Idx) : NonnegReal (val_main_v10 (F := Ideal) ei i) := by
  unfold val_main_v10
  rw [scatterAdd_ideal]
  exact scatter_ones_nonnegReal _ _ _ _ v8_zero v7_one i

theorem dv_nonnegReal (ei : EI) (i : (⟨1, ![100000]⟩ : Shape).Idx) : NonnegReal (dv ei i) := by
  show NonnegReal (val_main_v15 (F := Ideal) ei i)
  rw [val_main_v15_apply, val_main_v12_apply, val_main_v14_apply, val_main_v11_apply, val_main_cst_1_apply,
    val_main_v13_apply, val_main_cst_2_apply, val_main_call0_v1_apply, val_main_call0_v0_apply, val_main_cst_3_apply]
  simp only [Ideal.ofBits_def]
  exact dinv_nonnegReal _ (deg_nonnegReal ei i)

/-! ## The edge columns -/

abbrev dstCol (ei : EI) : IVec ⟨2, ![1700000, 1]⟩ 32 := val_main_v43 (F := Ideal) ei
abbrev srcCol (ei : EI) : IVec ⟨2, ![1700000, 1]⟩ 32 := val_main_v37 (F := Ideal) ei
abbrev dstWCol (ei : EI) : IVec ⟨2, ![1700000, 1]⟩ 32 := val_main_v28 (F := Ideal) ei

/-- The wrapped destination column is the destination column with numpy's wrap applied entry by entry. -/
theorem dstWCol_apply (ei : EI) (e : Fin 1700000) :
    dstWCol ei (ix2 e (0 : Fin 1))
      = Scalar.select (IntOp.cmpi .slt (dstCol ei (ix2 e (0 : Fin 1))) 0#32)
          (IntOp.addi (dstCol ei (ix2 e (0 : Fin 1))) 100000#32) (dstCol ei (ix2 e (0 : Fin 1))) := by
  have hi43 : idx_main_v43 (ix2 e (0 : Fin 1)) = ix1 e := funext fun a => by match a with | ⟨0, _⟩ => rfl
  have hi28 : idx_main_v28 (ix2 e (0 : Fin 1)) = ix1 e := funext fun a => by match a with | ⟨0, _⟩ => rfl
  have hd : dstCol ei (ix2 e (0 : Fin 1)) = val_main_v6 (F := Ideal) ei (ix1 e) := by
    show val_main_v43 (F := Ideal) ei (ix2 e (0 : Fin 1)) = _
    rw [val_main_v43_apply, hi43]
  rw [hd]
  show val_main_v28 (F := Ideal) ei (ix2 e (0 : Fin 1)) = _
  rw [val_main_v28_apply, hi28, val_main_v27_apply, val_main_v24_apply, val_main_v26_apply, val_main_v23_apply,
    val_main_c_5_apply, val_main_v25_apply, val_main_c_6_apply]

theorem v21_eq (ei : EI) : val_main_v21 (F := Ideal) ei = srcCol ei := rfl
theorem v55_eq (ei : EI) : val_main_v55 (F := Ideal) ei = srcCol ei := rfl
theorem v61_eq (ei : EI) : val_main_v61 (F := Ideal) ei = dstCol ei := rfl

/-! ## Layer 1 -/

/-- The first layer's product: at `(r, f)`, `∑ k, x[r, k] · W1[k, f]`. -/
def prod1 (x : X) (w1 : W1) : X :=
  fun j => ∑ k : Fin 128, x (ix2 (⟨(j 0).val, idx2_lt0 j⟩ : Fin 100000) k) * w1 (ix2 k (⟨(j 1).val, idx2_lt1 j⟩ : Fin 128))

theorem v31_eq (x : X) (w1 : W1) : val_main_v31 (F := Ideal) x w1 = prod1 x w1 := by
  funext j
  rw [val_main_v31_apply]
  unfold prod1
  refine Finset.sum_congr rfl fun k _ => ?_
  have hl : lidx_main_v31 j k = ix2 (⟨(j 0).val, idx2_lt0 j⟩ : Fin 100000) k :=
    funext fun a => by match a with | ⟨0, _⟩ => rfl | ⟨1, _⟩ => rfl
  have hr : ridx_main_v31 j k = ix2 k (⟨(j 1).val, idx2_lt1 j⟩ : Fin 128) :=
    funext fun a => by match a with | ⟨0, _⟩ => rfl | ⟨1, _⟩ => rfl
  rw [hl, hr]

/-- The reference's per-edge rows of layer 1: the gathered row times the edge's coefficient `dv[src] · dv[dst]`. -/
theorem v41_eq (x : X) (ei : EI) (w1 : W1) : val_main_v41 (F := Ideal) x ei w1
    = fun j => Host.gather (rowGatherDims 100000 1700000 128 wfG128) (prod1 x w1) (srcCol ei) j
        * (Host.gather (flatGatherDims 100000 1700000 wfg) (dv ei) (srcCol ei) (ix1 ⟨(j 0).val, idx2_lt0 j⟩)
          * Host.gather (flatGatherDims 100000 1700000 wfg) (dv ei) (dstWCol ei) (ix1 ⟨(j 0).val, idx2_lt0 j⟩)) := by
  funext j
  have hi : idx_main_v39 (idx_main_v40 j) = ix1 (⟨(j 0).val, idx2_lt0 j⟩ : Fin 1700000) :=
    funext fun a => by match a with | ⟨0, _⟩ => rfl
  rw [val_main_v41_apply, val_main_v40_apply, val_main_v39_apply, hi, val_main_v30_apply]
  unfold val_main_v38 val_main_v22 val_main_v29
  rw [v31_eq, recG128, recg, v21_eq]
  simp only [Ideal.mulf_def]

theorem v42_zero (i : (⟨2, ![100000, 128]⟩ : Shape).Idx) : val_main_v42 (F := Ideal) i = 0 := by
  rw [val_main_v42_apply, val_main_cst_9_apply]; exact Cert.Consts.ofBits_zero

/-- THE REFERENCE'S FIRST SCATTER IN THE KERNEL'S FORM: the aggregate of the rows scaled by `dv`, scaled by `dv`. -/
theorem ref_layer1 (x : X) (ei : EI) (w1 : W1) (r : Fin 100000) (f : Fin 128) :
    val_main_v44 (F := Ideal) x ei w1 (ix2 r f)
      = Ideal.hostScatterAdd (rowScatterDims 100000 1700000 128 wfS128) (val_main_v42 (F := Ideal)) (dstCol ei)
          (Host.gather (rowGatherDims 100000 1700000 128 wfG128)
            (fun j => prod1 x w1 j * dv ei (ix1 ⟨(j 0).val, idx2_lt0 j⟩)) (srcCol ei)) (ix2 r f)
        * dv ei (ix1 r) := by
  unfold val_main_v44
  rw [scatterAdd_ideal, v41_eq, recS128]
  exact (layer_eq (by norm_num) wfG128 wfg wfS128 (prod1 x w1) (dv ei) (val_main_v42 (F := Ideal)) (srcCol ei) (dstCol ei)
    (dstWCol ei) 100000#32 (dv_nonnegReal ei) v42_zero (dstWCol_apply ei) r f).symm

/-! ## Layer 2 -/

/-- The reference's per-edge rows of layer 2. -/
theorem v59_eq (x : X) (ei : EI) (w1 : W1) (b1 : B1) (w2 : W2) : val_main_v59 (F := Ideal) x ei w1 b1 w2
    = fun j => Host.gather (rowGatherDims 100000 1700000 64 wfG64) (val_main_v49 (F := Ideal) x ei w1 b1 w2) (srcCol ei) j
        * (Host.gather (flatGatherDims 100000 1700000 wfg) (dv ei) (srcCol ei) (ix1 ⟨(j 0).val, idx2_lt0 j⟩)
          * Host.gather (flatGatherDims 100000 1700000 wfg) (dv ei) (dstWCol ei) (ix1 ⟨(j 0).val, idx2_lt0 j⟩)) := by
  funext j
  have hi : idx_main_v57 (idx_main_v58 j) = ix1 (⟨(j 0).val, idx2_lt0 j⟩ : Fin 1700000) :=
    funext fun a => by match a with | ⟨0, _⟩ => rfl
  rw [val_main_v59_apply, val_main_v58_apply, val_main_v57_apply, hi, val_main_v30_apply]
  unfold val_main_v56 val_main_v22 val_main_v29
  rw [recG64, recg, v21_eq, v55_eq]
  simp only [Ideal.mulf_def]

theorem v60_zero (i : (⟨2, ![100000, 64]⟩ : Shape).Idx) : val_main_v60 (F := Ideal) i = 0 := by
  rw [val_main_v60_apply, val_main_cst_12_apply]; exact Cert.Consts.ofBits_zero

/-- THE REFERENCE'S SECOND SCATTER IN THE KERNEL'S FORM. -/
theorem ref_layer2 (x : X) (ei : EI) (w1 : W1) (b1 : B1) (w2 : W2) (r : Fin 100000) (q : Fin 64) :
    val_main_v62 (F := Ideal) x ei w1 b1 w2 (ix2 r q)
      = Ideal.hostScatterAdd (rowScatterDims 100000 1700000 64 wfS64) (val_main_v60 (F := Ideal)) (dstCol ei)
          (Host.gather (rowGatherDims 100000 1700000 64 wfG64)
            (fun j => val_main_v49 (F := Ideal) x ei w1 b1 w2 j * dv ei (ix1 ⟨(j 0).val, idx2_lt0 j⟩)) (srcCol ei)) (ix2 r q)
        * dv ei (ix1 r) := by
  unfold val_main_v62
  rw [scatterAdd_ideal, v59_eq, recS64, v61_eq]
  exact (layer_eq (by norm_num) wfG64 wfg wfS64 (val_main_v49 (F := Ideal) x ei w1 b1 w2) (dv ei) (val_main_v60 (F := Ideal))
    (srcCol ei) (dstCol ei) (dstWCol ei) 100000#32 (dv_nonnegReal ei) v60_zero (dstWCol_apply ei) r q).symm

end Cert.Bridge

end
-- ==== Proof.BridgeLsm.lean ====
/-
  The reference's last stage: the row-wise log-softmax of its logits.

  The reference takes each row's maximum by a reduce from `−∞` (and the maximum with `−∞` once more), subtracts it,
  exponentiates, sums each row from `0`, takes the logarithm and subtracts it: at `(r, q)` this is the log-softmax of row
  `r` of the logits at lane `q`, the one function of a row that the kernel's last region computes too.
-/
import proofs.«143718_j79242146611357_2_alg».proof.Proof.RefReadP
import proofs.«143718_j79242146611357_2_alg».proof.Proof.Spec
import proofs.«143718_j79242146611357_2_alg».proof.Proof.Consts
import Idealize.ShloMosaic.Lib.ValueIdx
import Idealize.ShloMosaic.Lib.Pipeline.Value
import Idealize.ShloMosaic.PureOps.Ideal.Laws

set_option maxRecDepth 16384

noncomputable section

namespace Cert.Bridge

open Idealize.ShloMosaic Idealize.ShloMosaic.ValueIdx
open Cert.Spec
open Cert.ReferenceIdeal.ReadP

/-- The shape fact behind both row reductions: dropping axis 1 of a `100000 × 64` array leaves `100000` rows. -/
theorem reduces_rows : (⟨2, ![100000, 64]⟩ : Shape).Reduces [1] ⟨1, ![100000]⟩ := by decide

/-- Row `r` with lane `k` inserted on the dropped axis is the index `(r, k)`. -/
theorem lift_rows (r : Fin 100000) (k : Fin 64) : reduces_rows.lift (ix1 r) k = ix2 r k := by
  funext ax; apply Fin.ext
  match ax with
  | ⟨0, _⟩ => rfl
  | ⟨1, _⟩ => rfl

/-- A reduce by `max` from `−∞` over axis 1, read at row `r`: the fold of `max` from `−∞` over the row's lanes. -/
theorem reduceMax_rows (L : (⟨2, ![100000, 64]⟩ : Shape).Idx → EReal) (c : (⟨0, ![]⟩ : Shape).Idx → EReal)
    (h' : (⟨2, ![100000, 64]⟩ : Shape).ReducesTo [1] ⟨1, ![100000]⟩) (hu : 0 < (⟨0, ![]⟩ : Shape).numel) (r : Fin 100000) :
    Host.reduce (FloatOps.maximumf (F := Ideal) (φ := .f32)) L c h' hu (ix1 r)
      = Finset.univ.fold max (c (Shape.Idx.first hu)) (fun k : Fin 64 => L (ix2 r k)) := by
  refine (Host.reduce_eq_fold_single (FloatOps.maximumf (F := Ideal) (φ := .f32)) L c h' reduces_rows hu (ix1 r)).trans ?_
  have hf : (L ∘ reduces_rows.lift (ix1 r)) = fun k : Fin 64 => L (ix2 r k) :=
    funext fun k => congrArg L (lift_rows r k)
  rw [hf]
  rfl

section
variable (x : (⟨2, ![100000, 128]⟩ : Shape).Idx → EReal) (ei : (⟨2, ![2, 1600000]⟩ : Shape).Idx → BitVec 32)
    (w1 : (⟨2, ![128, 128]⟩ : Shape).Idx → EReal) (b1 : (⟨1, ![128]⟩ : Shape).Idx → EReal)
    (w2 : (⟨2, ![128, 64]⟩ : Shape).Idx → EReal) (b2 : (⟨1, ![64]⟩ : Shape).Idx → EReal)

/-- The reference's row maximum at row `r`: the maximum of the row of logits, as the specification takes it. -/
theorem ref_rowMax (r : Fin 100000) :
    val_main_call2_v2 (F := Ideal) x ei w1 b1 w2 b2 (ix1 r)
      = rowMax (fun k => val_main_v65 (F := Ideal) x ei w1 b1 w2 b2 (ix2 r k)) := by
  rw [val_main_call2_v2_apply, val_main_call2_v1_apply, val_main_call2_cst_0_apply]
  unfold val_main_call2_v0
  rw [reduceMax_rows, val_main_call2_cst_apply]
  generalize (fun k : Fin 64 => val_main_v65 (F := Ideal) x ei w1 b1 w2 b2 (ix2 r k)) = row
  rfl

/-- The reference's shifted logits at `(r, k)`: the logit less its row's maximum. -/
theorem ref_shifted (r : Fin 100000) (k : Fin 64) :
    val_main_call2_v5 (F := Ideal) x ei w1 b1 w2 b2 (ix2 r k)
      = val_main_v65 (F := Ideal) x ei w1 b1 w2 b2 (ix2 r k)
        - rowMax (fun k => val_main_v65 (F := Ideal) x ei w1 b1 w2 b2 (ix2 r k)) := by
  have hi : idx_main_call2_v3 (idx_main_call2_v4 (ix2 r k)) = ix1 r :=
    funext fun a => by match a with | ⟨0, _⟩ => rfl
  rw [val_main_call2_v5_apply, val_main_call2_v4_apply, val_main_call2_v3_apply, hi, ref_rowMax, Ideal.subf_def]

/-- The reference's row sum at row `r`: the sum over the lanes of the exponentials of the shifted logits. -/
theorem ref_sumExp (r : Fin 100000) :
    val_main_call2_v7 (F := Ideal) x ei w1 b1 w2 b2 (ix1 r)
      = ∑ k : Fin 64, Ideal.exp (val_main_v65 (F := Ideal) x ei w1 b1 w2 b2 (ix2 r k)
          - rowMax (fun k => val_main_v65 (F := Ideal) x ei w1 b1 w2 b2 (ix2 r k))) := by
  rw [val_main_call2_v7_apply, val_main_call2_cst_1_apply, Ideal.ofBits_def, Cert.Consts.ofBits_zero, zero_add]
  refine Finset.sum_congr rfl fun k _ => ?_
  have hi : idx_main_call2_v7 (ix1 r) k = ix2 r k :=
    funext fun a => by match a with | ⟨0, _⟩ => rfl | ⟨1, _⟩ => rfl
  rw [hi, val_main_call2_v6_apply, Ideal.hostUnary_exp_def, ref_shifted]

end

/-- THE REFERENCE'S RESULT at `(r, q)`: the log-softmax of row `r` of its logits (the stage `val_main_v65`) at lane `q`. -/
theorem ref_lsm (x : (⟨2, ![100000, 128]⟩ : Shape).Idx → EReal) (ei : (⟨2, ![2, 1600000]⟩ : Shape).Idx → BitVec 32)
    (w1 : (⟨2, ![128, 128]⟩ : Shape).Idx → EReal) (b1 : (⟨1, ![128]⟩ : Shape).Idx → EReal)
    (w2 : (⟨2, ![128, 64]⟩ : Shape).Idx → EReal) (b2 : (⟨1, ![64]⟩ : Shape).Idx → EReal) (r : Fin 100000) (q : Fin 64) :
    val_main_v66 (F := Ideal) x ei w1 b1 w2 b2 (ix2 r q)
      = rowLogSoftmax (fun k => val_main_v65 (F := Ideal) x ei w1 b1 w2 b2 (ix2 r k)) q := by
  have hi : idx_main_call2_v8 (idx_main_call2_v10 (ix2 r q)) = ix1 r :=
    funext fun a => by match a with | ⟨0, _⟩ => rfl
  rw [val_main_v66_apply, ref_shifted, val_main_call2_v10_apply, val_main_call2_v9_apply, Ideal.hostUnary_log_def,
    val_main_call2_v8_apply, hi, ref_sumExp, Ideal.subf_def]
  unfold rowLogSoftmax
  beta_reduce
  rfl

end Cert.Bridge

end
-- ==== Proof.BridgeFinal.lean ====
/-
  The two programs compute one function.

  The kernel's value, read off its run, is: the rows of `x · W1` scaled by `dv`, aggregated, scaled again, biased,
  rectified, multiplied by `W2`, scaled, aggregated, scaled, biased, through the row-wise log-softmax. The
  reference's, read off its run, scales every gathered row by its edge's coefficient instead. With each of the
  reference's two scatters put in the kernel's form (the layer identity), the two agree stage by stage: the first
  aggregate, the hidden activations, the second aggregate, the logits, and so the log-softmax of every row.
-/
import proofs.«143718_j79242146611357_2_alg».proof.Proof.BridgeRef
import proofs.«143718_j79242146611357_2_alg».proof.Proof.BridgeLsm
import proofs.«143718_j79242146611357_2_alg».proof.Proof.KernelHostDefs
import proofs.«143718_j79242146611357_2_alg».proof.Proof.LibColumnCast
import Idealize.ShloMosaic.Lib.ValueIdx
import Idealize.ShloMosaic.Lib.ValueLayout

set_option maxRecDepth 16384

noncomputable section

namespace Cert.Bridge

open Idealize.ShloMosaic Idealize.ShloMosaic.ValueIdx
open Cert.Lib.GatherScatter Cert.Spec
open Cert.ReferenceIdeal.ReadP
open Cert.KernelIdeal (Host.dinv Host.dinvCol Host.srcCol Host.dstCol Host.agg128 Host.agg64 Host.hidden Host.value)
open Cert.KernelIdeal.Region0 Cert.KernelIdeal.Region1 Cert.KernelIdeal.Region2

/-! ## The regions' functions at an index (over variables: nothing is opened) -/

theorem scaledProduct_ix2 (x : X) (w : W1) (col : (⟨2, ![100000, 1]⟩ : Shape).Idx → EReal) (r : Fin 100000) (f : Fin 128) :
    scaledProduct x w col (ix2 r f) = (∑ k : Fin 128, x (ix2 r k) * w (ix2 k f)) * col (ix2 r (0 : Fin 1)) := rfl

theorem prod1_ix2 (x : X) (w : W1) (r : Fin 100000) (f : Fin 128) :
    prod1 x w (ix2 r f) = ∑ k : Fin 128, x (ix2 r k) * w (ix2 k f) := rfl

theorem hiddenScaled_ix2 (agg : X) (col : (⟨2, ![100000, 1]⟩ : Shape).Idx → EReal) (b : (⟨2, ![1, 128]⟩ : Shape).Idx → EReal)
    (w : W2) (r : Fin 100000) (q : Fin 64) :
    hiddenScaled agg col b w (ix2 r q)
      = (∑ k : Fin 128, max (agg (ix2 r k) * col (ix2 r (0 : Fin 1)) + b (ix2 (0 : Fin 1) k)) (Ideal.ofBits .f32 0x00000000#32)
          * w (ix2 k q)) * col (ix2 r (0 : Fin 1)) := rfl

theorem logitsRow_apply (agg : (⟨2, ![100000, 64]⟩ : Shape).Idx → EReal) (col : (⟨2, ![100000, 1]⟩ : Shape).Idx → EReal)
    (b : (⟨2, ![1, 64]⟩ : Shape).Idx → EReal) (r : Fin 100000) (k : Fin 64) :
    logitsRow agg col b r k = agg (ix2 r k) * col (ix2 r (0 : Fin 1)) + b (ix2 (0 : Fin 1) k) := rfl

theorem logSoftmaxRows_ix2 (agg : (⟨2, ![100000, 64]⟩ : Shape).Idx → EReal) (col : (⟨2, ![100000, 1]⟩ : Shape).Idx → EReal)
    (b : (⟨2, ![1, 64]⟩ : Shape).Idx → EReal) (r : Fin 100000) (q : Fin 64) :
    logSoftmaxRows agg col b (ix2 r q) = rowLogSoftmax (logitsRow agg col b r) q := rfl

/-! ## The two programs' shared terms -/

theorem kdinv_eq (ei : EI) : Host.dinv ei = dv ei := rfl
theorem ksrc_eq (ei : EI) : Host.srcCol ei = srcCol ei := rfl
theorem kdst_eq (ei : EI) : Host.dstCol ei = dstCol ei := rfl
theorem krecS128 : Cert.KernelIdeal.scatter_S100000x128_S1700000x1_S1700000x128_1_0_0_1
    = rowScatterDims 100000 1700000 128 wfS128 := rfl
theorem krecS64 : Cert.KernelIdeal.scatter_S100000x64_S1700000x1_S1700000x64_1_0_0_1
    = rowScatterDims 100000 1700000 64 wfS64 := rfl
theorem krecG128 : Cert.KernelIdeal.gather_S100000x128_S1700000x1_S1700000x128_1_0_n_n_0_1_1128
    = rowGatherDims 100000 1700000 128 wfG128 := rfl
theorem krecG64 : Cert.KernelIdeal.gather_S100000x64_S1700000x1_S1700000x64_1_0_n_n_0_1_164
    = rowGatherDims 100000 1700000 64 wfG64 := rfl
theorem kzero128 : broadcastInDim Cert.KernelIdeal.S100000x128 ![] Cert.KernelIdeal.Facts₀.bcast_S_S100000x128
    (constant (F := Ideal) Cert.KernelIdeal.S_ .f32 0x00000000#32) = val_main_v42 (F := Ideal) := rfl
theorem kzero64 : broadcastInDim Cert.KernelIdeal.S100000x64 ![] Cert.KernelIdeal.Facts₀.bcast_S_S100000x64
    (constant (F := Ideal) Cert.KernelIdeal.S_ .f32 0x00000000#32) = val_main_v60 (F := Ideal) := rfl

/-- The degree column's entry of row `r` is `dv[r]`. -/
theorem dinvCol_apply (ei : EI) (r : Fin 100000) : Host.dinvCol ei (ix2 r (0 : Fin 1)) = dv ei (ix1 r) := by
  unfold Cert.KernelIdeal.Host.dinvCol
  rw [kdinv_eq]
  exact Cert.Lib.ColumnCast.shapeCast_a_a1_apply (dv ei) _ r (0 : Fin 1)

/-- The kernel's aggregation of 128-lane rows is the scatter-add of the gathered rows, in the general dimension numbers. -/
theorem agg128_eq (ei : EI) (H : X) : Host.agg128 ei H
    = Ideal.hostScatterAdd (rowScatterDims 100000 1700000 128 wfS128) (val_main_v42 (F := Ideal)) (dstCol ei)
        (Host.gather (rowGatherDims 100000 1700000 128 wfG128) H (srcCol ei)) := by
  unfold Cert.KernelIdeal.Host.agg128
  rw [scatterAdd_ideal, kdst_eq, ksrc_eq, krecS128, krecG128, kzero128]

theorem agg64_eq (ei : EI) (H : (⟨2, ![100000, 64]⟩ : Shape).Idx → EReal) : Host.agg64 ei H
    = Ideal.hostScatterAdd (rowScatterDims 100000 1700000 64 wfS64) (val_main_v60 (F := Ideal)) (dstCol ei)
        (Host.gather (rowGatherDims 100000 1700000 64 wfG64) H (srcCol ei)) := by
  unfold Cert.KernelIdeal.Host.agg64
  rw [scatterAdd_ideal, kdst_eq, ksrc_eq, krecS64, krecG64, kzero64]

/-! ## Layer 1 -/

/-- The kernel's first region output: the rows of the product scaled by `dv`. -/
theorem scaled_eq (x : X) (ei : EI) (w1 : W1) :
    scaledProduct x w1 (Host.dinvCol ei) = fun j => prod1 x w1 j * dv ei (ix1 ⟨(j 0).val, idx2_lt0 j⟩) := by
  funext j
  obtain ⟨r, f, rfl⟩ : ∃ (r : Fin 100000) (f : Fin 128), j = ix2 r f := ⟨j 0, j 1, eq_ix2 j⟩
  rw [scaledProduct_ix2, dinvCol_apply, prod1_ix2]

/-- The kernel's first aggregate, scaled, is the reference's first scatter. -/
theorem layer1 (x : X) (ei : EI) (w1 : W1) (r : Fin 100000) (k : Fin 128) :
    Host.agg128 ei (scaledProduct x w1 (Host.dinvCol ei)) (ix2 r k) * dv ei (ix1 r)
      = val_main_v44 (F := Ideal) x ei w1 (ix2 r k) := by
  rw [scaled_eq, agg128_eq, ref_layer1]

/-- The reference's hidden activations at `(r, k)`: scatter plus bias, maximum with zero. -/
theorem v48_apply (x : X) (ei : EI) (w1 : W1) (b1 : B1) (r : Fin 100000) (k : Fin 128) :
    val_main_v48 (F := Ideal) x ei w1 b1 (ix2 r k)
      = max (val_main_v44 (F := Ideal) x ei w1 (ix2 r k) + b1 (ix1 k)) (Ideal.ofBits .f32 0x00000000#32) := by
  have hi : idx_main_v45 (idx_main_v46 (ix2 r k)) = ix1 k := funext fun a => by match a with | ⟨0, _⟩ => rfl
  rw [val_main_v48_apply, val_main_v47_apply, val_main_v46_apply, val_main_v45_apply, hi, val_main_call1_v0_apply,
    val_main_call1_cst_apply]
  simp only [Ideal.maximumf_def, Ideal.addf_def, Ideal.ofBits_def]

/-- The region-1 function at `(r, q)`, from the column's entry of row `r` and the rectified entries of row `r`
    (over variables: nothing is opened). -/
theorem hiddenScaled_eq_of (agg : X) (col : (⟨2, ![100000, 1]⟩ : Shape).Idx → EReal) (b : (⟨2, ![1, 128]⟩ : Shape).Idx → EReal)
    (w : W2) (r : Fin 100000) (q : Fin 64) (d : EReal) (act : Fin 128 → EReal) (hcol : col (ix2 r (0 : Fin 1)) = d)
    (hact : ∀ k : Fin 128, max (agg (ix2 r k) * d + b (ix2 (0 : Fin 1) k)) (Ideal.ofBits .f32 0x00000000#32) = act k) :
    hiddenScaled agg col b w (ix2 r q) = (∑ k : Fin 128, act k * w (ix2 k q)) * d := by
  rw [hiddenScaled_ix2, hcol]
  congr 1
  exact Finset.sum_congr rfl fun k _ => by rw [hact k]

/-- The reference's second product at `(r, q)`: the sum over `k` of the hidden activations times `W2`. -/
theorem v49_ix2 (x : X) (ei : EI) (w1 : W1) (b1 : B1) (w2 : W2) (r : Fin 100000) (q : Fin 64) :
    val_main_v49 (F := Ideal) x ei w1 b1 w2 (ix2 r q)
      = ∑ k : Fin 128, val_main_v48 (F := Ideal) x ei w1 b1 (ix2 r k) * w2 (ix2 k q) := by
  rw [val_main_v49_apply]
  refine Finset.sum_congr rfl fun k _ => ?_
  have hl : lidx_main_v49 (ix2 r q) k = ix2 r k := funext fun a => by match a with | ⟨0, _⟩ => rfl | ⟨1, _⟩ => rfl
  have hr : ridx_main_v49 (ix2 r q) k = ix2 k q := funext fun a => by match a with | ⟨0, _⟩ => rfl | ⟨1, _⟩ => rfl
  rw [hl, hr]

/-- The kernel's rectified entry of row `r` is the reference's hidden activation. -/
theorem act_eq (x : X) (ei : EI) (w1 : W1) (b1 : B1) (r : Fin 100000) (k : Fin 128) :
    max (Host.agg128 ei (scaledProduct x w1 (Host.dinvCol ei)) (ix2 r k) * dv ei (ix1 r)
        + shapeCast Cert.KernelIdeal.S1x128 b1 Cert.KernelIdeal.Facts₀.shapeCasts_S128_S1x128 (ix2 (0 : Fin 1) k))
      (Ideal.ofBits .f32 0x00000000#32)
      = val_main_v48 (F := Ideal) x ei w1 b1 (ix2 r k) := by
  rw [v48_apply, layer1, shapeCast_a_1a_apply]

/-- The kernel's second region output: the reference's second product, its rows scaled by `dv`. -/
theorem hidden_apply (x : X) (ei : EI) (w1 : W1) (b1 : B1) (w2 : W2) (r : Fin 100000) (q : Fin 64) :
    Host.hidden x ei w1 b1 w2 (ix2 r q) = val_main_v49 (F := Ideal) x ei w1 b1 w2 (ix2 r q) * dv ei (ix1 r) := by
  unfold Cert.KernelIdeal.Host.hidden
  refine (hiddenScaled_eq_of _ _ _ w2 r q (dv ei (ix1 r)) (fun k => val_main_v48 (F := Ideal) x ei w1 b1 (ix2 r k))
    (dinvCol_apply ei r) (fun k => act_eq x ei w1 b1 r k)).trans ?_
  rw [v49_ix2]

theorem hidden_eq (x : X) (ei : EI) (w1 : W1) (b1 : B1) (w2 : W2) :
    Host.hidden x ei w1 b1 w2
      = fun j => val_main_v49 (F := Ideal) x ei w1 b1 w2 j * dv ei (ix1 ⟨(j 0).val, idx2_lt0 j⟩) := by
  funext j
  obtain ⟨r, q, rfl⟩ : ∃ (r : Fin 100000) (q : Fin 64), j = ix2 r q := ⟨j 0, j 1, eq_ix2 j⟩
  exact hidden_apply x ei w1 b1 w2 r q

/-! ## Layer 2 and the result -/

/-- The kernel's second aggregate, scaled, is the reference's second scatter. -/
theorem layer2 (x : X) (ei : EI) (w1 : W1) (b1 : B1) (w2 : W2) (r : Fin 100000) (q : Fin 64) :
    Host.agg64 ei (Host.hidden x ei w1 b1 w2) (ix2 r q) * dv ei (ix1 r)
      = val_main_v62 (F := Ideal) x ei w1 b1 w2 (ix2 r q) := by
  rw [hidden_eq, agg64_eq, ref_layer2]

/-- The kernel's logits are the reference's. -/
theorem logits_eq (x : X) (ei : EI) (w1 : W1) (b1 : B1) (w2 : W2) (b2 : B2) (r : Fin 100000) :
    logitsRow (Host.agg64 ei (Host.hidden x ei w1 b1 w2)) (Host.dinvCol ei)
        (shapeCast Cert.KernelIdeal.S1x64 b2 Cert.KernelIdeal.Facts₀.shapeCasts_S64_S1x64) r
      = fun k => val_main_v65 (F := Ideal) x ei w1 b1 w2 b2 (ix2 r k) := by
  funext k
  have hi : idx_main_v63 (idx_main_v64 (ix2 r k)) = ix1 k := funext fun a => by match a with | ⟨0, _⟩ => rfl
  rw [logitsRow_apply, dinvCol_apply, layer2, shapeCast_a_1a_apply, val_main_v65_apply,
    val_main_v64_apply, val_main_v63_apply, hi]
  simp only [Ideal.addf_def]

/-- THE KERNEL'S VALUE IS THE REFERENCE'S, as functions of the six arguments. -/
theorem value_eq (x : X) (ei : EI) (w1 : W1) (b1 : B1) (w2 : W2) (b2 : B2) :
    Host.value x ei w1 b1 w2 b2 = val_main_v66 (F := Ideal) x ei w1 b1 w2 b2 := by
  funext j
  obtain ⟨r, q, rfl⟩ : ∃ (r : Fin 100000) (q : Fin 64), j = ix2 r q := ⟨j 0, j 1, eq_ix2 j⟩
  unfold Cert.KernelIdeal.Host.value
  rw [logSoftmaxRows_ix2, logits_eq, ref_lsm]

end Cert.Bridge

end
-- ==== Proof.lean ====
/-
  A two-layer graph convolution with a row-wise log-softmax: the Pallas kernel against its jnp reference, on the
  extended reals.

  Both programs append a self loop per node to the edge list, count degrees by a scatter-add of ones, and take
  `dv = deg^(-1/2)` (`0` where the degree is not positive). A layer of the reference gathers the source rows of `h · W`,
  scales each by its edge's coefficient `dv[src] · dv[dst]`, sums them onto their destination rows and adds the bias.
  The kernel factors the coefficient out of the edge sum: it scales the rows of `h · W` by `dv` in a Pallas region,
  gathers and sums on the host with no per-edge multiply, and scales the summed rows by `dv` in the next region, where
  it also adds the bias (and rectifies, multiplies by the next `W` and scales again; or, last, takes the log-softmax).
  The two agree because `·` is associative on the extended reals and a factor in `[0, +∞)` distributes over any finite
  sum of extended reals — and every `dv[i]` is such a factor, a degree being a finite sum of ones. On an edge that
  lands on row `i` the reference's gather of `dv` at the wrapped destination index reads `dv[i]`. Nothing else differs:
  a change of float format is the identity, a matrix product into a zero accumulator is the plain sum, the row-wise
  log-softmax is one function of a row on both sides. The finiteness of the inputs is never used.

  The kernel's run: three pipelined regions among host stretches; each region's output is its function of what it
  finds (Region0, Region1, Region2), the host stretches are read buffer by buffer (KernelHost), the result buffer off
  the final state (KernelRun). The reference's run: one straight line of 100 host operations read in five stages
  (RefValue) to the generated stage functions. The bridge (BridgeRef, BridgeLsm, BridgeFinal) proves the two values
  one function of the arguments. The idealization rewrote no operation, so `preserves` is `True`.
-/
import proofs.«143718_j79242146611357_2_alg».proof.Defs
import proofs.«143718_j79242146611357_2_alg».proof.Proof.Gen.Kernel
import proofs.«143718_j79242146611357_2_alg».proof.Proof.Gen.Kernel.Frame
import proofs.«143718_j79242146611357_2_alg».proof.Proof.Gen.KernelIdeal
import proofs.«143718_j79242146611357_2_alg».proof.Proof.Gen.KernelIdeal.Frame
import proofs.«143718_j79242146611357_2_alg».proof.Proof.Gen.ReferenceIdeal
import proofs.«143718_j79242146611357_2_alg».proof.Proof.Gen.Pre_finite_inputs
import proofs.«143718_j79242146611357_2_alg».proof.Proof.KernelRun
import proofs.«143718_j79242146611357_2_alg».proof.Proof.KernelHost
import proofs.«143718_j79242146611357_2_alg».proof.Proof.RefValue
import proofs.«143718_j79242146611357_2_alg».proof.Proof.BridgeFinal
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments alone: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.RefValue.run m ρ)

/-- From memories agreeing on the arguments both programs end with the one function of the arguments. -/
theorem algebraic : Cert.algebraic_KernelIdeal_ReferenceIdeal := by
  intro m ρ m' ρ' _ hagree
  refine ⟨fun c => Cert.KernelIdeal.Host.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Host.W8_v41 m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2.1, (hagree c).2.2.2.2.1, (hagree c).2.2.2.2.2]
    exact (Cert.Bridge.value_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
